-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S32768x2048 : Shape := ⟨2, ![32768, 2048]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x512 .f32) (main_arg12 : FVec F S256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256x512 .f32 := Host.absf main_arg11
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S256x512 .f32) (main_arg12 : FVec F S256 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S256x512 .f32) (main_arg6 : FVec F S256 .f32) (main_arg7 : FVec F S512x512 .f32) (main_arg8 : FVec F S512 .f32) (main_arg9 : FVec F S512x512 .f32) (main_arg10 : FVec F S512 .f32) (main_arg11 : FVec F S256x512 .f32) (main_arg12 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x256 .f32) (main_arg1 : FVec F S32768x2048 .f32) (main_arg2 : FVec F S32768x2048 .f32) (main_arg3 : FVec F S512x512 .f32) (main_arg4 : FVec F S512 .f32) (main_arg5 : FVec F S256x512 .f32) (main_arg6 : FVec F S256 .f32) (main_arg7 : FVec F S512x512 .f32) (main_arg8 : FVec F S512 .f32) (main_arg9 : FVec F S512x512 .f32) (main_arg10 : FVec F S512 .f32) (main_arg11 : FVec F S256x512 .f32) (main_arg12 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S32768x2048 .f32 := Host.absf main_arg2
  let main_cst_2 : FVec F S_ .f32 := constant S_ .f32 0x7F800000#32
  let main_v10 : FVec F S32768x2048 .f32 := broadcastInDim S32768x2048 ![] bcast_S_S32768x2048 main_cst_2
  let main_v11 : IVec S32768x2048 1 := cmpf .olt main_v9 main_v10
  let main_c_3 : IVec S_ 1 := constantI S_ 1 1#1
  let main_v12 : IVec S_ 1 := (fun x v => Host.reduce IntOp.andi x v reducesTo_S32768x2048_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S2048x256 : Shape := ⟨2, ![2048, 256]⟩
abbrev S32768x2048 : Shape := ⟨2, ![32768, 2048]⟩
abbrev S512x512 : Shape := ⟨2, ![512, 512]⟩
abbrev S512 : Shape := ⟨1, ![512]⟩
abbrev S256x512 : Shape := ⟨2, ![256, 512]⟩
abbrev S256 : Shape := ⟨1, ![256]⟩
abbrev S512x256 : Shape := ⟨2, ![512, 256]⟩
abbrev S1x512 : Shape := ⟨2, ![1, 512]⟩
abbrev S1x256 : Shape := ⟨2, ![1, 256]⟩
abbrev S2x2048x256 : Shape := ⟨3, ![2, 2048, 256]⟩
abbrev S1024x2048 : Shape := ⟨2, ![1024, 2048]⟩
abbrev S1x2048x256 : Shape := ⟨3, ![1, 2048, 256]⟩
abbrev S1024x256 : Shape := ⟨2, ![1024, 256]⟩
abbrev S1024x512 : Shape := ⟨2, ![1024, 512]⟩
abbrev S2x1024x256 : Shape := ⟨3, ![2, 1024, 256]⟩

abbrev nBuf : Space → Nat
  | .hbm => 31
  | .vmem => 24
  | .smem => 0
  | _ => 0

abbrev bufTy : (tb : Table) → Fin (tcTables nBuf tb) → BufTy
  | .hbm, ⟨0, _⟩ => ⟨S2048x256, .f32⟩
  | .hbm, ⟨1, _⟩ => ⟨S32768x2048, .f32⟩
  | .hbm, ⟨2, _⟩ => ⟨S32768x2048, .f32⟩
  | .hbm, ⟨3, _⟩ => ⟨S512x512, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S2048x256, .bf16⟩
  | .hbm, ⟨14, _⟩ => ⟨S512x512, .f32⟩
  | .hbm, ⟨15, _⟩ => ⟨S512x512, .bf16⟩
  | .hbm, ⟨16, _⟩ => ⟨S512x256, .f32⟩
  | .hbm, ⟨17, _⟩ => ⟨S512x256, .bf16⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S512x256, .f32⟩
  | .hbm, ⟨23, _⟩ => ⟨S512x256, .bf16⟩
  | .hbm, ⟨24, _⟩ => ⟨S1x512, .f32⟩
  | .hbm, ⟨25, _⟩ => ⟨S1x256, .f32⟩
  | .hbm, ⟨26, _⟩ => ⟨S1x512, .f32⟩
  | .hbm, ⟨27, _⟩ => ⟨S1x512, .f32⟩
  | .hbm, ⟨28, _⟩ => ⟨S1x256, .f32⟩
  | .hbm, ⟨29, _⟩ => ⟨S2x2048x256, .f32⟩
  | .hbm, ⟨30, _⟩ => ⟨S2048x256, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x256, .bf16⟩
  | .local _ .vmem, ⟨5, _⟩ => ⟨S512x512, .bf16⟩
  | .local _ .vmem, ⟨6, _⟩ => ⟨S1x512, .f32⟩
  | .local _ .vmem, ⟨7, _⟩ => ⟨S512x256, .bf16⟩
  | .local _ .vmem, ⟨8, _⟩ => ⟨S1x256, .f32⟩
  | .local _ .vmem, ⟨9, _⟩ => ⟨S1x2048x256, .f32⟩
  | .local _ .vmem, ⟨10, _⟩ => ⟨S1x2048x256, .f32⟩
  | .local _ .vmem, ⟨11, _⟩ => ⟨S2048x256, .f32⟩
  | .local _ .vmem, ⟨12, _⟩ => ⟨S2x1024x256, .f32⟩
  | .local _ .vmem, ⟨13, _⟩ => ⟨S2x1024x256, .f32⟩
  | .local _ .vmem, ⟨14, _⟩ => ⟨S1024x256, .f32⟩
  | .local _ .vmem, ⟨15, _⟩ => ⟨S1024x256, .f32⟩
  | .local _ .vmem, ⟨16, _⟩ => ⟨S512x512, .bf16⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S512x256, .bf16⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  transposes_S512x512_S512x512_1_0 : S512x512.Transposes [1, 0] S512x512
  transposes_S256x512_S512x256_1_0 : S256x512.Transposes [1, 0] S512x256
  shapeCasts_S512_S1x512 : S512.ShapeCasts S1x512
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  concatenates_S1024x256_S1024x256_S1024x512_d1 : Shape.Concatenates [S1024x256, S1024x256] S1024x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S2x1024x256_S2x1024x256_0_0_0 : ∀ a, (![0, 0, 0] : Fin 3 → Nat) a + S2x1024x256.size a ≤ S2x1024x256.size a
  h_S2x1024x256 : 0 < S2x1024x256.numel
  shapeCasts_S2x1024x256_S2x1024x256 : S2x1024x256.ShapeCasts S2x1024x256
  reduces_S2x1024x256_S1024x256 : S2x1024x256.Reduces [0] S1024x256
  inb_S1024x256_S1024x256_0_0 : ∀ a, (![0, 0] : Fin 2 → Nat) a + S1024x256.size a ≤ S1024x256.size a
  h_S1024x256 : 0 < S1024x256.numel
  dot_S1024x2048_S2048x256_S1024x256_1_0_0_1_n_n_wf : DotDims.WF S1024x2048 S2048x256 S1024x256 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x2048_S1024x256_S2048x256_0_0_1_1_n_n_wf : DotDims.WF S1024x2048 S1024x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x2048.size a
  hwx0_1 : ∀ i : grid0.Coords, EltTy.bits .f32 = 32 ∨ (Rect.block (s := S32768x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x256.size a ≤ S2x2048x256.size a
  hwx0_7 : ∀ i : grid0.Coords, EltTy.bits .f32 = 32 ∨ (Rect.block (s := S2x2048x256) S1x2048x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x256.size a ≤ S2x2048x256.size a
  hwx1_0 : ∀ i : grid1.Coords, EltTy.bits .f32 = 32 ∨ (Rect.block (s := S2x2048x256) S2x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S2048x256.size a
  hwx1_1 : ∀ i : grid1.Coords, EltTy.bits .f32 = 32 ∨ (Rect.block (s := S2048x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .bf16 = 32 ∨ (Rect.block (s := S512x256) S512x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S2048x256.size a
  hwx1_8 : ∀ i : grid1.Coords, EltTy.bits .f32 = 32 ∨ (Rect.block (s := S2048x256) S1024x256.size (cc1_transform_8 i) (hinb1_8 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v16) S2x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2048x256 : Shape := ⟨2, ![2048, 256]⟩
abbrev S32768x2048 : Shape := ⟨2, ![32768, 2048]⟩
abbrev S512x512 : Shape := ⟨2, ![512, 512]⟩
abbrev S512 : Shape := ⟨1, ![512]⟩
abbrev S256x512 : Shape := ⟨2, ![256, 512]⟩
abbrev S256 : Shape := ⟨1, ![256]⟩
abbrev S32768x256 : Shape := ⟨2, ![32768, 256]⟩
abbrev S32768x512 : Shape := ⟨2, ![32768, 512]⟩
abbrev S1x512 : Shape := ⟨2, ![1, 512]⟩
abbrev S_ : Shape := ⟨0, ![]⟩
abbrev S512x256 : Shape := ⟨2, ![512, 256]⟩
abbrev S1x256 : Shape := ⟨2, ![1, 256]⟩
abbrev S2048x32768 : Shape := ⟨2, ![2048, 32768]⟩
abbrev S2048x512 : Shape := ⟨2, ![2048, 512]⟩

abbrev nBuf : Space → Nat
  | .hbm => 57
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S32768x2048, .f32⟩
  | .hbm, ⟨2, _⟩ => ⟨S32768x2048, .f32⟩
  | .hbm, ⟨3, _⟩ => ⟨S512x512, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S32768x256, .f32⟩
  | .hbm, ⟨14, _⟩ => ⟨S32768x256, .f32⟩
  | .hbm, ⟨15, _⟩ => ⟨S32768x512, .f32⟩
  | .hbm, ⟨16, _⟩ => ⟨S512x512, .f32⟩
  | .hbm, ⟨17, _⟩ => ⟨S32768x512, .f32⟩
  | .hbm, ⟨18, _⟩ => ⟨S1x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S512x256, .f32⟩
  | .hbm, ⟨25, _⟩ => ⟨S32768x256, .f32⟩
  | .hbm, ⟨26, _⟩ => ⟨S1x256, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S2048x32768, .f32⟩
  | .hbm, ⟨33, _⟩ => ⟨S2048x256, .f32⟩
  | .hbm, ⟨34, _⟩ => ⟨S2048x512, .f32⟩
  | .hbm, ⟨35, _⟩ => ⟨S512x512, .f32⟩
  | .hbm, ⟨36, _⟩ => ⟨S2048x512, .f32⟩
  | .hbm, ⟨37, _⟩ => ⟨S1x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S512x512, .f32⟩
  | .hbm, ⟨44, _⟩ => ⟨S2048x512, .f32⟩
  | .hbm, ⟨45, _⟩ => ⟨S1x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S2048x512, .f32⟩
  | .hbm, ⟨50, _⟩ => ⟨S2048x512, .f32⟩
  | .hbm, ⟨51, _⟩ => ⟨S512x256, .f32⟩
  | .hbm, ⟨52, _⟩ => ⟨S2048x256, .f32⟩
  | .hbm, ⟨53, _⟩ => ⟨S1x256, .f32⟩
  | .hbm, ⟨54, _⟩ => ⟨S2048x256, .f32⟩
  | .hbm, ⟨55, _⟩ => ⟨S2048x256, .f32⟩
  | .hbm, ⟨56, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_cst : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call3_cst : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  concatenates_S32768x256_S32768x256_S32768x512_d1 : Shape.Concatenates [S32768x256, S32768x256] S32768x512 1
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S32768x2048_S2048x32768_1_0 : S32768x2048.Transposes [1, 0] S2048x32768
  concatenates_S2048x256_S2048x256_S2048x512_d1 : Shape.Concatenates [S2048x256, S2048x256] S2048x512 1
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S1x256_S2048x256_0_1 : S1x256.BroadcastsInDim S2048x256 (![0, 1] : Fin 2 → Fin S2048x256.rank)
  dot_S32768x2048_S2048x256_S32768x256_1_0_0_1_n_n_wf : DotDims.WF S32768x2048 S2048x256 S32768x256 [1] [0] [0] [1] [] []
  dot_S32768x512_S512x512_S32768x512_1_0_0_1_n_n_wf : DotDims.WF S32768x512 S512x512 S32768x512 [1] [0] [0] [1] [] []
  dot_S32768x512_S512x256_S32768x256_1_0_0_1_n_n_wf : DotDims.WF S32768x512 S512x256 S32768x256 [1] [0] [0] [1] [] []
  dot_S2048x32768_S32768x256_S2048x256_1_0_0_1_n_n_wf : DotDims.WF S2048x32768 S32768x256 S2048x256 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []

variable [Facts₀]

def dot_S32768x2048_S2048x256_S32768x256_1_0_0_1_n_n : DotDims S32768x2048 S2048x256 S32768x256 where
  lhsContracting := [1]
  rhsContracting := [0]
  lhsNonContracting := [0]
  rhsNonContracting := [1]
  lhsBatch := []
  rhsBatch := []
  wf := dot_S32768x2048_S2048x256_S32768x256_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S2048x32768_S32768x256_S2048x256_1_0_0_1_n_n : DotDims S2048x32768 S32768x256 S2048x256 where
  lhsContracting := [1]
  rhsContracting := [0]
  lhsNonContracting := [0]
  rhsNonContracting := [1]
  lhsBatch := []
  rhsBatch := []
  wf := dot_S2048x32768_S32768x256_S2048x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.Bits.Shared0.lean ====
/-
  Region 0 (the edge kernel: gather, edge MLP, scatter-add into a per-core accumulator) — what its three
  control cases share. The grid is 2 cores × 16 edge tiles, point t = 16·core + tile. The accumulator is zeroed
  at tile 0, receives the tile's partial sum at every point, and is copied to the core's output block at tile 15.
-/
import proofs.«104516_j10196252360963_2_alg».proof.Proof.Gen.Kernel.Launch
import proofs.«104516_j10196252360963_2_alg».proof.Proof.Gen.Kernel.Skeleton
import proofs.«104516_j10196252360963_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the grid -/

/-- "This is the core's first edge tile": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the core's last edge tile": the accumulator is copied to the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from a core's last tile the output block is neither stored into nor written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At a core's last tile the output block is stored whole. -/
theorem liveAt0_7 : ∀ t : Fin cfg0.N, cond0_1 (grid0.coords t) → cfg0.idle 7 (grid0.coords t) = false := by decide +kernel

/-! ## The staging memrefs and the accumulator -/

abbrev VO0_7 : View sig .tc .vmem S1x2048x256 .f32 := (Memref.whole cc0_stg7_0 : Memref sig .tc .vmem S1x2048x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x256 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0_0 : Memref sig .tc .vmem S2048x256 .f32 := Memref.whole cc0_scratch0
abbrev VS0_0 : View sig .tc .vmem S2048x256 .f32 := scM0_0.view

/-- The scoped buffers of the core that region 0 neither stages nor uses (the other region's staging buffers), each
    whole at some contents: they ride through region 0 untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class invariant with the accumulator as a memref owned at some contents, beside those other buffers. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.Kernel.Hand

end
-- ==== Proof.Bits.Run0A.lean ====
/-
  Region 0, the case "first edge tile of the core, not the last": the accumulator is overwritten with zeros and
  then with zeros plus the tile's partial sum; the output block is left as found.
-/
import proofs.«104516_j10196252360963_2_alg».proof.Proof.Bits.Shared0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the accumulator in this case, with the proof that on whole staging memrefs
    — the inputs at their contents, the output block at contents handed back untouched, the accumulator at anything —
    the body runs to the continuation holding the inputs as they were and the accumulator with those pieces written. -/
noncomputable def kernelRun0_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : cond0_0 i) (hc1 : ¬cond0_1 i)
    (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) :
    Σ' (L7 : List (View.Piece (Elt F) S1x2048x256 .f32)), { LS0 : List (View.Piece (Elt F) S2048x256 .f32) //
      ∀ (xi7 : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.Bits.Run0B.lean ====
/-
  Region 0, the case "neither the first nor the last edge tile of the core": the accumulator, found at what the
  point before left, is overwritten with itself plus the tile's partial sum; the output block is left as found.
-/
import proofs.«104516_j10196252360963_2_alg».proof.Proof.Bits.Shared0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the accumulator in this case, with the proof that on whole staging memrefs
    — the inputs at their contents, the output block at contents handed back untouched, the accumulator at the
    contents `xs0` the point before left — the body runs to the continuation holding the inputs as they were and the
    accumulator with those pieces written. -/
noncomputable def kernelRun0_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : ¬cond0_1 i)
    (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    Σ' (L7 : List (View.Piece (Elt F) S1x2048x256 .f32)), { LS0 : List (View.Piece (Elt F) S2048x256 .f32) //
      ∀ (xi7 : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.Bits.Run0C.lean ====
/-
  Region 0, the case "last edge tile of the core": the accumulator, found at what the point before left, is
  overwritten with itself plus the tile's partial sum, and that total is stored whole into the core's output block.
-/
import proofs.«104516_j10196252360963_2_alg».proof.Proof.Bits.Shared0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block and in the accumulator in this case, with the proof that on
    whole staging memrefs — the inputs at their contents, the output block at anything, the accumulator at the contents
    `xs0` the point before left — the body runs to the continuation holding the inputs as they were and both buffers
    with their pieces written. -/
noncomputable def kernelRun0_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i)
    (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    Σ' (L7 : List (View.Piece (Elt F) S1x2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.Bits.Region0.lean ====
/-
  Region 0's proof data and body obligation. After the body at point t = 16·core + tile the accumulator holds the
  sum of the partial sums of the core's tiles 0..tile (each tile's partial sum added to what the point before left,
  starting from zeros at tile 0); at tile 15 that total is also the core's output block.
-/
import proofs.«104516_j10196252360963_2_alg».proof.Proof.Bits.Run0A
import proofs.«104516_j10196252360963_2_alg».proof.Proof.Bits.Run0B
import proofs.«104516_j10196252360963_2_alg».proof.Proof.Bits.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each case's run at a grid point, on the point's staging memrefs and input blocks -/

def runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
def runB (c : Dev nD) (t : Fin cfg0.N) (h0 : ¬t.val % 16 = 0) (h1 : ¬t.val % 16 = 15) (xs0 : Vec F S2048x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0
def runC (c : Dev nD) (t : Fin cfg0.N) (h0 : ¬t.val % 16 = 0) (h1 : t.val % 16 = 15) (xs0 : Vec F S2048x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0

/-! ## The stores of each case cover the buffers they write -/

theorem scover0_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : cond0_0 i) (hc1 : ¬cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (y : S2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S2048x256.size (by sl_kernel_rfl) y
theorem scover0_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : ¬cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) (y : S2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S2048x256.size (by sl_kernel_rfl) y
theorem scover0_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) (y : S2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S2048x256.size (by sl_kernel_rfl) y
theorem cover0_C_7 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1x2048x256.size (by sl_kernel_rfl) y

/-! ## What each case leaves in the accumulator and in the output block -/

def soutA (c : Dev nD) (t : Fin cfg0.N) (h0 : t.val % 16 = 0) (h1 : ¬t.val % 16 = 15) : Vec F S2048x256 .f32 :=
  VS0_0.read (Elt F) (VS0_0.writes (Elt F) VS0_0.junk (runA V c t h0 h1).2.1)
def soutB (c : Dev nD) (t : Fin cfg0.N) (h0 : ¬t.val % 16 = 0) (h1 : ¬t.val % 16 = 15) (xs0 : Vec F S2048x256 .f32) : Vec F S2048x256 .f32 :=
  VS0_0.read (Elt F) (VS0_0.writes (Elt F) VS0_0.junk (runB V c t h0 h1 xs0).2.1)
def soutC (c : Dev nD) (t : Fin cfg0.N) (h0 : ¬t.val % 16 = 0) (h1 : t.val % 16 = 15) (xs0 : Vec F S2048x256 .f32) : Vec F S2048x256 .f32 :=
  VS0_0.read (Elt F) (VS0_0.writes (Elt F) VS0_0.junk (runC V c t h0 h1 xs0).2.1)
def outC (c : Dev nD) (t : Fin cfg0.N) (h0 : ¬t.val % 16 = 0) (h1 : t.val % 16 = 15) (xs0 : Vec F S2048x256 .f32) : Vec F S1x2048x256 .f32 :=
  VO0_7.read (Elt F) (VO0_7.writes (Elt F) VO0_7.junk (runC V c t h0 h1 xs0).1)
/-- A value for the output block at the points that do not store into it: nothing consults it (the block is neither
    written back there nor read at the next point). -/
def outIdle : Vec F S1x2048x256 .f32 := VO0_7.read (Elt F) VO0_7.junk

/-- THE ACCUMULATION: what the output block's staging buffer and the accumulator hold after the body at position `n`. -/
def outsAt0 (c : Dev nD) : (n : ℕ) → n < cfg0.N → Vec F S1x2048x256 .f32 × Vec F S2048x256 .f32
  | 0, hn => (outIdle, soutA V c ⟨0, hn⟩ (Nat.zero_mod _) (by show ¬0 % 16 = 15; decide))
  | n + 1, hn =>
    if h0 : (n + 1) % 16 = 0 then
      (outIdle, soutA V c ⟨n + 1, hn⟩ h0 (by show ¬(n + 1) % 16 = 15; omega))
    else
      if h1 : (n + 1) % 16 = 15 then
        (outC V c ⟨n + 1, hn⟩ h0 h1 (outsAt0 c n (Nat.lt_of_succ_lt hn)).2, soutC V c ⟨n + 1, hn⟩ h0 h1 (outsAt0 c n (Nat.lt_of_succ_lt hn)).2)
      else
        (outIdle, soutB V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = (outIdle, soutA V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (outIdle, soutB V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (outC V c t h0 h1 (outsAt0 V c (t.val - 1) (Nat.lt_of_le_of_lt (Nat.sub_le _ _) t.isLt)).2, soutC V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- Before the first point: the class's invariant (every scoped buffer the region does not stage at anything, the
    generator register at some state). Afterwards: the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the point's tile number says which case it is in; the
    invariant hands the body the accumulator at what the point before left (at anything at the very first point) and
    takes it back at this point's contents; the output block is handed back untouched away from a core's last tile and
    stored whole there; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · have h1 : ¬t.val % 16 = 15 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [outsAt0_A V c t h0 h1]
    unfold soutA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold outC soutC; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold soutB; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end

end Cert.Kernel.Hand

end
-- ==== Proof.Bits.Region1.lean ====
/- The second kernel call of @main, `cc1__final_kernel`, on its grid of two points.
   At a parameter `V` (the core's buffer contents when the call is entered) this module states each window's
   block at a grid point, what the body leaves in the output window's buffer as a function of the eight input blocks
   (the residual three-layer perceptron over the node block joined with the summed per-core aggregates), the body's
   triple, the pipeline's proof data, and the body obligation at every grid point. Everything is generic in the
   float interpretation `F`. -/
import proofs.«104516_j10196252360963_2_alg».proof.Proof.Gen.Kernel.Launch
import proofs.«104516_j10196252360963_2_alg».proof.Proof.Gen.Kernel.Skeleton
import proofs.«104516_j10196252360963_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved. The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved. The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): where the window is not
    fetched its block index has not moved. The window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): where the window is not
    fetched its block index has not moved. The window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole block -/

abbrev box2x1024x256 : Rect S2x1024x256 := Rect.unit (s := S2x1024x256) ![0, 0, 0] S2x1024x256.size inb_S2x1024x256_S2x1024x256_0_0_0
abbrev box1024x256 : Rect S1024x256 := Rect.unit (s := S1024x256) ![0, 0] S1024x256.size inb_S1024x256_S1024x256_0_0
abbrev box512x512 : Rect S512x512 := Rect.unit (s := S512x512) ![0, 0] S512x512.size inb_S512x512_S512x512_0_0
abbrev box1x512 : Rect S1x512 := Rect.unit (s := S1x512) ![0, 0] S1x512.size inb_S1x512_S1x512_0_0
abbrev box512x256 : Rect S512x256 := Rect.unit (s := S512x256) ![0, 0] S512x256.size inb_S512x256_S512x256_0_0
abbrev box1x256 : Rect S1x256 := Rect.unit (s := S1x256) ![0, 0] S1x256.size inb_S1x256_S1x256_0_0

/-! ## What the body leaves in the output window's buffer -/

/-- Window 8's staging buffer after the body, from the input windows' blocks: its one store, of the whole block. The
    payload is the node block `x1` plus the three-layer perceptron (weights `x2`, `x4`, `x6`, bias rows `x3`, `x5`,
    `x7`) of the node block joined along lanes with the sum over the two cores of the partial aggregates `x0`. -/
def out1_8 (x0 : Vec F S2x1024x256 .f32) (x1 : Vec F S1024x256 .f32) (x2 : Vec F S512x512 .bf16) (x3 : Vec F S1x512 .f32) (x4 : Vec F S512x512 .bf16) (x5 : Vec F S1x512 .f32) (x6 : Vec F S512x256 .bf16) (x7 : Vec F S1x256 .f32) : Vec F S1024x256 .f32 :=
  View.canon [⟨box1024x256, k1_pay1 (k1_pay2 (View.ld x0 box2x1024x256) (View.ld x1 box1024x256) (View.ld x2 box512x512) (View.ld x3 box1x512) (View.ld x4 box512x512) (View.ld x5 box1x512) (View.ld x6 box512x256) (View.ld x7 box1x256)) (View.ld x1 box1024x256)⟩]

/-- The one store takes the whole block, so it covers the buffer. -/
theorem cover1_8 (p0 : Vec F S1024x256 .f32) (y : S1024x256.Idx) :
    ∃ pc ∈ ([⟨box1024x256, p0⟩] : List (View.Piece (Elt F) S1024x256 .f32)), y ∈ pc.1.set :=
  View.cover_of_tiled [⟨box1024x256, p0⟩] S1024x256.size (by rfl) y

/-! ## The body's triple -/

set_option maxHeartbeats 1000000 in
/-- The kernel body on whole staging memrefs, the inputs' at read contents `xW` and the output's at anything, runs to
    the continuation holding the inputs' as they were and the output's at `out1_8` of the inputs': the body is its
    sequence of eight whole-block loads, a second load of the node block, a load of the output buffer whose value is
    not used, and one whole-block store. -/
theorem sound_kernel1 (c : Dev nD) (E : Set ℕ) (i : grid1.Coords) (arg1 : Memref sig .tc .vmem S2x1024x256 .f32) (harg1 : arg1.IsWhole) (arg2 : Memref sig .tc .vmem S1024x256 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1024x256 .f32) (harg9 : arg9.IsWhole)
    (x0 : Vec F S2x1024x256 .f32) (x1 : Vec F S1024x256 .f32) (x2 : Vec F S512x512 .bf16) (x3 : Vec F S1x512 .f32) (x4 : Vec F S512x512 .bf16) (x5 : Vec F S1x512 .f32) (x6 : Vec F S512x256 .bf16) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8 arg9 harg9) K := by
  simp only [cc1__final_kernel_eq_skeleton]; unfold cc1__final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of the pipeline on core `c`: the arrays as the call finds them (`V`); after the body at point `t`
    each input's buffer at its block and the output's at `out1_8` of the input blocks; the invariant is the scoped
    rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.TwoRegions.lean ====
/-
  The two kernel regions in sequence. Between items every unscoped buffer of a core is held whole at a named
  valuation: the launch memory, then the host stretch applied to it, then region 0's arrays at what its write-backs
  leave, then region 1's. No item writes an argument array, so each argument ends as launched; the result array ends
  at what region 1's write-backs leave in it.
-/
import proofs.«104516_j10196252360963_2_alg».proof.Proof.Bits.Region0
import proofs.«104516_j10196252360963_2_alg».proof.Proof.Bits.Region1
import proofs.«104516_j10196252360963_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Region 0's entry contents (the host stretch applied to the launch memory), read at the TensorCore's references. -/
abbrev E1 : (c : Dev nD) → (b : Ref sig .tc) → Buf (Elt F) ((c : Thread nD τ).loc b) := fun c b => V1 m c b
/-- At region 0's exit: its arrays at what the pipeline leaves, every other buffer as entered. -/
def B2 (c : Dev nD) : Valuation τ sig (Elt F) :=
  Pipeline.withArrays spec0 c (V1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = V1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- At region 1's exit: its arrays at what the pipeline leaves, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 1).trans (((dat1 (E2 m) c).arrAt_in 1 rfl _).trans (A_eq1 (E2 m) c 1))
    _ = V1 m c (Proc.devRef .tc main_arg0) := B2_of_ne m c main_arg0 (by decide)
    _ = V0 m c (Proc.devRef .tc main_arg0) := V1_of m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = V1 m c (Proc.devRef .tc main_arg1) := (B2_arr m c 0).trans (((dat0 (E1 m) c).arrAt_in 0 rfl _).trans (A_eq0 (E1 m) c 0))
    _ = V0 m c (Proc.devRef .tc main_arg1) := V1_of m c main_arg1 (by decide)
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = V1 m c (Proc.devRef .tc main_arg2) := (B2_arr m c 1).trans (((dat0 (E1 m) c).arrAt_in 1 rfl _).trans (A_eq0 (E1 m) c 1))
    _ = V0 m c (Proc.devRef .tc main_arg2) := V1_of m c main_arg2 (by decide)
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = V1 m c (Proc.devRef .tc main_arg3) := B2_of_ne m c main_arg3 (by decide)
    _ = V0 m c (Proc.devRef .tc main_arg3) := V1_of m c main_arg3 (by decide)
    _ = m ((c : Thread nD τ).loc main_arg3) := rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = V1 m c (Proc.devRef .tc main_arg4) := B2_of_ne m c main_arg4 (by decide)
    _ = V0 m c (Proc.devRef .tc main_arg4) := V1_of m c main_arg4 (by decide)
    _ = m ((c : Thread nD τ).loc main_arg4) := rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = V1 m c (Proc.devRef .tc main_arg5) := B2_of_ne m c main_arg5 (by decide)
    _ = V0 m c (Proc.devRef .tc main_arg5) := V1_of m c main_arg5 (by decide)
    _ = m ((c : Thread nD τ).loc main_arg5) := rfl
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = V1 m c (Proc.devRef .tc main_arg6) := B2_of_ne m c main_arg6 (by decide)
    _ = V0 m c (Proc.devRef .tc main_arg6) := V1_of m c main_arg6 (by decide)
    _ = m ((c : Thread nD τ).loc main_arg6) := rfl
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = V1 m c (Proc.devRef .tc main_arg7) := B2_of_ne m c main_arg7 (by decide)
    _ = V0 m c (Proc.devRef .tc main_arg7) := V1_of m c main_arg7 (by decide)
    _ = m ((c : Thread nD τ).loc main_arg7) := rfl
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = V1 m c (Proc.devRef .tc main_arg8) := B2_of_ne m c main_arg8 (by decide)
    _ = V0 m c (Proc.devRef .tc main_arg8) := V1_of m c main_arg8 (by decide)
    _ = m ((c : Thread nD τ).loc main_arg8) := rfl
theorem B3_main_arg9 (c : Dev nD) : B3 m c (Proc.devRef .tc main_arg9) = m ((c : Thread nD τ).loc main_arg9) :=
  calc B3 m c (Proc.devRef .tc main_arg9)
    _ = B2 m c (Proc.devRef .tc main_arg9) := B3_of_ne m c main_arg9 (by decide)
    _ = V1 m c (Proc.devRef .tc main_arg9) := B2_of_ne m c main_arg9 (by decide)
    _ = V0 m c (Proc.devRef .tc main_arg9) := V1_of m c main_arg9 (by decide)
    _ = m ((c : Thread nD τ).loc main_arg9) := rfl
theorem B3_main_arg10 (c : Dev nD) : B3 m c (Proc.devRef .tc main_arg10) = m ((c : Thread nD τ).loc main_arg10) :=
  calc B3 m c (Proc.devRef .tc main_arg10)
    _ = B2 m c (Proc.devRef .tc main_arg10) := B3_of_ne m c main_arg10 (by decide)
    _ = V1 m c (Proc.devRef .tc main_arg10) := B2_of_ne m c main_arg10 (by decide)
    _ = V0 m c (Proc.devRef .tc main_arg10) := V1_of m c main_arg10 (by decide)
    _ = m ((c : Thread nD τ).loc main_arg10) := rfl
theorem B3_main_arg11 (c : Dev nD) : B3 m c (Proc.devRef .tc main_arg11) = m ((c : Thread nD τ).loc main_arg11) :=
  calc B3 m c (Proc.devRef .tc main_arg11)
    _ = B2 m c (Proc.devRef .tc main_arg11) := B3_of_ne m c main_arg11 (by decide)
    _ = V1 m c (Proc.devRef .tc main_arg11) := B2_of_ne m c main_arg11 (by decide)
    _ = V0 m c (Proc.devRef .tc main_arg11) := V1_of m c main_arg11 (by decide)
    _ = m ((c : Thread nD τ).loc main_arg11) := rfl
theorem B3_main_arg12 (c : Dev nD) : B3 m c (Proc.devRef .tc main_arg12) = m ((c : Thread nD τ).loc main_arg12) :=
  calc B3 m c (Proc.devRef .tc main_arg12)
    _ = B2 m c (Proc.devRef .tc main_arg12) := B3_of_ne m c main_arg12 (by decide)
    _ = V1 m c (Proc.devRef .tc main_arg12) := B2_of_ne m c main_arg12 (by decide)
    _ = V0 m c (Proc.devRef .tc main_arg12) := V1_of m c main_arg12 (by decide)
    _ = m ((c : Thread nD τ).loc main_arg12) := rfl

/-- The result array ends at what region 1's write-backs leave in it. -/
theorem B3_main_v17 (c : Dev nD) : B3 m c (Proc.devRef .tc main_v17) = (dat1 (E2 m) c).arrAt 8 cfg1.N := B3_arr m c 8

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : Pipeline.ΦA spec0 c ⊢ (pdats m 0 c).Φ 0 := hin0 (E1 m) c
    refine .trans ?_ h2
    unfold Pipeline.ΦA
    iintro ⟨Hp, -, Hr⟩
    isplitl [Hr]; · iexact Hr
    iexact Hp
  hout c := by
    rw [Pipeline.ownSems0_none]
    have h2 : (pdats m 0 c).Φ (Fin.last _) ⊢ Pipeline.ΦA spec0 c := hout0 (E1 m) c
    refine .trans h2 ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c),
    (h c _ (mem_uc main_arg9 (by decide))).trans (B3_main_arg9 m c),
    (h c _ (mem_uc main_arg10 (by decide))).trans (B3_main_arg10 m c),
    (h c _ (mem_uc main_arg11 (by decide))).trans (B3_main_arg11 m c),
    (h c _ (mem_uc main_arg12 (by decide))).trans (B3_main_arg12 m c)⟩) (run_main m ρ)

/-- THE RUN WITH THE RESULT NAMED: the result array ends at what region 1's write-backs leave, every argument as launched. -/
theorem run_value : θ_run defs (onTc (τ := τ) (main (F := F))) ⟨m, fun _ => 0, ρ⟩ (fun r => ∀ c : Dev nD,
      r.2.mem ((c.tc : Thread nD τ).loc main_v17) = (dat1 (E2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v17 (by decide))).trans (B3_main_v17 m c),
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c),
    (h c _ (mem_uc main_arg9 (by decide))).trans (B3_main_arg9 m c),
    (h c _ (mem_uc main_arg10 (by decide))).trans (B3_main_arg10 m c),
    (h c _ (mem_uc main_arg11 (by decide))).trans (B3_main_arg11 m c),
    (h c _ (mem_uc main_arg12 (by decide))).trans (B3_main_arg12 m c)⟩) (run_main m ρ)

end Cert.Kernel.Hand

end
-- ==== Proof.Shared0.lean ====
/-
  Region 0 (the edge kernel: gather, edge MLP, scatter-add into a per-core accumulator) — what its three
  control cases share. The grid is 2 cores × 16 edge tiles, point t = 16·core + tile. The accumulator is zeroed
  at tile 0, receives the tile's partial sum at every point, and is copied to the core's output block at tile 15.
-/
import proofs.«104516_j10196252360963_2_alg».proof.Proof.Gen.KernelIdeal.Launch
import proofs.«104516_j10196252360963_2_alg».proof.Proof.Gen.KernelIdeal.Skeleton
import proofs.«104516_j10196252360963_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, in closed form over the grid -/

/-- "This is the core's first edge tile": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the core's last edge tile": the accumulator is copied to the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from a core's last tile the output block is neither stored into nor written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At a core's last tile the output block is stored whole. -/
theorem liveAt0_7 : ∀ t : Fin cfg0.N, cond0_1 (grid0.coords t) → cfg0.idle 7 (grid0.coords t) = false := by decide +kernel

/-! ## The staging memrefs and the accumulator -/

abbrev VO0_7 : View sig .tc .vmem S1x2048x256 .f32 := (Memref.whole cc0_stg7_0 : Memref sig .tc .vmem S1x2048x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x256 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0_0 : Memref sig .tc .vmem S2048x256 .f32 := Memref.whole cc0_scratch0
abbrev VS0_0 : View sig .tc .vmem S2048x256 .f32 := scM0_0.view

/-- The scoped buffers of the core that region 0 neither stages nor uses (the other region's staging buffers), each
    whole at some contents: they ride through region 0 untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class invariant with the accumulator as a memref owned at some contents, beside those other buffers. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.KernelIdeal.Hand

end
-- ==== Proof.Run0A.lean ====
/-
  Region 0, the case "first edge tile of the core, not the last": the accumulator is overwritten with zeros and
  then with zeros plus the tile's partial sum; the output block is left as found.
-/
import proofs.«104516_j10196252360963_2_alg».proof.Proof.Shared0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the accumulator in this case, with the proof that on whole staging memrefs
    — the inputs at their contents, the output block at contents handed back untouched, the accumulator at anything —
    the body runs to the continuation holding the inputs as they were and the accumulator with those pieces written. -/
noncomputable def kernelRun0_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : cond0_0 i) (hc1 : ¬cond0_1 i)
    (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) :
    Σ' (L7 : List (View.Piece (Elt F) S1x2048x256 .f32)), { LS0 : List (View.Piece (Elt F) S2048x256 .f32) //
      ∀ (xi7 : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.Run0B.lean ====
/-
  Region 0, the case "neither the first nor the last edge tile of the core": the accumulator, found at what the
  point before left, is overwritten with itself plus the tile's partial sum; the output block is left as found.
-/
import proofs.«104516_j10196252360963_2_alg».proof.Proof.Shared0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the accumulator in this case, with the proof that on whole staging memrefs
    — the inputs at their contents, the output block at contents handed back untouched, the accumulator at the
    contents `xs0` the point before left — the body runs to the continuation holding the inputs as they were and the
    accumulator with those pieces written. -/
noncomputable def kernelRun0_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : ¬cond0_1 i)
    (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    Σ' (L7 : List (View.Piece (Elt F) S1x2048x256 .f32)), { LS0 : List (View.Piece (Elt F) S2048x256 .f32) //
      ∀ (xi7 : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.Run0C.lean ====
/-
  Region 0, the case "last edge tile of the core": the accumulator, found at what the point before left, is
  overwritten with itself plus the tile's partial sum, and that total is stored whole into the core's output block.
-/
import proofs.«104516_j10196252360963_2_alg».proof.Proof.Shared0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block and in the accumulator in this case, with the proof that on
    whole staging memrefs — the inputs at their contents, the output block at anything, the accumulator at the contents
    `xs0` the point before left — the body runs to the continuation holding the inputs as they were and both buffers
    with their pieces written. -/
noncomputable def kernelRun0_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i)
    (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    Σ' (L7 : List (View.Piece (Elt F) S1x2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.Region0.lean ====
/-
  Region 0's proof data and body obligation. After the body at point t = 16·core + tile the accumulator holds the
  sum of the partial sums of the core's tiles 0..tile (each tile's partial sum added to what the point before left,
  starting from zeros at tile 0); at tile 15 that total is also the core's output block.
-/
import proofs.«104516_j10196252360963_2_alg».proof.Proof.Run0A
import proofs.«104516_j10196252360963_2_alg».proof.Proof.Run0B
import proofs.«104516_j10196252360963_2_alg».proof.Proof.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each case's run at a grid point, on the point's staging memrefs and input blocks -/

def runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
def runB (c : Dev nD) (t : Fin cfg0.N) (h0 : ¬t.val % 16 = 0) (h1 : ¬t.val % 16 = 15) (xs0 : Vec F S2048x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0
def runC (c : Dev nD) (t : Fin cfg0.N) (h0 : ¬t.val % 16 = 0) (h1 : t.val % 16 = 15) (xs0 : Vec F S2048x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0

/-! ## The stores of each case cover the buffers they write -/

theorem scover0_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : cond0_0 i) (hc1 : ¬cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (y : S2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S2048x256.size (by sl_kernel_rfl) y
theorem scover0_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : ¬cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) (y : S2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S2048x256.size (by sl_kernel_rfl) y
theorem scover0_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) (y : S2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S2048x256.size (by sl_kernel_rfl) y
theorem cover0_C_7 (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1x2048x256.size (by sl_kernel_rfl) y

/-! ## What each case leaves in the accumulator and in the output block -/

def soutA (c : Dev nD) (t : Fin cfg0.N) (h0 : t.val % 16 = 0) (h1 : ¬t.val % 16 = 15) : Vec F S2048x256 .f32 :=
  VS0_0.read (Elt F) (VS0_0.writes (Elt F) VS0_0.junk (runA V c t h0 h1).2.1)
def soutB (c : Dev nD) (t : Fin cfg0.N) (h0 : ¬t.val % 16 = 0) (h1 : ¬t.val % 16 = 15) (xs0 : Vec F S2048x256 .f32) : Vec F S2048x256 .f32 :=
  VS0_0.read (Elt F) (VS0_0.writes (Elt F) VS0_0.junk (runB V c t h0 h1 xs0).2.1)
def soutC (c : Dev nD) (t : Fin cfg0.N) (h0 : ¬t.val % 16 = 0) (h1 : t.val % 16 = 15) (xs0 : Vec F S2048x256 .f32) : Vec F S2048x256 .f32 :=
  VS0_0.read (Elt F) (VS0_0.writes (Elt F) VS0_0.junk (runC V c t h0 h1 xs0).2.1)
def outC (c : Dev nD) (t : Fin cfg0.N) (h0 : ¬t.val % 16 = 0) (h1 : t.val % 16 = 15) (xs0 : Vec F S2048x256 .f32) : Vec F S1x2048x256 .f32 :=
  VO0_7.read (Elt F) (VO0_7.writes (Elt F) VO0_7.junk (runC V c t h0 h1 xs0).1)
/-- A value for the output block at the points that do not store into it: nothing consults it (the block is neither
    written back there nor read at the next point). -/
def outIdle : Vec F S1x2048x256 .f32 := VO0_7.read (Elt F) VO0_7.junk

/-- THE ACCUMULATION: what the output block's staging buffer and the accumulator hold after the body at position `n`. -/
def outsAt0 (c : Dev nD) : (n : ℕ) → n < cfg0.N → Vec F S1x2048x256 .f32 × Vec F S2048x256 .f32
  | 0, hn => (outIdle, soutA V c ⟨0, hn⟩ (Nat.zero_mod _) (by show ¬0 % 16 = 15; decide))
  | n + 1, hn =>
    if h0 : (n + 1) % 16 = 0 then
      (outIdle, soutA V c ⟨n + 1, hn⟩ h0 (by show ¬(n + 1) % 16 = 15; omega))
    else
      if h1 : (n + 1) % 16 = 15 then
        (outC V c ⟨n + 1, hn⟩ h0 h1 (outsAt0 c n (Nat.lt_of_succ_lt hn)).2, soutC V c ⟨n + 1, hn⟩ h0 h1 (outsAt0 c n (Nat.lt_of_succ_lt hn)).2)
      else
        (outIdle, soutB V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = (outIdle, soutA V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (outIdle, soutB V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (outC V c t h0 h1 (outsAt0 V c (t.val - 1) (Nat.lt_of_le_of_lt (Nat.sub_le _ _) t.isLt)).2, soutC V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- Before the first point: the class's invariant (every scoped buffer the region does not stage at anything, the
    generator register at some state). Afterwards: the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' memrefs hold their blocks; the point's tile number says which case it is in; the
    invariant hands the body the accumulator at what the point before left (at anything at the very first point) and
    takes it back at this point's contents; the output block is handed back untouched away from a core's last tile and
    stored whole there; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · have h1 : ¬t.val % 16 = 15 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [outsAt0_A V c t h0 h1]
    unfold soutA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold outC soutC; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold soutB; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end

end Cert.KernelIdeal.Hand

end
-- ==== Proof.Region1.lean ====
/- The second kernel call of @main, `cc1__final_kernel`, on its grid of two points.
   At a parameter `V` (the core's buffer contents when the call is entered) this module states each window's
   block at a grid point, what the body leaves in the output window's buffer as a function of the eight input blocks
   (the residual three-layer perceptron over the node block joined with the summed per-core aggregates), the body's
   triple, the pipeline's proof data, and the body obligation at every grid point. Everything is generic in the
   float interpretation `F`. -/
import proofs.«104516_j10196252360963_2_alg».proof.Proof.Gen.KernelIdeal.Launch
import proofs.«104516_j10196252360963_2_alg».proof.Proof.Gen.KernelIdeal.Skeleton
import proofs.«104516_j10196252360963_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved. The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved. The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): where the window is not
    fetched its block index has not moved. The window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): where the window is not
    fetched its block index has not moved. The window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole block -/

abbrev box2x1024x256 : Rect S2x1024x256 := Rect.unit (s := S2x1024x256) ![0, 0, 0] S2x1024x256.size inb_S2x1024x256_S2x1024x256_0_0_0
abbrev box1024x256 : Rect S1024x256 := Rect.unit (s := S1024x256) ![0, 0] S1024x256.size inb_S1024x256_S1024x256_0_0
abbrev box512x512 : Rect S512x512 := Rect.unit (s := S512x512) ![0, 0] S512x512.size inb_S512x512_S512x512_0_0
abbrev box1x512 : Rect S1x512 := Rect.unit (s := S1x512) ![0, 0] S1x512.size inb_S1x512_S1x512_0_0
abbrev box512x256 : Rect S512x256 := Rect.unit (s := S512x256) ![0, 0] S512x256.size inb_S512x256_S512x256_0_0
abbrev box1x256 : Rect S1x256 := Rect.unit (s := S1x256) ![0, 0] S1x256.size inb_S1x256_S1x256_0_0

/-! ## What the body leaves in the output window's buffer -/

/-- Window 8's staging buffer after the body, from the input windows' blocks: its one store, of the whole block. The
    payload is the node block `x1` plus the three-layer perceptron (weights `x2`, `x4`, `x6`, bias rows `x3`, `x5`,
    `x7`) of the node block joined along lanes with the sum over the two cores of the partial aggregates `x0`. -/
def out1_8 (x0 : Vec F S2x1024x256 .f32) (x1 : Vec F S1024x256 .f32) (x2 : Vec F S512x512 .bf16) (x3 : Vec F S1x512 .f32) (x4 : Vec F S512x512 .bf16) (x5 : Vec F S1x512 .f32) (x6 : Vec F S512x256 .bf16) (x7 : Vec F S1x256 .f32) : Vec F S1024x256 .f32 :=
  View.canon [⟨box1024x256, k1_pay1 (k1_pay2 (View.ld x0 box2x1024x256) (View.ld x1 box1024x256) (View.ld x2 box512x512) (View.ld x3 box1x512) (View.ld x4 box512x512) (View.ld x5 box1x512) (View.ld x6 box512x256) (View.ld x7 box1x256)) (View.ld x1 box1024x256)⟩]

/-- The one store takes the whole block, so it covers the buffer. -/
theorem cover1_8 (p0 : Vec F S1024x256 .f32) (y : S1024x256.Idx) :
    ∃ pc ∈ ([⟨box1024x256, p0⟩] : List (View.Piece (Elt F) S1024x256 .f32)), y ∈ pc.1.set :=
  View.cover_of_tiled [⟨box1024x256, p0⟩] S1024x256.size (by rfl) y

/-! ## The body's triple -/

set_option maxHeartbeats 1000000 in
/-- The kernel body on whole staging memrefs, the inputs' at read contents `xW` and the output's at anything, runs to
    the continuation holding the inputs' as they were and the output's at `out1_8` of the inputs': the body is its
    sequence of eight whole-block loads, a second load of the node block, a load of the output buffer whose value is
    not used, and one whole-block store. -/
theorem sound_kernel1 (c : Dev nD) (E : Set ℕ) (i : grid1.Coords) (arg1 : Memref sig .tc .vmem S2x1024x256 .f32) (harg1 : arg1.IsWhole) (arg2 : Memref sig .tc .vmem S1024x256 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1024x256 .f32) (harg9 : arg9.IsWhole)
    (x0 : Vec F S2x1024x256 .f32) (x1 : Vec F S1024x256 .f32) (x2 : Vec F S512x512 .bf16) (x3 : Vec F S1x512 .f32) (x4 : Vec F S512x512 .bf16) (x5 : Vec F S1x512 .f32) (x6 : Vec F S512x256 .bf16) (x7 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8 arg9 harg9) K := by
  simp only [cc1__final_kernel_eq_skeleton]; unfold cc1__final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of the pipeline on core `c`: the arrays as the call finds them (`V`); after the body at point `t`
    each input's buffer at its block and the output's at `out1_8` of the input blocks; the invariant is the scoped
    rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.TwoRegions.lean ====
/-
  The two kernel regions in sequence. Between items every unscoped buffer of a core is held whole at a named
  valuation: the launch memory, then the host stretch applied to it, then region 0's arrays at what its write-backs
  leave, then region 1's. No item writes an argument array, so each argument ends as launched; the result array ends
  at what region 1's write-backs leave in it.
-/
import proofs.«104516_j10196252360963_2_alg».proof.Proof.Region0
import proofs.«104516_j10196252360963_2_alg».proof.Proof.Region1
import proofs.«104516_j10196252360963_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Region 0's entry contents (the host stretch applied to the launch memory), read at the TensorCore's references. -/
abbrev E1 : (c : Dev nD) → (b : Ref sig .tc) → Buf (Elt F) ((c : Thread nD τ).loc b) := fun c b => V1 m c b
/-- At region 0's exit: its arrays at what the pipeline leaves, every other buffer as entered. -/
def B2 (c : Dev nD) : Valuation τ sig (Elt F) :=
  Pipeline.withArrays spec0 c (V1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = V1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- At region 1's exit: its arrays at what the pipeline leaves, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 1).trans (((dat1 (E2 m) c).arrAt_in 1 rfl _).trans (A_eq1 (E2 m) c 1))
    _ = V1 m c (Proc.devRef .tc main_arg0) := B2_of_ne m c main_arg0 (by decide)
    _ = V0 m c (Proc.devRef .tc main_arg0) := V1_of m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = V1 m c (Proc.devRef .tc main_arg1) := (B2_arr m c 0).trans (((dat0 (E1 m) c).arrAt_in 0 rfl _).trans (A_eq0 (E1 m) c 0))
    _ = V0 m c (Proc.devRef .tc main_arg1) := V1_of m c main_arg1 (by decide)
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = V1 m c (Proc.devRef .tc main_arg2) := (B2_arr m c 1).trans (((dat0 (E1 m) c).arrAt_in 1 rfl _).trans (A_eq0 (E1 m) c 1))
    _ = V0 m c (Proc.devRef .tc main_arg2) := V1_of m c main_arg2 (by decide)
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = V1 m c (Proc.devRef .tc main_arg3) := B2_of_ne m c main_arg3 (by decide)
    _ = V0 m c (Proc.devRef .tc main_arg3) := V1_of m c main_arg3 (by decide)
    _ = m ((c : Thread nD τ).loc main_arg3) := rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = V1 m c (Proc.devRef .tc main_arg4) := B2_of_ne m c main_arg4 (by decide)
    _ = V0 m c (Proc.devRef .tc main_arg4) := V1_of m c main_arg4 (by decide)
    _ = m ((c : Thread nD τ).loc main_arg4) := rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = V1 m c (Proc.devRef .tc main_arg5) := B2_of_ne m c main_arg5 (by decide)
    _ = V0 m c (Proc.devRef .tc main_arg5) := V1_of m c main_arg5 (by decide)
    _ = m ((c : Thread nD τ).loc main_arg5) := rfl
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = V1 m c (Proc.devRef .tc main_arg6) := B2_of_ne m c main_arg6 (by decide)
    _ = V0 m c (Proc.devRef .tc main_arg6) := V1_of m c main_arg6 (by decide)
    _ = m ((c : Thread nD τ).loc main_arg6) := rfl
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = V1 m c (Proc.devRef .tc main_arg7) := B2_of_ne m c main_arg7 (by decide)
    _ = V0 m c (Proc.devRef .tc main_arg7) := V1_of m c main_arg7 (by decide)
    _ = m ((c : Thread nD τ).loc main_arg7) := rfl
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = V1 m c (Proc.devRef .tc main_arg8) := B2_of_ne m c main_arg8 (by decide)
    _ = V0 m c (Proc.devRef .tc main_arg8) := V1_of m c main_arg8 (by decide)
    _ = m ((c : Thread nD τ).loc main_arg8) := rfl
theorem B3_main_arg9 (c : Dev nD) : B3 m c (Proc.devRef .tc main_arg9) = m ((c : Thread nD τ).loc main_arg9) :=
  calc B3 m c (Proc.devRef .tc main_arg9)
    _ = B2 m c (Proc.devRef .tc main_arg9) := B3_of_ne m c main_arg9 (by decide)
    _ = V1 m c (Proc.devRef .tc main_arg9) := B2_of_ne m c main_arg9 (by decide)
    _ = V0 m c (Proc.devRef .tc main_arg9) := V1_of m c main_arg9 (by decide)
    _ = m ((c : Thread nD τ).loc main_arg9) := rfl
theorem B3_main_arg10 (c : Dev nD) : B3 m c (Proc.devRef .tc main_arg10) = m ((c : Thread nD τ).loc main_arg10) :=
  calc B3 m c (Proc.devRef .tc main_arg10)
    _ = B2 m c (Proc.devRef .tc main_arg10) := B3_of_ne m c main_arg10 (by decide)
    _ = V1 m c (Proc.devRef .tc main_arg10) := B2_of_ne m c main_arg10 (by decide)
    _ = V0 m c (Proc.devRef .tc main_arg10) := V1_of m c main_arg10 (by decide)
    _ = m ((c : Thread nD τ).loc main_arg10) := rfl
theorem B3_main_arg11 (c : Dev nD) : B3 m c (Proc.devRef .tc main_arg11) = m ((c : Thread nD τ).loc main_arg11) :=
  calc B3 m c (Proc.devRef .tc main_arg11)
    _ = B2 m c (Proc.devRef .tc main_arg11) := B3_of_ne m c main_arg11 (by decide)
    _ = V1 m c (Proc.devRef .tc main_arg11) := B2_of_ne m c main_arg11 (by decide)
    _ = V0 m c (Proc.devRef .tc main_arg11) := V1_of m c main_arg11 (by decide)
    _ = m ((c : Thread nD τ).loc main_arg11) := rfl
theorem B3_main_arg12 (c : Dev nD) : B3 m c (Proc.devRef .tc main_arg12) = m ((c : Thread nD τ).loc main_arg12) :=
  calc B3 m c (Proc.devRef .tc main_arg12)
    _ = B2 m c (Proc.devRef .tc main_arg12) := B3_of_ne m c main_arg12 (by decide)
    _ = V1 m c (Proc.devRef .tc main_arg12) := B2_of_ne m c main_arg12 (by decide)
    _ = V0 m c (Proc.devRef .tc main_arg12) := V1_of m c main_arg12 (by decide)
    _ = m ((c : Thread nD τ).loc main_arg12) := rfl

/-- The result array ends at what region 1's write-backs leave in it. -/
theorem B3_main_v17 (c : Dev nD) : B3 m c (Proc.devRef .tc main_v17) = (dat1 (E2 m) c).arrAt 8 cfg1.N := B3_arr m c 8

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : Pipeline.ΦA spec0 c ⊢ (pdats m 0 c).Φ 0 := hin0 (E1 m) c
    refine .trans ?_ h2
    unfold Pipeline.ΦA
    iintro ⟨Hp, -, Hr⟩
    isplitl [Hr]; · iexact Hr
    iexact Hp
  hout c := by
    rw [Pipeline.ownSems0_none]
    have h2 : (pdats m 0 c).Φ (Fin.last _) ⊢ Pipeline.ΦA spec0 c := hout0 (E1 m) c
    refine .trans h2 ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has every unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c),
    (h c _ (mem_uc main_arg9 (by decide))).trans (B3_main_arg9 m c),
    (h c _ (mem_uc main_arg10 (by decide))).trans (B3_main_arg10 m c),
    (h c _ (mem_uc main_arg11 (by decide))).trans (B3_main_arg11 m c),
    (h c _ (mem_uc main_arg12 (by decide))).trans (B3_main_arg12 m c)⟩) (run_main m ρ)

/-- THE RUN WITH THE RESULT NAMED: the result array ends at what region 1's write-backs leave, every argument as launched. -/
theorem run_value : θ_run defs (onTc (τ := τ) (main (F := F))) ⟨m, fun _ => 0, ρ⟩ (fun r => ∀ c : Dev nD,
      r.2.mem ((c.tc : Thread nD τ).loc main_v17) = (dat1 (E2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v17 (by decide))).trans (B3_main_v17 m c),
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c),
    (h c _ (mem_uc main_arg9 (by decide))).trans (B3_main_arg9 m c),
    (h c _ (mem_uc main_arg10 (by decide))).trans (B3_main_arg10 m c),
    (h c _ (mem_uc main_arg11 (by decide))).trans (B3_main_arg11 m c),
    (h c _ (mem_uc main_arg12 (by decide))).trans (B3_main_arg12 m c)⟩) (run_main m ρ)

end Cert.KernelIdeal.Hand

end
-- ==== Proof.Region0Pieces.lean ====
/-
  Region 0, what the three cases leave, as payloads of the point's input blocks: the accumulator ends at
  (what it held, or zeros at a core's first tile) + the tile's partial sum; at a core's last tile the output block
  is that total with a leading unit axis. Hence the accumulator after any point, by recursion on the point.
-/
import proofs.«104516_j10196252360963_2_alg».proof.Proof.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a core: zeros are stored, read back, and the tile's partial sum added. -/
theorem acc_A (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : cond0_0 i) (hc1 : ¬cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1) = k0_pay1 (k0_pay4 x0 x1 x2 x3 x4 x5 x6) (k0_pay3 (F := F)) := by
  rw [View.read_writes_eq_canon _ _ _ (scover0_A c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread, harg6.read_unread, harg7.read_unread, harg8.read_unread, View.ld_unit_zero (S := S1024x2048) hz2, View.ld_unit_zero (S := S2048x256) hz2, View.ld_unit_zero (S := S512x512) hz2, View.ld_unit_zero (S := S1x512) hz2, View.ld_unit_zero (S := S512x256) hz2, View.ld_unit_zero (S := S1x256) hz2]

/-- A middle tile: the tile's partial sum is added to what the point before left. -/
theorem acc_B (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : ¬cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1) = k0_pay1 (k0_pay4 x0 x1 x2 x3 x4 x5 x6) xs0 := by
  rw [View.read_writes_eq_canon _ _ _ (scover0_B c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S1024x2048) hz2, View.ld_unit_zero (S := S2048x256) hz2, View.ld_unit_zero (S := S512x512) hz2, View.ld_unit_zero (S := S1x512) hz2, View.ld_unit_zero (S := S512x256) hz2, View.ld_unit_zero (S := S1x256) hz2]

/-- Last tile of a core, the accumulator: as at a middle tile. -/
theorem acc_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1) = k0_pay1 (k0_pay4 x0 x1 x2 x3 x4 x5 x6) xs0 := by
  rw [View.read_writes_eq_canon _ _ _ (scover0_C c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S1024x2048) hz2, View.ld_unit_zero (S := S2048x256) hz2, View.ld_unit_zero (S := S512x512) hz2, View.ld_unit_zero (S := S1x512) hz2, View.ld_unit_zero (S := S512x256) hz2, View.ld_unit_zero (S := S1x256) hz2]

/-- Last tile of a core, the output block: the accumulator's new contents, read back and stored whole. -/
theorem out_C (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S2048x256 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x2048x256 .f32) (harg9 : arg9.IsWhole) (arg10 : Memref sig .tc .vmem S2048x256 .f32) (harg10 : arg10.IsWhole) (hc0 : ¬cond0_0 i) (hc1 : cond0_1 i) (x0 : Vec F S1024x2048 .f32) (x1 : Vec F S1024x2048 .f32) (x2 : Vec F S2048x256 .bf16) (x3 : Vec F S512x512 .bf16) (x4 : Vec F S1x512 .f32) (x5 : Vec F S512x256 .bf16) (x6 : Vec F S1x256 .f32) (xs0 : Vec F S2048x256 .f32) :
    VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1) = k0_pay2 (k0_pay1 (k0_pay4 x0 x1 x2 x3 x4 x5 x6) xs0) := by
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz3, View.readCov_unit_zero (S := S2048x256) _ hz2]
  simp only [View.readAt_eq_ld, harg2.read_unread, harg3.read_unread, harg4.read_unread, harg5.read_unread, harg6.read_unread, harg7.read_unread, harg8.read_unread, harg10.read_unread, View.ld_unit_zero (S := S1024x2048) hz2, View.ld_unit_zero (S := S2048x256) hz2, View.ld_unit_zero (S := S512x512) hz2, View.ld_unit_zero (S := S1x512) hz2, View.ld_unit_zero (S := S512x256) hz2, View.ld_unit_zero (S := S1x256) hz2]

section
variable (V : (c : Dev nD) → (b : Ref sig .tc) → Buf (Elt F) ((c : Thread nD τ).loc b))

/-- The tile's partial sum at point `t`: the scatter of the tile's messages onto the receiver nodes. -/
def part (c : Dev nD) (t : Fin cfg0.N) : FVec F S2048x256 .f32 := k0_pay4 (iblk0 V c 0 t) (iblk0 V c 1 t) (iblk0 V c 2 t) (iblk0 V c 3 t) (iblk0 V c 4 t) (iblk0 V c 5 t) (iblk0 V c 6 t)

/-- The accumulator after point `n`: restarted from zeros at a core's first tile, otherwise what the point before
    left, plus the tile's partial sum. -/
def accAt (c : Dev nD) : (n : ℕ) → n < cfg0.N → Vec F S2048x256 .f32
  | 0, h => k0_pay1 (part V c ⟨0, h⟩) (k0_pay3 (F := F))
  | n + 1, h =>
    if (n + 1) % 16 = 0 then k0_pay1 (part V c ⟨n + 1, h⟩) (k0_pay3 (F := F))
    else k0_pay1 (part V c ⟨n + 1, h⟩) (accAt c n (Nat.lt_of_succ_lt h))

theorem accAt_first (c : Dev nD) (t : Fin cfg0.N) (h0 : t.val % 16 = 0) :
    accAt V c t.val t.isLt = k0_pay1 (part V c t) (k0_pay3 (F := F)) := by
  obtain ⟨n, hn⟩ := t
  cases n with
  | zero => rfl
  | succ n => exact if_pos h0

theorem accAt_next (c : Dev nD) (t : Fin cfg0.N) (h0 : ¬t.val % 16 = 0) :
    accAt V c t.val t.isLt = k0_pay1 (part V c t) (accAt V c (t.val - 1) (Nat.lt_of_le_of_lt (Nat.sub_le _ _) t.isLt)) := by
  obtain ⟨n, hn⟩ := t
  cases n with
  | zero => exact absurd (Nat.zero_mod _) h0
  | succ n => exact if_neg h0

/-- The piece lemmas at a grid point, on the point's staging memrefs and input blocks. -/
theorem soutA_eq (c : Dev nD) (t : Fin cfg0.N) (h0 : t.val % 16 = 0) (h1 : ¬t.val % 16 = 15) :
    soutA V c t h0 h1 = k0_pay1 (part V c t) (k0_pay3 (F := F)) := by
  unfold soutA runA part
  exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
theorem soutB_eq (c : Dev nD) (t : Fin cfg0.N) (h0 : ¬t.val % 16 = 0) (h1 : ¬t.val % 16 = 15) (xs0 : Vec F S2048x256 .f32) :
    soutB V c t h0 h1 xs0 = k0_pay1 (part V c t) xs0 := by
  unfold soutB runB part
  exact acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0
theorem soutC_eq (c : Dev nD) (t : Fin cfg0.N) (h0 : ¬t.val % 16 = 0) (h1 : t.val % 16 = 15) (xs0 : Vec F S2048x256 .f32) :
    soutC V c t h0 h1 xs0 = k0_pay1 (part V c t) xs0 := by
  unfold soutC runC part
  exact acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0
theorem outC_eq (c : Dev nD) (t : Fin cfg0.N) (h0 : ¬t.val % 16 = 0) (h1 : t.val % 16 = 15) (xs0 : Vec F S2048x256 .f32) :
    outC V c t h0 h1 xs0 = k0_pay2 (k0_pay1 (part V c t) xs0) := by
  unfold outC runC part
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0

/-- What the frame's accumulation leaves in the accumulator IS that recursion — by induction on the point. -/
theorem outsAt_acc (c : Dev nD) : ∀ (n : ℕ) (h : n < cfg0.N), (outsAt0 V c n h).2 = accAt V c n h
  | 0, h => by
    rw [outsAt0_A V c ⟨0, h⟩ (Nat.zero_mod _) (by show ¬0 % 16 = 15; decide)]
    dsimp only
    rw [soutA_eq V c ⟨0, h⟩ (Nat.zero_mod _) (by show ¬0 % 16 = 15; decide)]
    rfl
  | n + 1, h => by
    by_cases h0 : (n + 1) % 16 = 0
    · have h1 : ¬(n + 1) % 16 = 15 := by omega
      rw [outsAt0_A V c ⟨n + 1, h⟩ h0 h1, accAt_first V c ⟨n + 1, h⟩ h0]
      dsimp only
      rw [soutA_eq V c ⟨n + 1, h⟩ h0 h1]
    · have ih := outsAt_acc c n (Nat.lt_of_succ_lt h)
      by_cases h1 : (n + 1) % 16 = 15
      · rw [outsAt0_C V c ⟨n + 1, h⟩ h0 h1, accAt_next V c ⟨n + 1, h⟩ h0]
        dsimp only
        rw [soutC_eq V c ⟨n + 1, h⟩ h0 h1]
        simp only [Nat.add_sub_cancel]
        rw [ih]
        rfl
      · rw [outsAt0_B V c ⟨n + 1, h⟩ h0 h1, accAt_next V c ⟨n + 1, h⟩ h0]
        dsimp only
        rw [soutB_eq V c ⟨n + 1, h⟩ h0 h1]
        simp only [Nat.add_sub_cancel]
        rw [ih]
        rfl

/-- At a core's last tile the output block's staging buffer holds the accumulator's contents after that point. -/
theorem outsAt_out (c : Dev nD) (t : Fin cfg0.N) (h1 : t.val % 16 = 15) :
    (outsAt0 V c t.val t.isLt).1 = k0_pay2 (accAt V c t.val t.isLt) := by
  have h0 : ¬t.val % 16 = 0 := by omega
  rw [outsAt0_C V c t h0 h1, accAt_next V c t h0]
  dsimp only
  rw [outC_eq V c t h0 h1, outsAt_acc V c (t.val - 1) _]

end

end Cert.KernelIdeal.Hand

end
-- ==== Proof.EdgeTileValue.lean ====
/-
  The edge kernel's payloads read at an index, over the extended reals.

  One tile holds 1024 edges.  With v3 the tile of the receiver incidence [1024 edges, 2048 nodes], v5 the
  tile of the sender incidence, v7 the node features [2048,256], v13 and v23 the two weight matrices of
  the edge network stored inputs-by-outputs ([512,512] and [512,256]) and v16, v26 their biases as one
  row each:
    tRecv[e,q] = Σ_k v3[e,k]·v7[k,q]            tSend[e,q] = Σ_k v5[e,k]·v7[k,q]
    tPre[e,·]  = tSend[e,·] ++ tRecv[e,·]
    tHid[e,j]  = max(Σ_k tPre[e,k]·v13[k,j] + v16[0,j], 0)
    tMsg[e,c]  = max(Σ_j tHid[e,j]·v23[j,c] + v26[0,c], 0)
    tPartial[n,c] = Σ_e v3[e,n]·tMsg[e,c]       (the tile's share of the messages gathered at node n).
  The changes of format and the casts to the same shape are the identity on extended reals, and a
  product accumulated into zero is the plain sum.
-/
import proofs.«104516_j10196252360963_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand.EdgeValue

open Cert.KernelIdeal Cert.KernelIdeal.Gen Idealize.ShloMosaic Idealize.SL.Sem Idealize.ShloMosaic.ValueIdx

/-! ## The tile's functions -/

/-- The receiving node's features on edge `e` of the tile. -/
def tRecv (v3 : FVec Ideal S1024x2048 .f32) (v7 : FVec Ideal S2048x256 .bf16) (e : Fin 1024) (q : Fin 256) : EReal :=
  ∑ k : Fin 2048, (v3 (ix2 e k) : EReal) * (v7 (ix2 k q) : EReal)

/-- The sending node's features on edge `e` of the tile. -/
def tSend (v5 : FVec Ideal S1024x2048 .f32) (v7 : FVec Ideal S2048x256 .bf16) (e : Fin 1024) (q : Fin 256) : EReal :=
  ∑ k : Fin 2048, (v5 (ix2 e k) : EReal) * (v7 (ix2 k q) : EReal)

/-- The edge network's input: the sender's 256 features, then the receiver's. -/
def tPre (v3 v5 : FVec Ideal S1024x2048 .f32) (v7 : FVec Ideal S2048x256 .bf16) (e : Fin 1024) (k : Fin 512) : EReal :=
  if h : k.val < 256 then tSend v5 v7 e ⟨k.val, h⟩ else tRecv v3 v7 e ⟨k.val - 256, by omega⟩

/-- The edge network's hidden layer. -/
def tHid (v3 v5 : FVec Ideal S1024x2048 .f32) (v7 : FVec Ideal S2048x256 .bf16) (v13 : FVec Ideal S512x512 .bf16)
    (v16 : FVec Ideal S1x512 .f32) (e : Fin 1024) (j : Fin 512) : EReal :=
  max (∑ k : Fin 512, tPre v3 v5 v7 e k * (v13 (ix2 k j) : EReal) + (v16 (ix2 (0 : Fin 1) j) : EReal)) 0

/-- The message on edge `e` of the tile. -/
def tMsg (v3 v5 : FVec Ideal S1024x2048 .f32) (v7 : FVec Ideal S2048x256 .bf16) (v13 : FVec Ideal S512x512 .bf16)
    (v16 : FVec Ideal S1x512 .f32) (v23 : FVec Ideal S512x256 .bf16) (v26 : FVec Ideal S1x256 .f32)
    (e : Fin 1024) (c : Fin 256) : EReal :=
  max (∑ j : Fin 512, tHid v3 v5 v7 v13 v16 e j * (v23 (ix2 j c) : EReal) + (v26 (ix2 (0 : Fin 1) c) : EReal)) 0

/-- The tile's share of the messages gathered at node `n`. -/
def tPartial (v3 v5 : FVec Ideal S1024x2048 .f32) (v7 : FVec Ideal S2048x256 .bf16) (v13 : FVec Ideal S512x512 .bf16)
    (v16 : FVec Ideal S1x512 .f32) (v23 : FVec Ideal S512x256 .bf16) (v26 : FVec Ideal S1x256 .f32)
    (n : Fin 2048) (c : Fin 256) : EReal :=
  ∑ e : Fin 1024, (v3 (ix2 e n) : EReal) * tMsg v3 v5 v7 v13 v16 v23 v26 e c

/-! ## The four products at an index -/

/-! Each product is read through its dimension numbers: a non-contracted axis of an operand follows the
    result's index, the contracted axis follows the summation index. -/

theorem gather_lhs_row (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem gather_rhs_col (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- An incidence tile times the features, into zero: row `e` of the tile against column `q`. -/
theorem gather_mm_apply (l : FVec Ideal S1024x2048 .bf16) (r : FVec Ideal S2048x256 .bf16) (e : Fin 1024) (q : Fin 256) :
    matmul (F := Ideal) dot_S1024x2048_S2048x256_S1024x256_1_0_0_1_n_n none l r (constant (F := Ideal) S1024x256 .f32 0x00000000#32) (ix2 e q)
      = ∑ k : Fin 2048, l (ix2 e k) * r (ix2 k q) := by
  refine (Ideal.matmul_constant_zero_apply dot_S1024x2048_S2048x256_S1024x256_1_0_0_1_n_n none l r (ix2 e q)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 e q) ((contrEquiv1 dot_S1024x2048_S2048x256_S1024x256_1_0_0_1_n_n 2048 rfl rfl).symm k) = ix2 e k :=
    funext fun a => Fin.ext (by
      match a with
      | ⟨0, _⟩ => exact gather_lhs_row _ _
      | ⟨1, _⟩ => exact (dot_S1024x2048_S2048x256_S1024x256_1_0_0_1_n_n.lhsIdx_val_of_single rfl _ _).trans hk)
  have er : dot_S1024x2048_S2048x256_S1024x256_1_0_0_1_n_n.rhsIdx (ix2 e q) ((contrEquiv1 dot_S1024x2048_S2048x256_S1024x256_1_0_0_1_n_n 2048 rfl rfl).symm k) = ix2 k q :=
    funext fun a => Fin.ext (by
      match a with
      | ⟨0, _⟩ => exact (dot_S1024x2048_S2048x256_S1024x256_1_0_0_1_n_n.rhsIdx_val_of_single rfl _ _).trans hk
      | ⟨1, _⟩ => exact gather_rhs_col _ _)
  rw [el, er]

theorem hidden_lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

theorem hidden_rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The first weight product, into zero. -/
theorem hidden_mm_apply (l : FVec Ideal S1024x512 .bf16) (r : FVec Ideal S512x512 .bf16) (e : Fin 1024) (j : Fin 512) :
    matmul (F := Ideal) dot_S1024x512_S512x512_S1024x512_1_0_0_1_n_n none l r (constant (F := Ideal) S1024x512 .f32 0x00000000#32) (ix2 e j)
      = ∑ k : Fin 512, l (ix2 e k) * r (ix2 k j) := by
  refine (Ideal.matmul_constant_zero_apply dot_S1024x512_S512x512_S1024x512_1_0_0_1_n_n none l r (ix2 e j)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 e j) ((contrEquiv1 dot_S1024x512_S512x512_S1024x512_1_0_0_1_n_n 512 rfl rfl).symm k) = ix2 e k :=
    funext fun a => Fin.ext (by
      match a with
      | ⟨0, _⟩ => exact hidden_lhs_row _ _
      | ⟨1, _⟩ => exact (dot_S1024x512_S512x512_S1024x512_1_0_0_1_n_n.lhsIdx_val_of_single rfl _ _).trans hk)
  have er : dot_S1024x512_S512x512_S1024x512_1_0_0_1_n_n.rhsIdx (ix2 e j) ((contrEquiv1 dot_S1024x512_S512x512_S1024x512_1_0_0_1_n_n 512 rfl rfl).symm k) = ix2 k j :=
    funext fun a => Fin.ext (by
      match a with
      | ⟨0, _⟩ => exact (dot_S1024x512_S512x512_S1024x512_1_0_0_1_n_n.rhsIdx_val_of_single rfl _ _).trans hk
      | ⟨1, _⟩ => exact hidden_rhs_col _ _)
  rw [el, er]

theorem msg_lhs_row (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl

theorem msg_rhs_col (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The second weight product, into zero. -/
theorem msg_mm_apply (l : FVec Ideal S1024x512 .bf16) (r : FVec Ideal S512x256 .bf16) (e : Fin 1024) (c : Fin 256) :
    matmul (F := Ideal) dot_S1024x512_S512x256_S1024x256_1_0_0_1_n_n none l r (constant (F := Ideal) S1024x256 .f32 0x00000000#32) (ix2 e c)
      = ∑ j : Fin 512, l (ix2 e j) * r (ix2 j c) := by
  refine (Ideal.matmul_constant_zero_apply dot_S1024x512_S512x256_S1024x256_1_0_0_1_n_n none l r (ix2 e c)).trans ?_
  rw [← Equiv.sum_comp (contrEquiv1 dot_S1024x512_S512x256_S1024x256_1_0_0_1_n_n 512 rfl rfl).symm]
  refine Finset.sum_congr rfl fun j _ => ?_
  have hk := contrEquiv1_symm_val dot_S1024x512_S512x256_S1024x256_1_0_0_1_n_n 512 rfl rfl j
  have el : dot_S1024x512_S512x256_S1024x256_1_0_0_1_n_n.lhsIdx (ix2 e c) ((contrEquiv1 dot_S1024x512_S512x256_S1024x256_1_0_0_1_n_n 512 rfl rfl).symm j) = ix2 e j :=
    funext fun a => Fin.ext (by
      match a with
      | ⟨0, _⟩ => exact msg_lhs_row _ _
      | ⟨1, _⟩ => exact (dot_S1024x512_S512x256_S1024x256_1_0_0_1_n_n.lhsIdx_val_of_single rfl _ _).trans hk)
  have er : dot_S1024x512_S512x256_S1024x256_1_0_0_1_n_n.rhsIdx (ix2 e c) ((contrEquiv1 dot_S1024x512_S512x256_S1024x256_1_0_0_1_n_n 512 rfl rfl).symm j) = ix2 j c :=
    funext fun a => Fin.ext (by
      match a with
      | ⟨0, _⟩ => exact (dot_S1024x512_S512x256_S1024x256_1_0_0_1_n_n.rhsIdx_val_of_single rfl _ _).trans hk
      | ⟨1, _⟩ => exact msg_rhs_col _ _)
  rw [el, er]

theorem scatter_lhs_col (i : S2048x256.Idx) (q : dot_S1024x2048_S1024x256_S2048x256_0_0_1_1_n_n.contr.Idx) :
    (dot_S1024x2048_S1024x256_S2048x256_0_0_1_1_n_n.lhsIdx i q 1).val = (i 0).val := by
  unfold DotDims.lhsIdx
  rw [dif_neg (show ¬(1 : Fin S1024x2048.rank) ∈ dot_S1024x2048_S1024x256_S2048x256_0_0_1_1_n_n.lhsBatch by decide),
    dif_pos (show (1 : Fin S1024x2048.rank) ∈ dot_S1024x2048_S1024x256_S2048x256_0_0_1_1_n_n.lhsNonContracting by decide)]
  rfl

theorem scatter_rhs_col (i : S2048x256.Idx) (q : dot_S1024x2048_S1024x256_S2048x256_0_0_1_1_n_n.contr.Idx) :
    (dot_S1024x2048_S1024x256_S2048x256_0_0_1_1_n_n.rhsIdx i q 1).val = (i 1).val := by
  unfold DotDims.rhsIdx
  rw [dif_neg (show ¬(1 : Fin S1024x256.rank) ∈ dot_S1024x2048_S1024x256_S2048x256_0_0_1_1_n_n.rhsBatch by decide),
    dif_pos (show (1 : Fin S1024x256.rank) ∈ dot_S1024x2048_S1024x256_S2048x256_0_0_1_1_n_n.rhsNonContracting by decide)]
  rfl

/-- The incidence tile, transposed, times the messages, into zero: both operands are contracted along
    their edge axis, column `n` of the tile against column `c` of the messages. -/
theorem scatter_mm_apply (l : FVec Ideal S1024x2048 .bf16) (r : FVec Ideal S1024x256 .bf16) (n : Fin 2048) (c : Fin 256) :
    matmul (F := Ideal) dot_S1024x2048_S1024x256_S2048x256_0_0_1_1_n_n none l r (constant (F := Ideal) S2048x256 .f32 0x00000000#32) (ix2 n c)
      = ∑ e : Fin 1024, l (ix2 e n) * r (ix2 e c) := by
  refine (Ideal.matmul_constant_zero_apply dot_S1024x2048_S1024x256_S2048x256_0_0_1_1_n_n none l r (ix2 n c)).trans ?_
  rw [← Equiv.sum_comp (contrEquiv1 dot_S1024x2048_S1024x256_S2048x256_0_0_1_1_n_n 1024 rfl rfl).symm]
  refine Finset.sum_congr rfl fun e _ => ?_
  have hk := contrEquiv1_symm_val dot_S1024x2048_S1024x256_S2048x256_0_0_1_1_n_n 1024 rfl rfl e
  have el : dot_S1024x2048_S1024x256_S2048x256_0_0_1_1_n_n.lhsIdx (ix2 n c) ((contrEquiv1 dot_S1024x2048_S1024x256_S2048x256_0_0_1_1_n_n 1024 rfl rfl).symm e) = ix2 e n :=
    funext fun a => Fin.ext (by
      match a with
      | ⟨0, _⟩ => exact (dot_S1024x2048_S1024x256_S2048x256_0_0_1_1_n_n.lhsIdx_val_of_single rfl _ _).trans hk
      | ⟨1, _⟩ => exact scatter_lhs_col _ _)
  have er : dot_S1024x2048_S1024x256_S2048x256_0_0_1_1_n_n.rhsIdx (ix2 n c) ((contrEquiv1 dot_S1024x2048_S1024x256_S2048x256_0_0_1_1_n_n 1024 rfl rfl).symm e) = ix2 e c :=
    funext fun a => Fin.ext (by
      match a with
      | ⟨0, _⟩ => exact (dot_S1024x2048_S1024x256_S2048x256_0_0_1_1_n_n.rhsIdx_val_of_single rfl _ _).trans hk
      | ⟨1, _⟩ => exact scatter_rhs_col _ _)
  rw [el, er]

/-! ## The concatenation at an index -/

/-- Two [1024,256] blocks side by side: the first 256 columns read the first block, the rest the second. -/
theorem concat_apply (s r : FVec Ideal S1024x256 .f32) (h : Shape.Concatenates [S1024x256, S1024x256] S1024x512 1)
    (e : Fin 1024) (k : Fin 512) :
    concatenate S1024x512 1 [⟨S1024x256, s⟩, ⟨S1024x256, r⟩] h (ix2 e k)
      = if hk : k.val < 256 then s (ix2 e ⟨k.val, hk⟩) else r (ix2 e ⟨k.val - 256, by omega⟩) := by
  by_cases hk : k.val < 256
  · rw [dif_pos hk]
    exact concatenate_pair_apply_left (1 : Fin S1024x512.rank) s r h (ix2 e k) rfl (ix2 e ⟨k.val, hk⟩)
      (fun b => match b with
        | ⟨0, _⟩ => rfl
        | ⟨1, _⟩ => rfl)
  · rw [dif_neg hk]
    have hk' : k.val - 256 < 256 := by have := k.isLt; omega
    exact concatenate_pair_apply_right (1 : Fin S1024x512.rank) s r h (ix2 e k) rfl rfl (ix2 e ⟨k.val - 256, hk'⟩)
      (fun b => match b with
        | ⟨0, _⟩ => fun _ => rfl
        | ⟨1, _⟩ => fun hb => absurd rfl hb)
      (by show k.val - 256 + 256 = k.val; omega)

/-! ## An affine map and rectifier at an index -/

/-- The hidden layer from its input block `X`: the product with the weights, the bias row added to every
    row, the maximum with zero. -/
theorem hid_stage_apply (X : FVec Ideal S1024x512 .f32) (W : FVec Ideal S512x512 .bf16) (b : FVec Ideal S1x512 .f32)
    (hb : FTy.bits .bf16 < FTy.bits .f32) (hbr : S1x512.Broadcasts S1024x512) (e : Fin 1024) (j : Fin 512) :
    maximumf (F := Ideal) (addf (F := Ideal) (matmul (F := Ideal) dot_S1024x512_S512x512_S1024x512_1_0_0_1_n_n none (truncf .bf16 X hb) W
        (constant (F := Ideal) S1024x512 .f32 0x00000000#32)) (broadcastTo S1024x512 b hbr))
      (broadcast S1024x512 (Scalar.ofBits (F := Ideal) .f32 0x00000000#32)) (ix2 e j)
      = max (∑ k : Fin 512, X (ix2 e k) * W (ix2 k j) + b (ix2 (0 : Fin 1) j)) 0 := by
  rw [maximumf_apply, addf_apply, hidden_mm_apply, broadcastTo_1b_ab_apply]
  exact congrArg (max _) Ideal.ofBits_zero_f32

/-- The message from the hidden block `H`, likewise. -/
theorem msg_stage_apply (H : FVec Ideal S1024x512 .f32) (W : FVec Ideal S512x256 .bf16) (b : FVec Ideal S1x256 .f32)
    (hb : FTy.bits .bf16 < FTy.bits .f32) (hbr : S1x256.Broadcasts S1024x256) (e : Fin 1024) (c : Fin 256) :
    maximumf (F := Ideal) (addf (F := Ideal) (matmul (F := Ideal) dot_S1024x512_S512x256_S1024x256_1_0_0_1_n_n none (truncf .bf16 H hb) W
        (constant (F := Ideal) S1024x256 .f32 0x00000000#32)) (broadcastTo S1024x256 b hbr))
      (broadcast S1024x256 (Scalar.ofBits (F := Ideal) .f32 0x00000000#32)) (ix2 e c)
      = max (∑ j : Fin 512, H (ix2 e j) * W (ix2 j c) + b (ix2 (0 : Fin 1) c)) 0 := by
  rw [maximumf_apply, addf_apply, msg_mm_apply, broadcastTo_1b_ab_apply]
  exact congrArg (max _) Ideal.ofBits_zero_f32

/-! ## The payloads -/

/-- The tile's payload at node `n`, feature `c`: the tile's share of the gathered messages. -/
theorem pay4_apply (v3 v5 : Vec Ideal S1024x2048 .f32) (v7 : Vec Ideal S2048x256 .bf16) (v13 : Vec Ideal S512x512 .bf16)
    (v16 : Vec Ideal S1x512 .f32) (v23 : Vec Ideal S512x256 .bf16) (v26 : Vec Ideal S1x256 .f32)
    (n : Fin 2048) (c : Fin 256) :
    k0_pay4 (F := Ideal) v3 v5 v7 v13 v16 v23 v26 (ix2 n c) = tPartial v3 v5 v7 v13 v16 v23 v26 n c := by
  unfold k0_pay4
  simp only [shapeCast_self]
  rw [scatter_mm_apply]
  unfold tPartial tMsg tHid tPre tSend tRecv
  simp only [truncf_apply, msg_stage_apply, hid_stage_apply, concat_apply, gather_mm_apply, shapeCast_self]

/-- The accumulator's first value: zero everywhere. -/
theorem pay3_apply (n : Fin 2048) (c : Fin 256) : k0_pay3 (F := Ideal) (ix2 n c) = 0 := by
  unfold k0_pay3
  simp only [shapeCast_self]
  exact Ideal.ofBits_zero_f32

/-- The accumulator's next value: what it held plus the tile's payload. -/
theorem pay1_apply (v33 : FVec Ideal S2048x256 .f32) (v34 : Vec Ideal S2048x256 .f32) (n : Fin 2048) (c : Fin 256) :
    k0_pay1 (F := Ideal) v33 v34 (ix2 n c) = v34 (ix2 n c) + v33 (ix2 n c) := by
  unfold k0_pay1
  simp only [shapeCast_self]
  rfl

/-- The accumulator written out under a leading unit axis. -/
theorem pay2_apply (v42 : Vec Ideal S2048x256 .f32) (n : Fin 2048) (c : Fin 256) :
    k0_pay2 (F := Ideal) v42 (ix3 (0 : Fin 1) n c) = v42 (ix2 n c) := by
  unfold k0_pay2
  exact shapeCast_ab_1ab_apply v42 _ 0 n c

end Cert.KernelIdeal.Hand.EdgeValue

end
-- ==== Proof.SpecFold.lean ====
/-
  A sum accumulated tile by tile. A sequence `acc` that restarts at every multiple of 16 from `0 + P t` and otherwise
  adds `P (t+1)` to its previous value is, at position t, the sum of `P` over the positions of t's group of 16 up to t;
  at a group's last position it is the sum over the whole group. Only commutative-monoid laws are used, so this holds
  on the extended reals without any finiteness.
-/
import Mathlib.Algebra.BigOperators.Fin
import Mathlib.Algebra.BigOperators.Intervals

namespace Cert.Spec

theorem fold_tiles {M : Type*} [AddCommMonoid M] (N : ℕ) (acc P : ℕ → M)
    (h0 : ∀ t, t < N → t % 16 = 0 → acc t = 0 + P t)
    (hs : ∀ t, t + 1 < N → (t + 1) % 16 ≠ 0 → acc (t + 1) = acc t + P (t + 1)) :
    ∀ t, t < N → acc t = ∑ j ∈ Finset.range (t % 16 + 1), P (t - t % 16 + j) := by
  intro t
  induction t with
  | zero => intro h; rw [h0 0 h rfl]; simp
  | succ s ih =>
    intro h
    by_cases hm : (s + 1) % 16 = 0
    · rw [h0 _ h hm, hm]; simp
    · rw [hs s h hm, ih (by omega)]
      have e1 : (s + 1) % 16 = s % 16 + 1 := by omega
      have e2 : s + 1 - (s + 1) % 16 = s - s % 16 := by omega
      have e3 : s - s % 16 + (s % 16 + 1) = s + 1 := by have := Nat.mod_le s 16; omega
      rw [e2, e1, Finset.sum_range_succ (fun j => P (s - s % 16 + j)) (s % 16 + 1), e3]

theorem fold_tiles_last {M : Type*} [AddCommMonoid M] (N : ℕ) (acc P : ℕ → M)
    (h0 : ∀ t, t < N → t % 16 = 0 → acc t = 0 + P t)
    (hs : ∀ t, t + 1 < N → (t + 1) % 16 ≠ 0 → acc (t + 1) = acc t + P (t + 1))
    (g : ℕ) (h : 16 * g + 15 < N) : acc (16 * g + 15) = ∑ j : Fin 16, P (16 * g + j.val) := by
  have e1 : (16 * g + 15) % 16 = 15 := by omega
  have e2 : 16 * g + 15 - 15 = 16 * g := by omega
  rw [fold_tiles N acc P h0 hs _ h, e1, e2]
  exact Finset.sum_range (fun j => P (16 * g + j))

/-- The same at any position that is the last of its group of 16. -/
theorem fold_tiles_at_last {M : Type*} [AddCommMonoid M] (N : ℕ) (acc P : ℕ → M)
    (h0 : ∀ t, t < N → t % 16 = 0 → acc t = 0 + P t)
    (hs : ∀ t, t + 1 < N → (t + 1) % 16 ≠ 0 → acc (t + 1) = acc t + P (t + 1))
    (t : ℕ) (ht : t < N) (h15 : t % 16 = 15) : acc t = ∑ j : Fin 16, P (16 * (t / 16) + j.val) := by
  have e : t - 15 = 16 * (t / 16) := by omega
  rw [fold_tiles N acc P h0 hs t ht, h15, e]
  exact Finset.sum_range (fun j => P (16 * (t / 16) + j))

end Cert.Spec
-- ==== Proof.Region0Sum.lean ====
/-
  Region 0 at the ideal values: the accumulator after a core's last tile, entry by entry, is the sum over the core's
  16 tiles of the tiles' partial sums — each tile adds its partial sum to what the point before left, the first tile
  to zero; regrouping that left-to-right accumulation as one finite sum uses only the monoid laws of the extended reals.
-/
import proofs.«104516_j10196252360963_2_alg».proof.Proof.Region0Pieces
import proofs.«104516_j10196252360963_2_alg».proof.Proof.EdgeTileValue
import proofs.«104516_j10196252360963_2_alg».proof.Proof.SpecFold
import Idealize.ShloMosaic.Lib.ValueIdx

noncomputable section

namespace Cert.KernelIdeal.Hand.V0

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The partial sum of the tile at position `s`, at node `n`, lane `q` (zero past the grid). -/
def P (c : Dev nD) (n : Fin 2048) (q : Fin 256) (s : ℕ) : EReal :=
  if h : s < cfg0.N then part (F := Ideal) V c ⟨s, h⟩ (ix2 n q) else 0

/-- The accumulator after position `s`, at node `n`, lane `q` (zero past the grid). -/
def A (c : Dev nD) (n : Fin 2048) (q : Fin 256) (s : ℕ) : EReal :=
  if h : s < cfg0.N then accAt (F := Ideal) V c s h (ix2 n q) else 0

theorem A_first (c : Dev nD) (n : Fin 2048) (q : Fin 256) (t : ℕ) (ht : t < cfg0.N) (h0 : t % 16 = 0) :
    A V c n q t = 0 + P V c n q t := by
  unfold A P
  rw [dif_pos ht, dif_pos ht, accAt_first V c ⟨t, ht⟩ h0]
  refine (EdgeValue.pay1_apply (part (F := Ideal) V c ⟨t, ht⟩) (k0_pay3 (F := Ideal)) n q).trans ?_
  rw [EdgeValue.pay3_apply]

theorem A_next (c : Dev nD) (n : Fin 2048) (q : Fin 256) (t : ℕ) (ht : t + 1 < cfg0.N) (h0 : (t + 1) % 16 ≠ 0) :
    A V c n q (t + 1) = A V c n q t + P V c n q (t + 1) := by
  unfold A P
  rw [dif_pos ht, dif_pos ht, dif_pos (Nat.lt_of_succ_lt ht), accAt_next V c ⟨t + 1, ht⟩ h0]
  exact EdgeValue.pay1_apply (part (F := Ideal) V c ⟨t + 1, ht⟩) (accAt (F := Ideal) V c t (Nat.lt_of_succ_lt ht)) n q

/-- After a core's last tile the accumulator holds the sum of the core's 16 partial sums. -/
theorem acc_last (c : Dev nD) (n : Fin 2048) (q : Fin 256) (t : Fin cfg0.N) (h15 : t.val % 16 = 15) :
    accAt (F := Ideal) V c t.val t.isLt (ix2 n q) = ∑ j : Fin 16, P V c n q (16 * (t.val / 16) + j.val) := by
  have h := Cert.Spec.fold_tiles_at_last cfg0.N (A V c n q) (P V c n q)
    (fun s hs h0 => A_first V c n q s hs h0) (fun s hs h0 => A_next V c n q s hs h0) t.val t.isLt h15
  unfold A at h
  rw [dif_pos t.isLt] at h
  exact h

end Cert.KernelIdeal.Hand.V0

end
-- ==== Proof.Region0Blocks.lean ====
/- The first kernel call's windows as parts of their arrays, for any entry contents `V`, at the ideal (extended-real)
   values. On its grid of 2 cores × 16 tiles (point `t` = 16 · core + tile) each incidence block is rows
   `1024 t … 1024 t + 1023` of its matrix; the node array, the two weights and the two bias rows are read whole; the
   output block is the plane of the point's core, written back at the core's last tile, and the two planes cover the
   output array. -/
import proofs.«104516_j10196252360963_2_alg».proof.Proof.Region0
import Idealize.ShloMosaic.Lib.Pipeline.Value
import Idealize.ShloMosaic.Lib.ValueIdx

noncomputable section

namespace Cert.KernelIdeal.Hand.V0

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The windows' block indices over the 32 grid points (point `t` = 16 · core + tile) -/

/-- The two incidence matrices move one row block per point; the output moves with the core; nothing moves on the
    other axes. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 3) = t.val / 16 ∧ win0_7.index t (1 : Fin 3) = 0 ∧ win0_7.index t (2 : Fin 3) = 0
    ∧ t.val < 32 :=
  (by decide +kernel : ∀ t : Fin grid0.N, _)

/-- The node array, the weights and the bias rows stay at block zero on both axes. -/
theorem idx_facts0_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The incidence blocks as rows of their matrices -/

/-- The receiver incidence block at point `t`: rows `1024 t … 1024 t + 1023` of the matrix. -/
theorem blk0_apply (c : Dev nD) (t : Fin cfg0.N) (y : S1024x2048.Idx) (i : S32768x2048.Idx)
    (h0 : (i 0).val = 1024 * t.val + (y 0).val) (h1 : (i 1).val = (y 1).val) :
    (iblk0 V c 0 t : Vec Ideal S1024x2048 .f32) y = (V c main_arg1 : S32768x2048.Idx → EReal) i := by
  obtain ⟨e0, e1, -⟩ := idx_facts0 t
  unfold iblk0
  rw [View.read_apply]
  show V c main_arg1 _ = V c main_arg1 _
  refine congrArg (V c main_arg1) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 2048 + 1 * (y 1).val = (i 1).val; rw [e1, h1]; omega

/-- The sender incidence block at point `t`: rows `1024 t … 1024 t + 1023` of the matrix. -/
theorem blk1_apply (c : Dev nD) (t : Fin cfg0.N) (y : S1024x2048.Idx) (i : S32768x2048.Idx)
    (h0 : (i 0).val = 1024 * t.val + (y 0).val) (h1 : (i 1).val = (y 1).val) :
    (iblk0 V c 1 t : Vec Ideal S1024x2048 .f32) y = (V c main_arg2 : S32768x2048.Idx → EReal) i := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 1024 + 1 * (y 0).val = (i 0).val; rw [e0, h0]; omega
  | ⟨1, _⟩ => show win0_1.index t (1 : Fin 2) * 2048 + 1 * (y 1).val = (i 1).val; rw [e1, h1]; omega

/-! ## The node array, the weights and the bias rows: each block is the whole array -/

theorem blk2_eq (c : Dev nD) (t : Fin cfg0.N) :
    (iblk0 V c 2 t : Vec Ideal S2048x256 .bf16) = (V c main_v0 : S2048x256.Idx → EReal) := by
  have e := idx_facts0_whole t
  funext y
  unfold iblk0
  rw [View.read_apply]
  show V c main_v0 _ = V c main_v0 _
  refine congrArg (V c main_v0) (funext fun a => Fin.ext ?_)
  match a with
  | ⟨0, _⟩ => show win0_2.index t (0 : Fin 2) * 2048 + 1 * (y 0).val = (y 0).val; rw [e.1]; omega
  | ⟨1, _⟩ => show win0_2.index t (1 : Fin 2) * 256 + 1 * (y 1).val = (y 1).val; rw [e.2.1]; omega

theorem blk3_eq (c : Dev nD) (t : Fin cfg0.N) :
    (iblk0 V c 3 t : Vec Ideal S512x512 .bf16) = (V c main_v2 : S512x512.Idx → EReal) := by
  have e := idx_facts0_whole t
  funext y
  unfold iblk0
  rw [View.read_apply]
  show V c main_v2 _ = V c main_v2 _
  refine congrArg (V c main_v2) (funext fun a => Fin.ext ?_)
  match a with
  | ⟨0, _⟩ => show win0_3.index t (0 : Fin 2) * 512 + 1 * (y 0).val = (y 0).val; rw [e.2.2.1]; omega
  | ⟨1, _⟩ => show win0_3.index t (1 : Fin 2) * 512 + 1 * (y 1).val = (y 1).val; rw [e.2.2.2.1]; omega

theorem blk4_eq (c : Dev nD) (t : Fin cfg0.N) :
    (iblk0 V c 4 t : Vec Ideal S1x512 .f32) = (V c main_v11 : S1x512.Idx → EReal) := by
  have e := idx_facts0_whole t
  funext y
  unfold iblk0
  rw [View.read_apply]
  show V c main_v11 _ = V c main_v11 _
  refine congrArg (V c main_v11) (funext fun a => Fin.ext ?_)
  match a with
  | ⟨0, _⟩ => show win0_4.index t (0 : Fin 2) * 1 + 1 * (y 0).val = (y 0).val; rw [e.2.2.2.2.1]; omega
  | ⟨1, _⟩ => show win0_4.index t (1 : Fin 2) * 512 + 1 * (y 1).val = (y 1).val; rw [e.2.2.2.2.2.1]; omega

theorem blk5_eq (c : Dev nD) (t : Fin cfg0.N) :
    (iblk0 V c 5 t : Vec Ideal S512x256 .bf16) = (V c main_v4 : S512x256.Idx → EReal) := by
  have e := idx_facts0_whole t
  funext y
  unfold iblk0
  rw [View.read_apply]
  show V c main_v4 _ = V c main_v4 _
  refine congrArg (V c main_v4) (funext fun a => Fin.ext ?_)
  match a with
  | ⟨0, _⟩ => show win0_5.index t (0 : Fin 2) * 512 + 1 * (y 0).val = (y 0).val; rw [e.2.2.2.2.2.2.1]; omega
  | ⟨1, _⟩ => show win0_5.index t (1 : Fin 2) * 256 + 1 * (y 1).val = (y 1).val; rw [e.2.2.2.2.2.2.2.1]; omega

theorem blk6_eq (c : Dev nD) (t : Fin cfg0.N) :
    (iblk0 V c 6 t : Vec Ideal S1x256 .f32) = (V c main_v12 : S1x256.Idx → EReal) := by
  have e := idx_facts0_whole t
  funext y
  unfold iblk0
  rw [View.read_apply]
  show V c main_v12 _ = V c main_v12 _
  refine congrArg (V c main_v12) (funext fun a => Fin.ext ?_)
  match a with
  | ⟨0, _⟩ => show win0_6.index t (0 : Fin 2) * 1 + 1 * (y 0).val = (y 0).val; rw [e.2.2.2.2.2.2.2.2.1]; omega
  | ⟨1, _⟩ => show win0_6.index t (1 : Fin 2) * 256 + 1 * (y 1).val = (y 1).val; rw [e.2.2.2.2.2.2.2.2.2]; omega

/-! ## The output block in its array: the core's plane -/

/-- An entry of the output block at point `t` sits in the plane of the point's core, -/
theorem emb7_0 (t : Fin cfg0.N) (y : S1x2048x256.Idx) :
    ((((cfg0.win 7).blk t).view.emb y : S2x2048x256.Idx) 0).val = t.val / 16 := by
  obtain ⟨-, -, -, -, e0, -⟩ := idx_facts0 t
  have hy : (y 0).val < 1 := (y 0).isLt
  show win0_7.index t (0 : Fin 3) * 1 + 1 * (y 0).val = _
  rw [e0]; omega

/-- at its own row -/
theorem emb7_1 (t : Fin cfg0.N) (y : S1x2048x256.Idx) :
    (((cfg0.win 7).blk t).view.emb y : S2x2048x256.Idx) 1 = (y 1 : Fin 2048) := Fin.ext (by
  obtain ⟨-, -, -, -, -, e1, -⟩ := idx_facts0 t
  show win0_7.index t (1 : Fin 3) * 2048 + 1 * (y 1).val = (y 1).val
  rw [e1]; omega)

/-- and lane. -/
theorem emb7_2 (t : Fin cfg0.N) (y : S1x2048x256.Idx) :
    (((cfg0.win 7).blk t).view.emb y : S2x2048x256.Idx) 2 = (y 2 : Fin 256) := Fin.ext (by
  obtain ⟨-, -, -, -, -, -, e2, -⟩ := idx_facts0 t
  show win0_7.index t (2 : Fin 3) * 256 + 1 * (y 2).val = (y 2).val
  rw [e2]; omega)

/-- The same three facts under the names of what they say. -/
theorem emb7_core (t : Fin cfg0.N) (y : S1x2048x256.Idx) :
    ((((cfg0.win 7).blk t).view.emb y : S2x2048x256.Idx) 0).val = t.val / 16 := emb7_0 t y
theorem emb7_row (t : Fin cfg0.N) (y : S1x2048x256.Idx) :
    (((cfg0.win 7).blk t).view.emb y : S2x2048x256.Idx) 1 = (y 1 : Fin 2048) := emb7_1 t y
theorem emb7_lane (t : Fin cfg0.N) (y : S1x2048x256.Idx) :
    (((cfg0.win 7).blk t).view.emb y : S2x2048x256.Idx) 2 = (y 2 : Fin 256) := emb7_2 t y

/-- Every entry of the output array is in the block written back at the last tile of its core. -/
theorem cover7 (i : S2x2048x256.Idx) : ∃ t : Fin cfg0.N, (cfg0.win 7).flush t = true ∧ i ∈ ((cfg0.win 7).blk t).view.set := by
  have hi0 : (i 0).val < 2 := (i 0).isLt
  have hi1 : (i 1).val < 2048 := (i 1).isLt
  have hi2 : (i 2).val < 256 := (i 2).isLt
  let t : Fin cfg0.N := ⟨16 * (i 0).val + 15, by rw [show cfg0.N = 32 from N_0]; omega⟩
  obtain ⟨-, -, -, -, e0, e1, e2, -⟩ := idx_facts0 t
  have ht : t.val = 16 * (i 0).val + 15 := rfl
  refine ⟨t, (flush0_7 t).mpr (by rw [ht]; omega), ?_⟩
  show i ∈ ((View.whole main_v16).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    rw [e0, ht]; omega
  | ⟨1, _⟩ =>
    show win0_7.index t (1 : Fin 3) * 2048 ≤ (i 1).val ∧ (i 1).val < win0_7.index t (1 : Fin 3) * 2048 + 2048
    rw [e1]; omega
  | ⟨2, _⟩ =>
    show win0_7.index t (2 : Fin 3) * 256 ≤ (i 2).val ∧ (i 2).val < win0_7.index t (2 : Fin 3) * 256 + 256
    rw [e2]; omega

end Cert.KernelIdeal.Hand.V0

end
-- ==== Proof.Region0Array.lean ====
/-
  Region 0, from blocks to the array: the only write-back of a core is at its last tile, and it writes the whole plane
  of the core in the [2, 2048, 256] partial-sum array; so after the region that array holds, at (core, node, lane), the
  sum over the core's 16 tiles of the tiles' partial sums.
-/
import proofs.«104516_j10196252360963_2_alg».proof.Proof.Region0Sum
import proofs.«104516_j10196252360963_2_alg».proof.Proof.Region0Blocks
import Idealize.ShloMosaic.Lib.Pipeline.Value
import Idealize.ShloMosaic.Lib.ValueIdx

noncomputable section

namespace Cert.KernelIdeal.Hand.V0

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the partial-sum array holds after region 0. -/
def H (c : Dev nD) : S2x2048x256.Idx → EReal :=
  fun i => ∑ j : Fin 16, P V c (i 1) (i 2) (16 * (i 0).val + j.val)

/-- What a core's last tile writes back is the core's plane of `H`. -/
theorem flushed_eq7 (c : Dev nD) (t : Fin cfg0.N) (hf : (cfg0.win 7).flush t = true) :
    (dat0 (F := Ideal) V c).flushed 7 t = ((cfg0.win 7).blk t).view.read (Elt Ideal) (H V c) := by
  have h15 : t.val % 16 = 15 := (flush0_7 t).mp hf
  show (cfg0.win 7).cut (grid0.coords t) ((dat0 (F := Ideal) V c).after 7 t) = _
  rw [after0_7, outsAt_out V c t h15]
  funext y
  show k0_pay2 (F := Ideal) (accAt (F := Ideal) V c t.val t.isLt) (y : S1x2048x256.Idx) = H V c (((cfg0.win 7).blk t).view.emb y)
  have hy0 : (show Fin 1 from (y : S1x2048x256.Idx) 0) = 0 := Subsingleton.elim _ _
  have hy : (y : S1x2048x256.Idx) = ix3 (0 : Fin 1) (y 1) (y 2) :=
    (eq_ix3 (y : S1x2048x256.Idx)).trans (congrArg (fun a : Fin 1 => ix3 a (show Fin 2048 from (y : S1x2048x256.Idx) 1) (show Fin 256 from (y : S1x2048x256.Idx) 2)) hy0)
  refine (congrArg _ hy).trans ((EdgeValue.pay2_apply (accAt (F := Ideal) V c t.val t.isLt) (y 1) (y 2)).trans ?_)
  refine (acc_last V c (y 1) (y 2) t h15).trans ?_
  unfold H
  rw [emb7_0 t y, emb7_1 t y, emb7_2 t y]

/-- The partial-sum array after region 0 is `H`. -/
theorem arr7 (c : Dev nD) : (dat0 (F := Ideal) V c).arrAt 7 cfg0.N = H V c :=
  (dat0 (F := Ideal) V c).arrAt_eq_of_cover 7 (H V c) (fun t hf => flushed_eq7 V c t hf) cover7

theorem arr7_apply (c : Dev nD) (p : Fin 2) (n : Fin 2048) (q : Fin 256) :
    (dat0 (F := Ideal) V c).arrAt 7 cfg0.N (ix3 p n q) = ∑ j : Fin 16, P V c n q (16 * p.val + j.val) := by
  rw [arr7]; rfl

end Cert.KernelIdeal.Hand.V0

end
-- ==== Proof.Region1Value.lean ====
/- What the second kernel call leaves in its output block, read at an index, at the ideal (extended-real) values.
   Over arbitrary input blocks `x0 … x7` the block at row `r`, column `q` is
     x1[r,q] + (Σ_k P2[r,k]·x6[k,q] + x7[0,q]),
   where P2[r,j] = max (Σ_k P1[r,k]·x4[k,j] + x5[0,j]) 0, P1[r,j] = max (Σ_k AUG[r,k]·x2[k,j] + x3[0,j]) 0, and
   AUG[r,k] is x1[r,k] for k < 256 and x0[0,r,k-256] + x0[1,r,k-256] from there on: the node block joined with the
   two cores' summed aggregates, through a three-layer perceptron, added back to the node block. Each non-pointwise
   operation (the sum over the core axis, the join along lanes, the row broadcast, the matrix product into a zero
   accumulator) gets one lemma at a coordinate pair; the casts to the narrower float format are the identity here. -/
import proofs.«104516_j10196252360963_2_alg».proof.Proof.Region1
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand.V1

open Cert.KernelIdeal Cert.KernelIdeal.Gen
open Idealize.ShloMosaic Idealize.ShloMosaic.TcCoe Idealize.SL.Sem
open Idealize.ShloMosaic.ValueIdx

/-! ## The non-pointwise operations of the payload, read at an index -/

/-- The sum over the two cores of a [2,1024,256] array, read at `(r, c)`: core 0's entry plus core 1's. -/
theorem coreSum_apply (y : FVec Ideal S2x1024x256 .f32) (r : Fin 1024) (c : Fin 256) :
    multiReduction (F := Ideal) .add [0] S1024x256 y 0x00000000#32 reduces_S2x1024x256_S1024x256 (.inl rfl) rfl (ix2 r c)
      = y (ix3 (0 : Fin 2) r c) + y (ix3 (1 : Fin 2) r c) := by
  refine (Ideal.multiReduction_add_single y 0x00000000#32 reduces_S2x1024x256_S1024x256 _ _ (ix2 r c)).trans ?_
  show ∑ k : Fin 2, y (reduces_S2x1024x256_S1024x256.lift (ix2 r c) k) = _
  rw [Fin.sum_univ_two]
  have e0 : reduces_S2x1024x256_S1024x256.lift (ix2 r c) (0 : Fin 2) = ix3 (0 : Fin 2) r c :=
    funext fun a => Fin.ext (by match a with | ⟨0, _⟩ => rfl | ⟨1, _⟩ => rfl | ⟨2, _⟩ => rfl)
  have e1 : reduces_S2x1024x256_S1024x256.lift (ix2 r c) (1 : Fin 2) = ix3 (1 : Fin 2) r c :=
    funext fun a => Fin.ext (by match a with | ⟨0, _⟩ => rfl | ⟨1, _⟩ => rfl | ⟨2, _⟩ => rfl)
  rw [e0, e1]

/-- Two [1024,256] arrays joined along lanes, read at a lane below 256: the first array there. -/
theorem laneJoin_left {α : Type} (a b : S1024x256.Idx → α) (r : Fin 1024) (k : Fin 512) (h : k.val < 256) :
    concatenate S1024x512 1 [⟨S1024x256, a⟩, ⟨S1024x256, b⟩] concatenates_S1024x256_S1024x256_S1024x512_d1 (ix2 r k)
      = a (ix2 r (⟨k.val, h⟩ : Fin 256)) :=
  concatenate_pair_apply_left 1 a b concatenates_S1024x256_S1024x256_S1024x512_d1 (ix2 r k) rfl (ix2 r (⟨k.val, h⟩ : Fin 256))
    (fun ax => by match ax with | ⟨0, _⟩ => rfl | ⟨1, _⟩ => rfl)

/-- Read at a lane from 256 on: the second array, 256 lanes back. -/
theorem laneJoin_right {α : Type} (a b : S1024x256.Idx → α) (r : Fin 1024) (k : Fin 512) (h : 256 ≤ k.val) :
    concatenate S1024x512 1 [⟨S1024x256, a⟩, ⟨S1024x256, b⟩] concatenates_S1024x256_S1024x256_S1024x512_d1 (ix2 r k)
      = b (ix2 r (⟨k.val - 256, by have := k.isLt; omega⟩ : Fin 256)) :=
  concatenate_pair_apply_right 1 a b concatenates_S1024x256_S1024x256_S1024x512_d1 (ix2 r k) rfl rfl (ix2 r (⟨k.val - 256, by have := k.isLt; omega⟩ : Fin 256))
    (fun ax hax => by match ax, hax with | ⟨0, _⟩, _ => rfl | ⟨1, _⟩, hax => exact absurd rfl hax)
    (by show k.val - 256 + 256 = k.val; omega)

/-- A [1,512] row laid along 1024 rows, read at `(r, j)`: the row at `j`. -/
theorem rowBroadcast512_apply {α : Type} (v : S1x512.Idx → α) (r : Fin 1024) (j : Fin 512) :
    broadcastTo S1024x512 v broadcasts_S1x512_S1024x512 (ix2 r j) = v (ix2 (0 : Fin 1) j) :=
  broadcastTo_1b_ab_apply v broadcasts_S1x512_S1024x512 r j

/-- A [1,256] row laid along 1024 rows, read at `(r, j)`: the row at `j`. -/
theorem rowBroadcast256_apply {α : Type} (v : S1x256.Idx → α) (r : Fin 1024) (j : Fin 256) :
    broadcastTo S1024x256 v broadcasts_S1x256_S1024x256 (ix2 r j) = v (ix2 (0 : Fin 1) j) :=
  broadcastTo_1b_ab_apply v broadcasts_S1x256_S1024x256 r j

theorem lhs512_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem lhs512_contr (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs512_contr (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs512_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- A product of a [1024,512] block with a [512,512] matrix accumulated into zero, read at row `r`, column `j`:
    the sum over the 512 contracted coordinates of the products of the row's and the column's entries. -/
theorem matmul512_apply (A : FVec Ideal S1024x512 .bf16) (B : FVec Ideal S512x512 .bf16) (r : Fin 1024) (j : Fin 512) :
    matmul dot_S1024x512_S512x512_S1024x512_1_0_0_1_n_n none A B (constant S1024x512 .f32 0x00000000#32) (ix2 r j)
      = ∑ k : Fin 512, A (ix2 r k) * B (ix2 k j) := by
  refine (Ideal.matmul_constant_zero_apply dot_S1024x512_S512x512_S1024x512_1_0_0_1_n_n none A B (ix2 r j)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r j) ((contrEquiv1 dot_S1024x512_S512x512_S1024x512_1_0_0_1_n_n 512 rfl rfl).symm k) = ix2 r k :=
    funext fun a => Fin.ext (by
      match a with
      | ⟨0, _⟩ => exact lhs512_row _ _
      | ⟨1, _⟩ => exact (lhs512_contr _ _).trans hk)
  have er : dot_S1024x512_S512x512_S1024x512_1_0_0_1_n_n.rhsIdx (ix2 r j) ((contrEquiv1 dot_S1024x512_S512x512_S1024x512_1_0_0_1_n_n 512 rfl rfl).symm k) = ix2 k j :=
    funext fun a => Fin.ext (by
      match a with
      | ⟨0, _⟩ => exact (rhs512_contr _ _).trans hk
      | ⟨1, _⟩ => exact rhs512_col _ _)
  rw [el, er]

theorem lhs256_row (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem lhs256_contr (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs256_contr (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs256_col (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- A product of a [1024,512] block with a [512,256] matrix accumulated into zero, read at row `r`, column `j`:
    the sum over the 512 contracted coordinates of the products of the row's and the column's entries. -/
theorem matmul256_apply (A : FVec Ideal S1024x512 .bf16) (B : FVec Ideal S512x256 .bf16) (r : Fin 1024) (j : Fin 256) :
    matmul dot_S1024x512_S512x256_S1024x256_1_0_0_1_n_n none A B (constant S1024x256 .f32 0x00000000#32) (ix2 r j)
      = ∑ k : Fin 512, A (ix2 r k) * B (ix2 k j) := by
  refine (Ideal.matmul_constant_zero_apply dot_S1024x512_S512x256_S1024x256_1_0_0_1_n_n none A B (ix2 r j)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r j) ((contrEquiv1 dot_S1024x512_S512x256_S1024x256_1_0_0_1_n_n 512 rfl rfl).symm k) = ix2 r k :=
    funext fun a => Fin.ext (by
      match a with
      | ⟨0, _⟩ => exact lhs256_row _ _
      | ⟨1, _⟩ => exact (lhs256_contr _ _).trans hk)
  have er : dot_S1024x512_S512x256_S1024x256_1_0_0_1_n_n.rhsIdx (ix2 r j) ((contrEquiv1 dot_S1024x512_S512x256_S1024x256_1_0_0_1_n_n 512 rfl rfl).symm k) = ix2 k j :=
    funext fun a => Fin.ext (by
      match a with
      | ⟨0, _⟩ => exact (rhs256_contr _ _).trans hk
      | ⟨1, _⟩ => exact rhs256_col _ _)
  rw [el, er]

/-! ## The closed form -/

/-- Row `r` of the node block joined along lanes with the sum over the two cores of the partial aggregates. -/
def aug (x0 : Vec Ideal S2x1024x256 .f32) (x1 : Vec Ideal S1024x256 .f32) (r : Fin 1024) (k : Fin 512) : EReal :=
  if h : k.val < 256 then x1 (ix2 r (⟨k.val, h⟩ : Fin 256))
  else x0 (ix3 (0 : Fin 2) r (⟨k.val - 256, by have := k.isLt; omega⟩ : Fin 256))
    + x0 (ix3 (1 : Fin 2) r (⟨k.val - 256, by have := k.isLt; omega⟩ : Fin 256))

/-- A dense layer with a rectifier on rows of width 512: `max (Σ_k A r k · W[k, j] + b[j]) 0`. -/
def reluLayer (A : Fin 1024 → Fin 512 → EReal) (W : Vec Ideal S512x512 .bf16) (b : Vec Ideal S1x512 .f32)
    (r : Fin 1024) (j : Fin 512) : EReal :=
  max (∑ k : Fin 512, A r k * W (ix2 k j) + b (ix2 (0 : Fin 1) j)) 0

/-- The first hidden layer. -/
def hid1 (x0 : Vec Ideal S2x1024x256 .f32) (x1 : Vec Ideal S1024x256 .f32) (x2 : Vec Ideal S512x512 .bf16) (x3 : Vec Ideal S1x512 .f32) :
    Fin 1024 → Fin 512 → EReal := reluLayer (aug x0 x1) x2 x3

/-- The second hidden layer. -/
def hid2 (x0 : Vec Ideal S2x1024x256 .f32) (x1 : Vec Ideal S1024x256 .f32) (x2 : Vec Ideal S512x512 .bf16) (x3 : Vec Ideal S1x512 .f32)
    (x4 : Vec Ideal S512x512 .bf16) (x5 : Vec Ideal S1x512 .f32) : Fin 1024 → Fin 512 → EReal := reluLayer (hid1 x0 x1 x2 x3) x4 x5

/-- What the output block holds at `(r, q)`: the node block's entry plus the last, linear layer of the perceptron. -/
def fin1 (x0 : Vec Ideal S2x1024x256 .f32) (x1 : Vec Ideal S1024x256 .f32) (x2 : Vec Ideal S512x512 .bf16) (x3 : Vec Ideal S1x512 .f32)
    (x4 : Vec Ideal S512x512 .bf16) (x5 : Vec Ideal S1x512 .f32) (x6 : Vec Ideal S512x256 .bf16) (x7 : Vec Ideal S1x256 .f32)
    (r : Fin 1024) (q : Fin 256) : EReal :=
  x1 (ix2 r q) + (∑ k : Fin 512, hid2 x0 x1 x2 x3 x4 x5 r k * x6 (ix2 k q) + x7 (ix2 (0 : Fin 1) q))

/-! ## The payload's stages at an index -/

/-- The joined block, as the payload builds it, at `(r, k)`. -/
theorem joined_apply (x0 : Vec Ideal S2x1024x256 .f32) (x1 : Vec Ideal S1024x256 .f32) (r : Fin 1024) (k : Fin 512) :
    (truncf .bf16 (concatenate S1024x512 1 [⟨S1024x256, x1⟩, ⟨S1024x256,
        multiReduction (F := Ideal) .add [0] S1024x256 (shapeCast S2x1024x256 x0 shapeCasts_S2x1024x256_S2x1024x256) 0x00000000#32
          reduces_S2x1024x256_S1024x256 (.inl rfl) rfl⟩] concatenates_S1024x256_S1024x256_S1024x512_d1) bitsLt_bf16_f32
      : FVec Ideal S1024x512 .bf16) (ix2 r k) = aug x0 x1 r k := by
  rw [truncf_apply, shapeCast_self]
  unfold aug
  split
  · next h => exact laneJoin_left _ _ r k h
  · next h =>
    refine (laneJoin_right _ _ r k (Nat.not_lt.mp h)).trans ?_
    exact coreSum_apply x0 r _

/-- A dense layer with a rectifier, as the payload builds it from an input block `A`, at `(r, j)`. -/
theorem reluLayer_apply (A : FVec Ideal S1024x512 .bf16) (W : Vec Ideal S512x512 .bf16) (b : Vec Ideal S1x512 .f32)
    (r : Fin 1024) (j : Fin 512) :
    (truncf .bf16 (maximumf (addf
        (matmul dot_S1024x512_S512x512_S1024x512_1_0_0_1_n_n none A (shapeCast S512x512 W shapeCasts_S512x512_S512x512 : FVec Ideal S512x512 .bf16) (constant S1024x512 .f32 0x00000000#32))
        (broadcastTo S1024x512 (shapeCast S1x512 b shapeCasts_S1x512_S1x512 : FVec Ideal S1x512 .f32) broadcasts_S1x512_S1024x512))
      (broadcast S1024x512 (Scalar.ofBits .f32 0x00000000#32))) bitsLt_bf16_f32 : FVec Ideal S1024x512 .bf16) (ix2 r j)
      = reluLayer (fun r k => A (ix2 r k)) W b r j := by
  rw [truncf_apply, maximumf_apply, addf_apply, broadcast_apply, shapeCast_self, shapeCast_self, matmul512_apply, rowBroadcast512_apply]
  unfold reluLayer
  show max _ (Ideal.ofBits .f32 0x00000000#32) = _
  rw [Ideal.ofBits_zero_f32]

/-! ## The output block at an index -/

/-- The zero offsets, however spelt. -/
theorem zeros2 : (![0, 0] : Fin 2 → Nat) = fun _ => 0 := funext fun a => by match a with | ⟨0, _⟩ => rfl | ⟨1, _⟩ => rfl
theorem zeros3 : (![0, 0, 0] : Fin 3 → Nat) = fun _ => 0 := funext fun a => by match a with | ⟨0, _⟩ => rfl | ⟨1, _⟩ => rfl | ⟨2, _⟩ => rfl

/-- What the body leaves in the output block, at `(r, q)`, is the closed form. -/
theorem out1_8_apply (x0 : Vec Ideal S2x1024x256 .f32) (x1 : Vec Ideal S1024x256 .f32) (x2 : Vec Ideal S512x512 .bf16) (x3 : Vec Ideal S1x512 .f32)
    (x4 : Vec Ideal S512x512 .bf16) (x5 : Vec Ideal S1x512 .f32) (x6 : Vec Ideal S512x256 .bf16) (x7 : Vec Ideal S1x256 .f32)
    (r : Fin 1024) (q : Fin 256) :
    out1_8 (F := Ideal) x0 x1 x2 x3 x4 x5 x6 x7 (ix2 r q) = fin1 x0 x1 x2 x3 x4 x5 x6 x7 r q := by
  unfold out1_8
  rw [View.canon_unit_zero zeros2]
  simp only [View.ld_unit_zero (S := S2x1024x256) zeros3, View.ld_unit_zero (S := S1024x256) zeros2, View.ld_unit_zero (S := S512x512) zeros2,
    View.ld_unit_zero (S := S1x512) zeros2, View.ld_unit_zero (S := S512x256) zeros2, View.ld_unit_zero (S := S1x256) zeros2]
  unfold k1_pay1 k1_pay2
  dsimp only
  rw [addf_apply, addf_apply, matmul256_apply, rowBroadcast256_apply]
  rw [shapeCast_self x7, shapeCast_self x6]
  unfold fin1
  refine congrArg (x1 (ix2 r q) + ·) (congrArg (· + x7 (ix2 (0 : Fin 1) q))
    (Finset.sum_congr rfl fun k _ => congrArg (· * x6 (ix2 k q)) ?_))
  refine (reluLayer_apply _ x4 x5 r k).trans ?_
  unfold hid2
  refine congrArg (fun A => reluLayer A x4 x5 r k) (funext fun r' => funext fun k' => ?_)
  refine (reluLayer_apply _ x2 x3 r' k').trans ?_
  unfold hid1
  refine congrArg (fun A => reluLayer A x2 x3 r' k') (funext fun r'' => funext fun k'' => ?_)
  exact joined_apply x0 x1 r'' k''

end Cert.KernelIdeal.Hand.V1

end
-- ==== Proof.Region1Array.lean ====
/- From the blocks to the array, for the second kernel call's output, at the ideal (extended-real) values and for any
   entry contents `V`. Each of the two grid points writes back rows `1024 t … 1024 t + 1023` of the output array; the
   partial sums and the node array are read through the same rows, the weights and bias rows whole. So the output array
   ends as ONE function `nodeFn` of the arrays the call reads: at node `n`, lane `q`, the node's entry plus the
   three-layer perceptron of the node's row joined with the two cores' summed aggregates for that node. -/
import proofs.«104516_j10196252360963_2_alg».proof.Proof.Region1Value
import Idealize.ShloMosaic.Lib.Pipeline.Value
import Idealize.ShloMosaic.Lib.ValueIdx

noncomputable section

namespace Cert.KernelIdeal.Hand.V1

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The windows' block indices over the two grid points -/

/-- The partial sums, the node block and the output move with the point along the row axis; the weights and bias rows
    stay at block zero. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_8.index t (0 : Fin 2) = t.val ∧ win1_8.index t (1 : Fin 2) = 0
    ∧ t.val < 2 :=
  (by decide +kernel : ∀ t : Fin grid1.N, _)

/-- The weights' and bias rows' windows stay at block zero on both axes. -/
theorem idx_facts_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-! ## The input blocks as parts of their arrays -/

/-- The partial sums' block at point `t`: rows `1024 t … 1024 t + 1023` of both cores' planes. -/
theorem blk0_apply (c : Dev nD) (t : Fin cfg1.N) (y : S2x1024x256.Idx) (i : S2x2048x256.Idx)
    (h0 : (i 0).val = (y 0).val) (h1 : (i 1).val = 1024 * t.val + (y 1).val) (h2 : (i 2).val = (y 2).val) :
    (iblk1 V c 0 t : Vec Ideal S2x1024x256 .f32) y = (V c main_v16 : S2x2048x256.Idx → EReal) i := by
  obtain ⟨e0, e1, e2, -⟩ := idx_facts t
  unfold iblk1
  rw [View.read_apply]
  show V c main_v16 _ = V c main_v16 _
  refine congrArg (V c main_v16) (funext fun a => Fin.ext ?_)
  match a with
  | ⟨0, _⟩ => show win1_0.index t (0 : Fin 3) * 2 + 1 * (y 0).val = (i 0).val; rw [e0, h0]; omega
  | ⟨1, _⟩ => show win1_0.index t (1 : Fin 3) * 1024 + 1 * (y 1).val = (i 1).val; rw [e1, h1]; omega
  | ⟨2, _⟩ => show win1_0.index t (2 : Fin 3) * 256 + 1 * (y 2).val = (i 2).val; rw [e2, h2]; omega

/-- The node block at point `t`: rows `1024 t … 1024 t + 1023` of the node array. -/
theorem blk1_apply (c : Dev nD) (t : Fin cfg1.N) (y : S1024x256.Idx) (i : S2048x256.Idx)
    (h0 : (i 0).val = 1024 * t.val + (y 0).val) (h1 : (i 1).val = (y 1).val) :
    (iblk1 V c 1 t : Vec Ideal S1024x256 .f32) y = (V c main_arg0 : S2048x256.Idx → EReal) i := by
  obtain ⟨-, -, -, e0, e1, -⟩ := idx_facts t
  unfold iblk1
  rw [View.read_apply]
  show V c main_arg0 _ = V c main_arg0 _
  refine congrArg (V c main_arg0) (funext fun a => Fin.ext ?_)
  match a with
  | ⟨0, _⟩ => show win1_1.index t (0 : Fin 2) * 1024 + 1 * (y 0).val = (i 0).val; rw [e0, h0]; omega
  | ⟨1, _⟩ => show win1_1.index t (1 : Fin 2) * 256 + 1 * (y 1).val = (i 1).val; rw [e1, h1]; omega

/-! ## The weights and bias rows: each block is the whole array -/

theorem blk2_eq (c : Dev nD) (t : Fin cfg1.N) :
    (iblk1 V c 2 t : Vec Ideal S512x512 .bf16) = (V c main_v6 : S512x512.Idx → EReal) := by
  have e := idx_facts_whole t
  funext y
  unfold iblk1
  rw [View.read_apply]
  show V c main_v6 _ = V c main_v6 _
  refine congrArg (V c main_v6) (funext fun a => Fin.ext ?_)
  match a with
  | ⟨0, _⟩ => show win1_2.index t (0 : Fin 2) * 512 + 1 * (y 0).val = (y 0).val; rw [e.1]; omega
  | ⟨1, _⟩ => show win1_2.index t (1 : Fin 2) * 512 + 1 * (y 1).val = (y 1).val; rw [e.2.1]; omega

theorem blk3_eq (c : Dev nD) (t : Fin cfg1.N) :
    (iblk1 V c 3 t : Vec Ideal S1x512 .f32) = (V c main_v13 : S1x512.Idx → EReal) := by
  have e := idx_facts_whole t
  funext y
  unfold iblk1
  rw [View.read_apply]
  show V c main_v13 _ = V c main_v13 _
  refine congrArg (V c main_v13) (funext fun a => Fin.ext ?_)
  match a with
  | ⟨0, _⟩ => show win1_3.index t (0 : Fin 2) * 1 + 1 * (y 0).val = (y 0).val; rw [e.2.2.1]; omega
  | ⟨1, _⟩ => show win1_3.index t (1 : Fin 2) * 512 + 1 * (y 1).val = (y 1).val; rw [e.2.2.2.1]; omega

theorem blk4_eq (c : Dev nD) (t : Fin cfg1.N) :
    (iblk1 V c 4 t : Vec Ideal S512x512 .bf16) = (V c main_v8 : S512x512.Idx → EReal) := by
  have e := idx_facts_whole t
  funext y
  unfold iblk1
  rw [View.read_apply]
  show V c main_v8 _ = V c main_v8 _
  refine congrArg (V c main_v8) (funext fun a => Fin.ext ?_)
  match a with
  | ⟨0, _⟩ => show win1_4.index t (0 : Fin 2) * 512 + 1 * (y 0).val = (y 0).val; rw [e.2.2.2.2.1]; omega
  | ⟨1, _⟩ => show win1_4.index t (1 : Fin 2) * 512 + 1 * (y 1).val = (y 1).val; rw [e.2.2.2.2.2.1]; omega

theorem blk5_eq (c : Dev nD) (t : Fin cfg1.N) :
    (iblk1 V c 5 t : Vec Ideal S1x512 .f32) = (V c main_v14 : S1x512.Idx → EReal) := by
  have e := idx_facts_whole t
  funext y
  unfold iblk1
  rw [View.read_apply]
  show V c main_v14 _ = V c main_v14 _
  refine congrArg (V c main_v14) (funext fun a => Fin.ext ?_)
  match a with
  | ⟨0, _⟩ => show win1_5.index t (0 : Fin 2) * 1 + 1 * (y 0).val = (y 0).val; rw [e.2.2.2.2.2.2.1]; omega
  | ⟨1, _⟩ => show win1_5.index t (1 : Fin 2) * 512 + 1 * (y 1).val = (y 1).val; rw [e.2.2.2.2.2.2.2.1]; omega

theorem blk6_eq (c : Dev nD) (t : Fin cfg1.N) :
    (iblk1 V c 6 t : Vec Ideal S512x256 .bf16) = (V c main_v10 : S512x256.Idx → EReal) := by
  have e := idx_facts_whole t
  funext y
  unfold iblk1
  rw [View.read_apply]
  show V c main_v10 _ = V c main_v10 _
  refine congrArg (V c main_v10) (funext fun a => Fin.ext ?_)
  match a with
  | ⟨0, _⟩ => show win1_6.index t (0 : Fin 2) * 512 + 1 * (y 0).val = (y 0).val; rw [e.2.2.2.2.2.2.2.2.1]; omega
  | ⟨1, _⟩ => show win1_6.index t (1 : Fin 2) * 256 + 1 * (y 1).val = (y 1).val; rw [e.2.2.2.2.2.2.2.2.2.1]; omega

theorem blk7_eq (c : Dev nD) (t : Fin cfg1.N) :
    (iblk1 V c 7 t : Vec Ideal S1x256 .f32) = (V c main_v15 : S1x256.Idx → EReal) := by
  have e := idx_facts_whole t
  funext y
  unfold iblk1
  rw [View.read_apply]
  show V c main_v15 _ = V c main_v15 _
  refine congrArg (V c main_v15) (funext fun a => Fin.ext ?_)
  match a with
  | ⟨0, _⟩ => show win1_7.index t (0 : Fin 2) * 1 + 1 * (y 0).val = (y 0).val; rw [e.2.2.2.2.2.2.2.2.2.2.1]; omega
  | ⟨1, _⟩ => show win1_7.index t (1 : Fin 2) * 256 + 1 * (y 1).val = (y 1).val; rw [e.2.2.2.2.2.2.2.2.2.2.2]; omega

/-! ## The closed form over the whole arrays -/

/-- Row `n` of the node array joined along lanes with the sum over the two cores of the aggregates' row `n`. -/
def augRow (y0 : Vec Ideal S2x2048x256 .f32) (y1 : Vec Ideal S2048x256 .f32) (n : Fin 2048) (k : Fin 512) : EReal :=
  if h : k.val < 256 then y1 (ix2 n (⟨k.val, h⟩ : Fin 256))
  else y0 (ix3 (0 : Fin 2) n (⟨k.val - 256, by have := k.isLt; omega⟩ : Fin 256))
    + y0 (ix3 (1 : Fin 2) n (⟨k.val - 256, by have := k.isLt; omega⟩ : Fin 256))

/-- A dense layer with a rectifier on one row of width 512: `max (Σ_k a k · W[k, j] + b[j]) 0`. -/
def rowLayer (a : Fin 512 → EReal) (W : Vec Ideal S512x512 .bf16) (b : Vec Ideal S1x512 .f32) (j : Fin 512) : EReal :=
  max (∑ k : Fin 512, a k * W (ix2 k j) + b (ix2 (0 : Fin 1) j)) 0

/-- The result at node `n`, lane `q`: the node's entry plus the three-layer perceptron of its joined row. -/
def nodeFn (y0 : Vec Ideal S2x2048x256 .f32) (y1 : Vec Ideal S2048x256 .f32) (x2 : Vec Ideal S512x512 .bf16) (x3 : Vec Ideal S1x512 .f32)
    (x4 : Vec Ideal S512x512 .bf16) (x5 : Vec Ideal S1x512 .f32) (x6 : Vec Ideal S512x256 .bf16) (x7 : Vec Ideal S1x256 .f32)
    (n : Fin 2048) (q : Fin 256) : EReal :=
  y1 (ix2 n q) + (∑ k : Fin 512, rowLayer (rowLayer (augRow y0 y1 n) x2 x3) x4 x5 k * x6 (ix2 k q) + x7 (ix2 (0 : Fin 1) q))

/-- The block form is the array form when row `r` of the blocks is row `n` of the arrays. -/
theorem fin1_eq_nodeFn (x0 : Vec Ideal S2x1024x256 .f32) (x1 : Vec Ideal S1024x256 .f32) (y0 : Vec Ideal S2x2048x256 .f32) (y1 : Vec Ideal S2048x256 .f32)
    (x2 x2' : Vec Ideal S512x512 .bf16) (x3 x3' : Vec Ideal S1x512 .f32) (x4 x4' : Vec Ideal S512x512 .bf16) (x5 x5' : Vec Ideal S1x512 .f32)
    (x6 x6' : Vec Ideal S512x256 .bf16) (x7 x7' : Vec Ideal S1x256 .f32) (r : Fin 1024) (n : Fin 2048) (q : Fin 256)
    (h0 : ∀ (p : Fin 2) (k : Fin 256), x0 (ix3 p r k) = y0 (ix3 p n k)) (h1 : ∀ k : Fin 256, x1 (ix2 r k) = y1 (ix2 n k))
    (h2 : x2 = x2') (h3 : x3 = x3') (h4 : x4 = x4') (h5 : x5 = x5') (h6 : x6 = x6') (h7 : x7 = x7') :
    fin1 x0 x1 x2 x3 x4 x5 x6 x7 r q = nodeFn y0 y1 x2' x3' x4' x5' x6' x7' n q := by
  subst h2 h3 h4 h5 h6 h7
  have haug : aug x0 x1 r = augRow y0 y1 n := funext fun k => by
    unfold aug augRow
    split
    · exact h1 _
    · rw [h0, h0]
  unfold fin1 nodeFn hid2 hid1
  rw [h1 q]
  show _ + (∑ k : Fin 512, rowLayer (rowLayer (aug x0 x1 r) x2 x3) x4 x5 k * x6 (ix2 k q) + _) = _
  rw [haug]

/-! ## From the blocks to the array -/

/-- The output array's contents after the call, as one function of the arrays the call reads. -/
def G (c : Dev nD) : S2048x256.Idx → EReal := fun i =>
  nodeFn (V c main_v16) (V c main_arg0) (V c main_v6) (V c main_v13) (V c main_v8) (V c main_v14) (V c main_v10) (V c main_v15) (i 0) (i 1)

/-- What the body leaves at point `t`, at `(r, q)` of the block, is the closed form at the array index of that entry. -/
theorem out_blk_eq (c : Dev nD) (t : Fin cfg1.N) (r : Fin 1024) (q : Fin 256) (n : Fin 2048) (hn : n.val = 1024 * t.val + r.val) :
    out1_8 (F := Ideal) (iblk1 V c 0 t) (iblk1 V c 1 t) (iblk1 V c 2 t) (iblk1 V c 3 t) (iblk1 V c 4 t) (iblk1 V c 5 t) (iblk1 V c 6 t) (iblk1 V c 7 t) (ix2 r q)
      = nodeFn (V c main_v16) (V c main_arg0) (V c main_v6) (V c main_v13) (V c main_v8) (V c main_v14) (V c main_v10) (V c main_v15) n q := by
  refine (out1_8_apply _ _ _ _ _ _ _ _ r q).trans ?_
  exact fin1_eq_nodeFn _ _ _ _ _ _ _ _ _ _ _ _ _ _ _ _ r n q
    (fun p k => blk0_apply V c t (ix3 p r k) (ix3 p n k) rfl hn rfl)
    (fun k => blk1_apply V c t (ix2 r k) (ix2 n k) hn rfl)
    (blk2_eq V c t) (blk3_eq V c t) (blk4_eq V c t) (blk5_eq V c t) (blk6_eq V c t) (blk7_eq V c t)

/-- What point `t` writes back is block `t` of `G`. -/
theorem flushed_eq (c : Dev nD) (t : Fin cfg1.N) :
    (dat1 (F := Ideal) V c).flushed 8 t = ((cfg1.win 8).blk t).view.read (Elt Ideal) (G V c) := by
  show (cfg1.win 8).cut (grid1.coords t) ((dat1 (F := Ideal) V c).after 8 t) = _
  rw [after1_8]
  obtain ⟨-, -, -, -, -, e0, e1, -⟩ := idx_facts t
  funext y
  show out1_8 (F := Ideal) (iblk1 V c 0 t) (iblk1 V c 1 t) (iblk1 V c 2 t) (iblk1 V c 3 t) (iblk1 V c 4 t) (iblk1 V c 5 t) (iblk1 V c 6 t) (iblk1 V c 7 t) (y : S1024x256.Idx)
    = G V c (((cfg1.win 8).blk t).view.emb y)
  have hy : (y : S1024x256.Idx) = ix2 (y 0) (y 1) := eq_ix2 y
  have hr : ((((cfg1.win 8).blk t).view.emb y : S2048x256.Idx) 0).val = 1024 * t.val + (y 0).val := by
    show win1_8.index t (0 : Fin 2) * 1024 + 1 * (y 0).val = _; rw [e0]; omega
  have hq : ((((cfg1.win 8).blk t).view.emb y : S2048x256.Idx) 1) = (y 1 : Fin 256) := Fin.ext (by
    show win1_8.index t (1 : Fin 2) * 256 + 1 * (y 1).val = (y 1).val; rw [e1]; omega)
  refine (congrArg _ hy).trans ((out_blk_eq V c t (y 0) (y 1) _ hr).trans ?_)
  unfold G
  rw [hq]

/-- Every entry of the output array is in the block of the point its row falls to. -/
theorem cover (i : S2048x256.Idx) : ∃ t : Fin cfg1.N, (cfg1.win 8).flush t = true ∧ i ∈ ((cfg1.win 8).blk t).view.set := by
  have hi0 : (i 0).val < 2048 := (i 0).isLt
  have hi1 : (i 1).val < 256 := (i 1).isLt
  let t : Fin cfg1.N := ⟨(i 0).val / 1024, by rw [show cfg1.N = 2 from N_1]; omega⟩
  obtain ⟨-, -, -, -, -, e0, e1, -⟩ := idx_facts t
  have ht : t.val = (i 0).val / 1024 := rfl
  refine ⟨t, flush1_8 t, ?_⟩
  show i ∈ ((View.whole main_v17).slice (win1_8.rect t)).set
  rw [View.set_slice_whole, Rect.mem_set_unit]
  intro a
  match a with
  | ⟨0, _⟩ =>
    show win1_8.index t (0 : Fin 2) * 1024 ≤ (i 0).val ∧ (i 0).val < win1_8.index t (0 : Fin 2) * 1024 + 1024
    rw [e0, ht]; omega
  | ⟨1, _⟩ =>
    show win1_8.index t (1 : Fin 2) * 256 ≤ (i 1).val ∧ (i 1).val < win1_8.index t (1 : Fin 2) * 256 + 256
    rw [e1]; omega

/-- The output array after the call is `G`. -/
theorem arr8 (c : Dev nD) : (dat1 (F := Ideal) V c).arrAt 8 cfg1.N = G V c :=
  (dat1 (F := Ideal) V c).arrAt_eq_of_cover 8 (G V c) (fun t _ => flushed_eq V c t) cover

/-- Entry by entry. -/
theorem arr8_apply (c : Dev nD) (n : Fin 2048) (q : Fin 256) :
    (dat1 (F := Ideal) V c).arrAt 8 cfg1.N (ix2 n q)
      = nodeFn (V c main_v16) (V c main_arg0) (V c main_v6) (V c main_v13) (V c main_v8) (V c main_v14) (V c main_v10) (V c main_v15) n q := by
  rw [arr8]
  rfl

end Cert.KernelIdeal.Hand.V1

end
-- ==== Proof.HostRead.lean ====
/- What the host operations before the two kernel calls leave in the arrays the calls read, entry by entry, at the
   ideal (extended-real) values: the narrowed node array has the node array's entries; each weight is its argument
   transposed (narrowing is the identity here); each bias is its argument laid out as one row; the node array and the
   two incidence matrices are untouched. -/
import proofs.«104516_j10196252360963_2_alg».proof.Proof.Gen.KernelIdeal.Regions
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.Hand.Host

open Cert.KernelIdeal Cert.KernelIdeal.Gen
open Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The node array narrowed: the same entries -/

/-- The narrowed copy of the node array holds the node array's entries. -/
theorem v0 (c : Dev nD) (k : Fin 2048) (q : Fin 256) :
    (V1 m c main_v0 : S2048x256.Idx → EReal) (ix2 k q) = (m ((c : Thread nD τ).loc main_arg0) : S2048x256.Idx → EReal) (ix2 k q) := by
  have e : (V1 m c main_v0 : S2048x256.Idx → EReal)
      = (truncf .bf16 (m ((c : Thread nD τ).loc main_arg0) : FVec Ideal S2048x256 .f32) bitsLt_bf16_f32 : FVec Ideal S2048x256 .bf16) := by
    show StableHlo.after hostOps0 (fun b => m (c, b)) (Proc.devRef .tc main_v0) = _
    after_results
    all_goals rfl
  rw [e]
  rfl

/-! ## The weights: each is its argument transposed -/

/-- The first message weight, transposed. -/
theorem v2 (c : Dev nD) (k j : Fin 512) :
    (V1 m c main_v2 : S512x512.Idx → EReal) (ix2 k j) = (m ((c : Thread nD τ).loc main_arg3) : S512x512.Idx → EReal) (ix2 j k) := by
  have e : (V1 m c main_v2 : S512x512.Idx → EReal)
      = (truncf .bf16 (transpose S512x512 [1, 0] (m ((c : Thread nD τ).loc main_arg3) : FVec Ideal S512x512 .f32) transposes_S512x512_S512x512_1_0) bitsLt_bf16_f32 : FVec Ideal S512x512 .bf16) := by
    show StableHlo.after hostOps0 (fun b => m (c, b)) (Proc.devRef .tc main_v2) = _
    after_results
    all_goals rfl
  rw [e]
  exact transpose_ix2_apply _ transposes_S512x512_S512x512_1_0 k j

/-- The second message weight, transposed. -/
theorem v4 (c : Dev nD) (k : Fin 512) (q : Fin 256) :
    (V1 m c main_v4 : S512x256.Idx → EReal) (ix2 k q) = (m ((c : Thread nD τ).loc main_arg5) : S256x512.Idx → EReal) (ix2 q k) := by
  have e : (V1 m c main_v4 : S512x256.Idx → EReal)
      = (truncf .bf16 (transpose S512x256 [1, 0] (m ((c : Thread nD τ).loc main_arg5) : FVec Ideal S256x512 .f32) transposes_S256x512_S512x256_1_0) bitsLt_bf16_f32 : FVec Ideal S512x256 .bf16) := by
    show StableHlo.after hostOps0 (fun b => m (c, b)) (Proc.devRef .tc main_v4) = _
    after_results
    all_goals rfl
  rw [e]
  exact transpose_ix2_apply _ transposes_S256x512_S512x256_1_0 k q

/-- The first output weight, transposed. -/
theorem v6 (c : Dev nD) (k j : Fin 512) :
    (V1 m c main_v6 : S512x512.Idx → EReal) (ix2 k j) = (m ((c : Thread nD τ).loc main_arg7) : S512x512.Idx → EReal) (ix2 j k) := by
  have e : (V1 m c main_v6 : S512x512.Idx → EReal)
      = (truncf .bf16 (transpose S512x512 [1, 0] (m ((c : Thread nD τ).loc main_arg7) : FVec Ideal S512x512 .f32) transposes_S512x512_S512x512_1_0) bitsLt_bf16_f32 : FVec Ideal S512x512 .bf16) := by
    show StableHlo.after hostOps0 (fun b => m (c, b)) (Proc.devRef .tc main_v6) = _
    after_results
    all_goals rfl
  rw [e]
  exact transpose_ix2_apply _ transposes_S512x512_S512x512_1_0 k j

/-- The second output weight, transposed. -/
theorem v8 (c : Dev nD) (k j : Fin 512) :
    (V1 m c main_v8 : S512x512.Idx → EReal) (ix2 k j) = (m ((c : Thread nD τ).loc main_arg9) : S512x512.Idx → EReal) (ix2 j k) := by
  have e : (V1 m c main_v8 : S512x512.Idx → EReal)
      = (truncf .bf16 (transpose S512x512 [1, 0] (m ((c : Thread nD τ).loc main_arg9) : FVec Ideal S512x512 .f32) transposes_S512x512_S512x512_1_0) bitsLt_bf16_f32 : FVec Ideal S512x512 .bf16) := by
    show StableHlo.after hostOps0 (fun b => m (c, b)) (Proc.devRef .tc main_v8) = _
    after_results
    all_goals rfl
  rw [e]
  exact transpose_ix2_apply _ transposes_S512x512_S512x512_1_0 k j

/-- The third output weight, transposed. -/
theorem v10 (c : Dev nD) (k : Fin 512) (q : Fin 256) :
    (V1 m c main_v10 : S512x256.Idx → EReal) (ix2 k q) = (m ((c : Thread nD τ).loc main_arg11) : S256x512.Idx → EReal) (ix2 q k) := by
  have e : (V1 m c main_v10 : S512x256.Idx → EReal)
      = (truncf .bf16 (transpose S512x256 [1, 0] (m ((c : Thread nD τ).loc main_arg11) : FVec Ideal S256x512 .f32) transposes_S256x512_S512x256_1_0) bitsLt_bf16_f32 : FVec Ideal S512x256 .bf16) := by
    show StableHlo.after hostOps0 (fun b => m (c, b)) (Proc.devRef .tc main_v10) = _
    after_results
    all_goals rfl
  rw [e]
  exact transpose_ix2_apply _ transposes_S256x512_S512x256_1_0 k q

/-! ## The biases: each is its argument as one row -/

/-- The first message bias as a row. -/
theorem v11 (c : Dev nD) (j : Fin 512) :
    (V1 m c main_v11 : S1x512.Idx → EReal) (ix2 (0 : Fin 1) j) = (m ((c : Thread nD τ).loc main_arg4) : S512.Idx → EReal) (ix1 j) := by
  have e : (V1 m c main_v11 : S1x512.Idx → EReal)
      = shapeCast S1x512 (m ((c : Thread nD τ).loc main_arg4) : S512.Idx → EReal) shapeCasts_S512_S1x512 := by
    show StableHlo.after hostOps0 (fun b => m (c, b)) (Proc.devRef .tc main_v11) = _
    after_results
    all_goals rfl
  rw [e]
  exact shapeCast_a_1a_apply _ shapeCasts_S512_S1x512 0 j

/-- The second message bias as a row. -/
theorem v12 (c : Dev nD) (j : Fin 256) :
    (V1 m c main_v12 : S1x256.Idx → EReal) (ix2 (0 : Fin 1) j) = (m ((c : Thread nD τ).loc main_arg6) : S256.Idx → EReal) (ix1 j) := by
  have e : (V1 m c main_v12 : S1x256.Idx → EReal)
      = shapeCast S1x256 (m ((c : Thread nD τ).loc main_arg6) : S256.Idx → EReal) shapeCasts_S256_S1x256 := by
    show StableHlo.after hostOps0 (fun b => m (c, b)) (Proc.devRef .tc main_v12) = _
    after_results
    all_goals rfl
  rw [e]
  exact shapeCast_a_1a_apply _ shapeCasts_S256_S1x256 0 j

/-- The first output bias as a row. -/
theorem v13 (c : Dev nD) (j : Fin 512) :
    (V1 m c main_v13 : S1x512.Idx → EReal) (ix2 (0 : Fin 1) j) = (m ((c : Thread nD τ).loc main_arg8) : S512.Idx → EReal) (ix1 j) := by
  have e : (V1 m c main_v13 : S1x512.Idx → EReal)
      = shapeCast S1x512 (m ((c : Thread nD τ).loc main_arg8) : S512.Idx → EReal) shapeCasts_S512_S1x512 := by
    show StableHlo.after hostOps0 (fun b => m (c, b)) (Proc.devRef .tc main_v13) = _
    after_results
    all_goals rfl
  rw [e]
  exact shapeCast_a_1a_apply _ shapeCasts_S512_S1x512 0 j

/-- The second output bias as a row. -/
theorem v14 (c : Dev nD) (j : Fin 512) :
    (V1 m c main_v14 : S1x512.Idx → EReal) (ix2 (0 : Fin 1) j) = (m ((c : Thread nD τ).loc main_arg10) : S512.Idx → EReal) (ix1 j) := by
  have e : (V1 m c main_v14 : S1x512.Idx → EReal)
      = shapeCast S1x512 (m ((c : Thread nD τ).loc main_arg10) : S512.Idx → EReal) shapeCasts_S512_S1x512 := by
    show StableHlo.after hostOps0 (fun b => m (c, b)) (Proc.devRef .tc main_v14) = _
    after_results
    all_goals rfl
  rw [e]
  exact shapeCast_a_1a_apply _ shapeCasts_S512_S1x512 0 j

/-- The third output bias as a row. -/
theorem v15 (c : Dev nD) (j : Fin 256) :
    (V1 m c main_v15 : S1x256.Idx → EReal) (ix2 (0 : Fin 1) j) = (m ((c : Thread nD τ).loc main_arg12) : S256.Idx → EReal) (ix1 j) := by
  have e : (V1 m c main_v15 : S1x256.Idx → EReal)
      = shapeCast S1x256 (m ((c : Thread nD τ).loc main_arg12) : S256.Idx → EReal) shapeCasts_S256_S1x256 := by
    show StableHlo.after hostOps0 (fun b => m (c, b)) (Proc.devRef .tc main_v15) = _
    after_results
    all_goals rfl
  rw [e]
  exact shapeCast_a_1a_apply _ shapeCasts_S256_S1x256 0 j

/-! ## The arguments the host stretch does not write -/

theorem arg0 (c : Dev nD) : V1 m c main_arg0 = m ((c : Thread nD τ).loc main_arg0) := V1_of m c main_arg0 (by decide)
theorem arg1 (c : Dev nD) : V1 m c main_arg1 = m ((c : Thread nD τ).loc main_arg1) := V1_of m c main_arg1 (by decide)
theorem arg2 (c : Dev nD) : V1 m c main_arg2 = m ((c : Thread nD τ).loc main_arg2) := V1_of m c main_arg2 (by decide)

end Cert.KernelIdeal.Hand.Host

end
-- ==== Proof.Spec.lean ====
/-
  The specification of the layer, index by index over the extended reals, as functions of the
  thirteen argument arrays; it mentions no program.

  A graph message-passing layer on 2048 nodes and 32768 edges.  With
    a0 node features [2048,256], a1 receiver incidence [32768,2048], a2 sender incidence [32768,2048],
    a3,a4 / a5,a6 the edge network's two affine maps, a7,a8 / a9,a10 / a11,a12 the node network's three:
    recv[e,q] = Σ_k a1[e,k]·a0[k,q]            send[e,q] = Σ_k a2[e,k]·a0[k,q]
    pre[e,·]  = send[e,·] ++ recv[e,·]         (512 wide, the sender's features first)
    hid[e,j]  = max(Σ_k pre[e,k]·a3[j,k] + a4[j], 0)
    msg[e,c]  = max(Σ_j hid[e,j]·a5[c,j] + a6[c], 0)
    agg[n,c]  = Σ_e a1[e,n]·msg[e,c]
    aug[n,·]  = a0[n,·] ++ agg[n,·]
    p1[n,j]   = max(Σ_k aug[n,k]·a7[j,k] + a8[j], 0)
    p2[n,j]   = max(Σ_k p1[n,k]·a9[j,k] + a10[j], 0)
    p3[n,q]   = Σ_k p2[n,k]·a11[q,k] + a12[q]
    G[n,q]    = a0[n,q] + p3[n,q].
  Every sum is a finite sum in the extended reals, an additive commutative monoid; nothing here
  needs a value to be finite.
-/
import Idealize.ShloMosaic.PureOps.Ideal
import Idealize.ShloMosaic.Lib.ValueIdx

noncomputable section

open scoped BigOperators

namespace Cert.Spec

open Idealize.ShloMosaic Idealize.ShloMosaic.ValueIdx

/-! ## The arrays' shapes -/

/-- Node features, and the result: 2048 nodes, 256 features. -/
abbrev SNode : Shape := ⟨2, ![2048, 256]⟩
/-- An incidence matrix: 32768 edges by 2048 nodes. -/
abbrev SInc : Shape := ⟨2, ![32768, 2048]⟩
/-- A weight matrix with 512 outputs and 512 inputs. -/
abbrev SW512 : Shape := ⟨2, ![512, 512]⟩
/-- A weight matrix with 256 outputs and 512 inputs. -/
abbrev SW256 : Shape := ⟨2, ![256, 512]⟩
/-- A bias of 512 entries. -/
abbrev SB512 : Shape := ⟨1, ![512]⟩
/-- A bias of 256 entries. -/
abbrev SB256 : Shape := ⟨1, ![256]⟩

/-! ## The edge network -/

/-- The receiving node's features on edge `e`: row `e` of the receiver incidence times the features. -/
def recv (a0 : FVec Ideal SNode .f32) (a1 : FVec Ideal SInc .f32) (e : Fin 32768) (q : Fin 256) : EReal :=
  ∑ k : Fin 2048, a1 (ix2 e k) * a0 (ix2 k q)

/-- The sending node's features on edge `e`: row `e` of the sender incidence times the features. -/
def send (a0 : FVec Ideal SNode .f32) (a2 : FVec Ideal SInc .f32) (e : Fin 32768) (q : Fin 256) : EReal :=
  ∑ k : Fin 2048, a2 (ix2 e k) * a0 (ix2 k q)

/-- The edge network's input on edge `e`: the sender's 256 features, then the receiver's. -/
def pre (a0 : FVec Ideal SNode .f32) (a1 a2 : FVec Ideal SInc .f32) (e : Fin 32768) (k : Fin 512) : EReal :=
  if h : k.val < 256 then send a0 a2 e ⟨k.val, h⟩ else recv a0 a1 e ⟨k.val - 256, by omega⟩

/-- The edge network's hidden layer. -/
def hid (a0 : FVec Ideal SNode .f32) (a1 a2 : FVec Ideal SInc .f32) (a3 : FVec Ideal SW512 .f32)
    (a4 : FVec Ideal SB512 .f32) (e : Fin 32768) (j : Fin 512) : EReal :=
  max (∑ k : Fin 512, pre a0 a1 a2 e k * a3 (ix2 j k) + a4 (ix1 j)) 0

/-- The message on edge `e`. -/
def msg (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (e : Fin 32768) (c : Fin 256) : EReal :=
  max (∑ j : Fin 512, hid a0 a1 a2 a3 a4 e j * a5 (ix2 c j) + a6 (ix1 c)) 0

/-! ## The node network -/

/-- The messages gathered at node `n`: column `n` of the receiver incidence times the messages. -/
def agg (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (n : Fin 2048) (c : Fin 256) : EReal :=
  ∑ e : Fin 32768, a1 (ix2 e n) * msg a0 a1 a2 a3 a4 a5 a6 e c

/-- The node network's input at node `n`: its 256 features, then its 256 gathered messages. -/
def aug (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (n : Fin 2048) (k : Fin 512) : EReal :=
  if h : k.val < 256 then a0 (ix2 n ⟨k.val, h⟩) else agg a0 a1 a2 a3 a4 a5 a6 n ⟨k.val - 256, by omega⟩

/-- The node network's first hidden layer. -/
def p1 (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (a7 : FVec Ideal SW512 .f32) (a8 : FVec Ideal SB512 .f32) (n : Fin 2048) (j : Fin 512) : EReal :=
  max (∑ k : Fin 512, aug a0 a1 a2 a3 a4 a5 a6 n k * a7 (ix2 j k) + a8 (ix1 j)) 0

/-- The node network's second hidden layer. -/
def p2 (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (a7 : FVec Ideal SW512 .f32) (a8 : FVec Ideal SB512 .f32) (a9 : FVec Ideal SW512 .f32)
    (a10 : FVec Ideal SB512 .f32) (n : Fin 2048) (j : Fin 512) : EReal :=
  max (∑ k : Fin 512, p1 a0 a1 a2 a3 a4 a5 a6 a7 a8 n k * a9 (ix2 j k) + a10 (ix1 j)) 0

/-- The node network's output layer (affine, no rectifier). -/
def p3 (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (a7 : FVec Ideal SW512 .f32) (a8 : FVec Ideal SB512 .f32) (a9 : FVec Ideal SW512 .f32)
    (a10 : FVec Ideal SB512 .f32) (a11 : FVec Ideal SW256 .f32) (a12 : FVec Ideal SB256 .f32)
    (n : Fin 2048) (q : Fin 256) : EReal :=
  ∑ k : Fin 512, p2 a0 a1 a2 a3 a4 a5 a6 a7 a8 a9 a10 n k * a11 (ix2 q k) + a12 (ix1 q)

/-- The layer's result: the node features plus the node network's output (a residual connection). -/
def G (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (a7 : FVec Ideal SW512 .f32) (a8 : FVec Ideal SB512 .f32) (a9 : FVec Ideal SW512 .f32)
    (a10 : FVec Ideal SB512 .f32) (a11 : FVec Ideal SW256 .f32) (a12 : FVec Ideal SB256 .f32) :
    FVec Ideal SNode .f32 :=
  fun i => a0 (ix2 (i 0) (i 1)) + p3 a0 a1 a2 a3 a4 a5 a6 a7 a8 a9 a10 a11 a12 (i 0) (i 1)

/-- The result at node `n`, feature `q`. -/
theorem G_apply (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (a7 : FVec Ideal SW512 .f32) (a8 : FVec Ideal SB512 .f32) (a9 : FVec Ideal SW512 .f32)
    (a10 : FVec Ideal SB512 .f32) (a11 : FVec Ideal SW256 .f32) (a12 : FVec Ideal SB256 .f32)
    (n : Fin 2048) (q : Fin 256) :
    G a0 a1 a2 a3 a4 a5 a6 a7 a8 a9 a10 a11 a12 (ix2 n q)
      = a0 (ix2 n q) + p3 a0 a1 a2 a3 a4 a5 a6 a7 a8 a9 a10 a11 a12 n q := rfl

end Cert.Spec

end
-- ==== Proof.SpecSums.lean ====
/-
  Two rearrangements of a finite sum in an additive commutative monoid (the extended reals are one;
  nothing here needs a value to be finite).

  * A sum over the 32768 edges is the sum over 2 halves, 16 tiles in each half and 1024 edges in each
    tile, the edge being e = (c·16 + i)·1024 + e'.
  * Adding the terms g 0, g 1, …, g (N−1) one after another to a zero accumulator gives their sum.
-/
import Mathlib.Algebra.BigOperators.Fin
import Mathlib.Logic.Equiv.Fin.Basic
import Mathlib.Data.EReal.Basic

noncomputable section

open scoped BigOperators

namespace Cert.Spec

/-! ## A sum over m·n indices as a double sum -/

/-- A sum over `Fin (m * n)` is the double sum over `a : Fin m`, `b : Fin n` at the index `a·n + b`. -/
theorem sum_fin_mul {M : Type*} [AddCommMonoid M] (m n : ℕ) (f : Fin (m * n) → M) :
    ∑ e : Fin (m * n), f e
      = ∑ a : Fin m, ∑ b : Fin n, f ⟨a.val * n + b.val, by
          have ha := a.isLt; have hb := b.isLt
          calc a.val * n + b.val < a.val * n + n := by omega
            _ = (a.val + 1) * n := by rw [Nat.add_mul, Nat.one_mul]
            _ ≤ m * n := Nat.mul_le_mul_right n ha⟩ := by
  rw [← (finProdFinEquiv (m := m) (n := n)).sum_comp f, Fintype.sum_prod_type]
  refine Finset.sum_congr rfl fun a _ => Finset.sum_congr rfl fun b _ => congrArg f (Fin.ext ?_)
  show b.val + n * a.val = a.val * n + b.val
  rw [Nat.mul_comm, Nat.add_comm]

/-! ## The edges by half, tile and place in the tile -/

/-- The edge number of place `e'` in tile `i` of half `c` is below 32768. -/
theorem edge_lt (c : Fin 2) (i : Fin 16) (e' : Fin 1024) :
    (c.val * 16 + i.val) * 1024 + e'.val < 32768 := by
  have hc := c.isLt; have hi := i.isLt; have he := e'.isLt
  omega

/-- The edge at place `e'` in tile `i` of half `c`: e = (c·16 + i)·1024 + e'. -/
def edgeOf (c : Fin 2) (i : Fin 16) (e' : Fin 1024) : Fin 32768 :=
  ⟨(c.val * 16 + i.val) * 1024 + e'.val, edge_lt c i e'⟩

theorem edgeOf_val (c : Fin 2) (i : Fin 16) (e' : Fin 1024) :
    (edgeOf c i e').val = (c.val * 16 + i.val) * 1024 + e'.val := rfl

/-- A sum over the 32768 edges, regrouped: 2 halves of 16 tiles of 1024 edges. -/
theorem sum_edges_regroup {M : Type*} [AddCommMonoid M] (f : Fin 32768 → M) :
    ∑ e : Fin 32768, f e = ∑ c : Fin 2, ∑ i : Fin 16, ∑ e' : Fin 1024, f (edgeOf c i e') := by
  have h1 := sum_fin_mul (M := M) 32 1024 f
  have h2 := sum_fin_mul (M := M) 2 16 (fun t : Fin (2 * 16) => ∑ e' : Fin 1024, f ⟨t.val * 1024 + e'.val, by
    have ht := t.isLt; have he := e'.isLt; omega⟩)
  exact h1.trans h2

/-- The same law with the bound proof left to the reader of the statement: the index is
    `(c·16 + i)·1024 + e'`. -/
theorem sum_edges_regroup' {M : Type*} [AddCommMonoid M] (f : Fin 32768 → M) :
    ∑ e : Fin 32768, f e
      = ∑ c : Fin 2, ∑ i : Fin 16, ∑ e' : Fin 1024, f ⟨(c.val * 16 + i.val) * 1024 + e'.val, edge_lt c i e'⟩ :=
  sum_edges_regroup f

/-! ## A running accumulator -/

/-- The accumulator after the first `n` of the terms `g 0, g 1, …` were added, one after another, to zero. -/
def accum {M : Type*} [AddCommMonoid M] {N : ℕ} (g : Fin N → M) : (n : ℕ) → n ≤ N → M
  | 0, _ => 0
  | n + 1, h => accum g n (Nat.le_of_succ_le h) + g ⟨n, h⟩

theorem accum_zero {M : Type*} [AddCommMonoid M] {N : ℕ} (g : Fin N → M) (h : 0 ≤ N) : accum g 0 h = 0 := rfl

theorem accum_succ {M : Type*} [AddCommMonoid M] {N : ℕ} (g : Fin N → M) (n : ℕ) (h : n + 1 ≤ N) :
    accum g (n + 1) h = accum g n (Nat.le_of_succ_le h) + g ⟨n, h⟩ := rfl

/-- After `n` additions the accumulator holds the sum of the first `n` terms. -/
theorem accum_eq_sum_lt {M : Type*} [AddCommMonoid M] {N : ℕ} (g : Fin N → M) :
    ∀ (n : ℕ) (h : n ≤ N), accum g n h = ∑ i : Fin n, g ⟨i.val, Nat.lt_of_lt_of_le i.isLt h⟩
  | 0, _ => by simp [accum]
  | n + 1, h => by
    rw [accum_succ, accum_eq_sum_lt g n (Nat.le_of_succ_le h), Fin.sum_univ_castSucc]
    rfl

/-- After all `N` additions the accumulator holds the whole sum. -/
theorem accum_eq_sum {M : Type*} [AddCommMonoid M] {N : ℕ} (g : Fin N → M) :
    accum g N (Nat.le_refl N) = ∑ i : Fin N, g i :=
  accum_eq_sum_lt g N (Nat.le_refl N)

/-- The 16-term case over the extended reals, the left fold written out:
    `(((0 + g 0) + g 1) + … ) + g 15 = Σ i, g i`. -/
theorem accum16_eq_sum (g : Fin 16 → EReal) : accum g 16 (Nat.le_refl 16) = ∑ i : Fin 16, g i :=
  accum_eq_sum g

end Cert.Spec

end
-- ==== Proof.SpecAgg.lean ====
/-
  The gathered messages at a node, summed the tiled way: the 32768 edges in 2 halves of 16 tiles of
  1024 edges, each half adding its tiles' partial sums one after another to a zero accumulator, the
  two halves added at the end.  Only commutativity and associativity of the sum are used.
-/
import proofs.«104516_j10196252360963_2_alg».proof.Proof.Spec
import proofs.«104516_j10196252360963_2_alg».proof.Proof.SpecSums

noncomputable section

open scoped BigOperators

namespace Cert.Spec

open Idealize.ShloMosaic Idealize.ShloMosaic.ValueIdx

/-- One tile's partial sum of the gathered messages at node `n`, feature `c`: the 1024 edges of tile `i`
    of half `h`. -/
def aggTile (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (n : Fin 2048) (c : Fin 256) (h : Fin 2) (i : Fin 16) : EReal :=
  ∑ e' : Fin 1024, a1 (ix2 (edgeOf h i e') n) * msg a0 a1 a2 a3 a4 a5 a6 (edgeOf h i e') c

/-- The gathered messages are the sum over halves and tiles of the tiles' partial sums. -/
theorem agg_eq_sum_tiles (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (n : Fin 2048) (c : Fin 256) :
    agg a0 a1 a2 a3 a4 a5 a6 n c = ∑ h : Fin 2, ∑ i : Fin 16, aggTile a0 a1 a2 a3 a4 a5 a6 n c h i := by
  unfold agg aggTile
  exact sum_edges_regroup (fun e : Fin 32768 => a1 (ix2 e n) * msg a0 a1 a2 a3 a4 a5 a6 e c)

/-- The gathered messages are the sum of the two halves' accumulators, each having added its 16 tiles'
    partial sums in order to zero. -/
theorem agg_eq_sum_accum (a0 : FVec Ideal SNode .f32) (a1 a2 : FVec Ideal SInc .f32) (a3 : FVec Ideal SW512 .f32)
    (a4 : FVec Ideal SB512 .f32) (a5 : FVec Ideal SW256 .f32) (a6 : FVec Ideal SB256 .f32)
    (n : Fin 2048) (c : Fin 256) :
    agg a0 a1 a2 a3 a4 a5 a6 n c
      = ∑ h : Fin 2, accum (fun i : Fin 16 => aggTile a0 a1 a2 a3 a4 a5 a6 n c h i) 16 (Nat.le_refl 16) := by
  rw [agg_eq_sum_tiles]
  exact Finset.sum_congr rfl fun h _ => (accum_eq_sum _).symm

end Cert.Spec

end
-- ==== Proof.SpecBridge.lean ====
/-
  The two kernel calls' closed forms against the specification, over plain variables.

  * One tile of the edge call: when the tile's operands are the rows (h·16 + i)·1024 + e' of the two
    incidence matrices, the node features, the edge network's weights transposed and its biases as
    rows, the tile's share of the gathered messages is the specification's partial sum over the tile.
  * The node call: when its first operand holds, for each half, the sum of that half's 16 partial
    sums, its second the node features, and the others the node network's weights transposed and
    biases as rows, its result is the specification's `G`: the two halves add up to the gathered
    messages by regrouping the sum over the edges.
-/
import proofs.«104516_j10196252360963_2_alg».proof.Proof.Spec
import proofs.«104516_j10196252360963_2_alg».proof.Proof.SpecSums
import proofs.«104516_j10196252360963_2_alg».proof.Proof.SpecAgg
import proofs.«104516_j10196252360963_2_alg».proof.Proof.EdgeTileValue
import proofs.«104516_j10196252360963_2_alg».proof.Proof.Region1Array

noncomputable section

open scoped BigOperators

namespace Cert.Spec.Bridge

open Cert.KernelIdeal Cert.KernelIdeal.Hand Idealize.ShloMosaic Idealize.ShloMosaic.ValueIdx

/-! ## One tile of the edge call -/

section Tile
variable (a0 : FVec Ideal SNode .f32) (a1 a2 : FVec Ideal SInc .f32) (a3 : FVec Ideal SW512 .f32)
    (a4 : FVec Ideal SB512 .f32) (a5 : FVec Ideal SW256 .f32) (a6 : FVec Ideal SB256 .f32)
  (v3 v5 : FVec Ideal S1024x2048 .f32) (v7 : FVec Ideal S2048x256 .bf16) (v13 : FVec Ideal S512x512 .bf16)
  (v16 : FVec Ideal S1x512 .f32) (v23 : FVec Ideal S512x256 .bf16) (v26 : FVec Ideal S1x256 .f32)
  (h : Fin 2) (i : Fin 16)

/-- The receiver's features on the tile's edge `e'` are the specification's on edge (h·16 + i)·1024 + e'. -/
theorem tRecv_eq_recv
    (h3 : ∀ (e' : Fin 1024) (k : Fin 2048), v3 (ix2 e' k) = a1 (ix2 (edgeOf h i e') k))
    (h7 : ∀ (k : Fin 2048) (q : Fin 256), v7 (ix2 k q) = a0 (ix2 k q)) (e' : Fin 1024) (q : Fin 256) :
    EdgeValue.tRecv v3 v7 e' q = recv a0 a1 (edgeOf h i e') q := by
  unfold EdgeValue.tRecv recv
  exact Finset.sum_congr rfl fun k _ => by rw [h3, h7]

/-- The sender's features likewise. -/
theorem tSend_eq_send
    (h5 : ∀ (e' : Fin 1024) (k : Fin 2048), v5 (ix2 e' k) = a2 (ix2 (edgeOf h i e') k))
    (h7 : ∀ (k : Fin 2048) (q : Fin 256), v7 (ix2 k q) = a0 (ix2 k q)) (e' : Fin 1024) (q : Fin 256) :
    EdgeValue.tSend v5 v7 e' q = send a0 a2 (edgeOf h i e') q := by
  unfold EdgeValue.tSend send
  exact Finset.sum_congr rfl fun k _ => by rw [h5, h7]

/-- The edge network's input likewise. -/
theorem tPre_eq_pre
    (h3 : ∀ (e' : Fin 1024) (k : Fin 2048), v3 (ix2 e' k) = a1 (ix2 (edgeOf h i e') k))
    (h5 : ∀ (e' : Fin 1024) (k : Fin 2048), v5 (ix2 e' k) = a2 (ix2 (edgeOf h i e') k))
    (h7 : ∀ (k : Fin 2048) (q : Fin 256), v7 (ix2 k q) = a0 (ix2 k q)) (e' : Fin 1024) (k : Fin 512) :
    EdgeValue.tPre v3 v5 v7 e' k = pre a0 a1 a2 (edgeOf h i e') k := by
  unfold EdgeValue.tPre pre
  by_cases hk : k.val < 256
  · rw [dif_pos hk, dif_pos hk, tSend_eq_send a0 a2 v5 v7 h i h5 h7]
  · rw [dif_neg hk, dif_neg hk, tRecv_eq_recv a0 a1 v3 v7 h i h3 h7]

/-- The hidden layer likewise (the call holds the weights transposed and the bias as a row). -/
theorem tHid_eq_hid
    (h3 : ∀ (e' : Fin 1024) (k : Fin 2048), v3 (ix2 e' k) = a1 (ix2 (edgeOf h i e') k))
    (h5 : ∀ (e' : Fin 1024) (k : Fin 2048), v5 (ix2 e' k) = a2 (ix2 (edgeOf h i e') k))
    (h7 : ∀ (k : Fin 2048) (q : Fin 256), v7 (ix2 k q) = a0 (ix2 k q))
    (h13 : ∀ (k j : Fin 512), v13 (ix2 k j) = a3 (ix2 j k))
    (h16 : ∀ j : Fin 512, v16 (ix2 (0 : Fin 1) j) = a4 (ix1 j)) (e' : Fin 1024) (j : Fin 512) :
    EdgeValue.tHid v3 v5 v7 v13 v16 e' j = hid a0 a1 a2 a3 a4 (edgeOf h i e') j := by
  unfold EdgeValue.tHid hid
  rw [h16, Finset.sum_congr rfl fun k _ => by rw [tPre_eq_pre a0 a1 a2 v3 v5 v7 h i h3 h5 h7, h13]]

/-- The message likewise. -/
theorem tMsg_eq_msg
    (h3 : ∀ (e' : Fin 1024) (k : Fin 2048), v3 (ix2 e' k) = a1 (ix2 (edgeOf h i e') k))
    (h5 : ∀ (e' : Fin 1024) (k : Fin 2048), v5 (ix2 e' k) = a2 (ix2 (edgeOf h i e') k))
    (h7 : ∀ (k : Fin 2048) (q : Fin 256), v7 (ix2 k q) = a0 (ix2 k q))
    (h13 : ∀ (k j : Fin 512), v13 (ix2 k j) = a3 (ix2 j k))
    (h16 : ∀ j : Fin 512, v16 (ix2 (0 : Fin 1) j) = a4 (ix1 j))
    (h23 : ∀ (j : Fin 512) (c : Fin 256), v23 (ix2 j c) = a5 (ix2 c j))
    (h26 : ∀ c : Fin 256, v26 (ix2 (0 : Fin 1) c) = a6 (ix1 c)) (e' : Fin 1024) (c : Fin 256) :
    EdgeValue.tMsg v3 v5 v7 v13 v16 v23 v26 e' c = msg a0 a1 a2 a3 a4 a5 a6 (edgeOf h i e') c := by
  unfold EdgeValue.tMsg msg
  rw [h26, Finset.sum_congr rfl fun j _ => by
    rw [tHid_eq_hid a0 a1 a2 a3 a4 v3 v5 v7 v13 v16 h i h3 h5 h7 h13 h16, h23]]

/-- The tile's share of the messages gathered at node `n` is the specification's partial sum over the
    tile's 1024 edges. -/
theorem tPartial_eq_aggTile
    (h3 : ∀ (e' : Fin 1024) (k : Fin 2048), v3 (ix2 e' k) = a1 (ix2 (edgeOf h i e') k))
    (h5 : ∀ (e' : Fin 1024) (k : Fin 2048), v5 (ix2 e' k) = a2 (ix2 (edgeOf h i e') k))
    (h7 : ∀ (k : Fin 2048) (q : Fin 256), v7 (ix2 k q) = a0 (ix2 k q))
    (h13 : ∀ (k j : Fin 512), v13 (ix2 k j) = a3 (ix2 j k))
    (h16 : ∀ j : Fin 512, v16 (ix2 (0 : Fin 1) j) = a4 (ix1 j))
    (h23 : ∀ (j : Fin 512) (c : Fin 256), v23 (ix2 j c) = a5 (ix2 c j))
    (h26 : ∀ c : Fin 256, v26 (ix2 (0 : Fin 1) c) = a6 (ix1 c)) (n : Fin 2048) (c : Fin 256) :
    EdgeValue.tPartial v3 v5 v7 v13 v16 v23 v26 n c = aggTile a0 a1 a2 a3 a4 a5 a6 n c h i := by
  unfold EdgeValue.tPartial aggTile
  exact Finset.sum_congr rfl fun e' _ => by
    rw [h3, tMsg_eq_msg a0 a1 a2 a3 a4 a5 a6 v3 v5 v7 v13 v16 v23 v26 h i h3 h5 h7 h13 h16 h23 h26]

end Tile

/-! ## The node call -/

/-- A dense layer with a rectifier on one row, its weights held transposed and its bias as a row, is the
    specification's layer on an equal input row. -/
theorem rowLayer_eq (r r' : Fin 512 → EReal) (W : Vec Ideal S512x512 .bf16) (b : Vec Ideal S1x512 .f32)
    (W' : FVec Ideal SW512 .f32) (b' : FVec Ideal SB512 .f32) (hr : ∀ k, r k = r' k)
    (hW : ∀ k j : Fin 512, W (ix2 k j) = W' (ix2 j k)) (hb : ∀ j : Fin 512, b (ix2 (0 : Fin 1) j) = b' (ix1 j))
    (j : Fin 512) :
    V1.rowLayer r W b j = max (∑ k : Fin 512, r' k * W' (ix2 j k) + b' (ix1 j)) 0 := by
  unfold V1.rowLayer
  rw [hb, Finset.sum_congr rfl fun k _ => by rw [hr, hW]]

section Node
variable (a0 : FVec Ideal SNode .f32) (a1 a2 : FVec Ideal SInc .f32) (a3 : FVec Ideal SW512 .f32)
    (a4 : FVec Ideal SB512 .f32) (a5 : FVec Ideal SW256 .f32) (a6 : FVec Ideal SB256 .f32)
  (a7 : FVec Ideal SW512 .f32) (a8 : FVec Ideal SB512 .f32) (a9 : FVec Ideal SW512 .f32)
    (a10 : FVec Ideal SB512 .f32) (a11 : FVec Ideal SW256 .f32) (a12 : FVec Ideal SB256 .f32)
  (y0 : Vec Ideal S2x2048x256 .f32) (y1 : Vec Ideal S2048x256 .f32) (x2 : Vec Ideal S512x512 .bf16)
  (x3 : Vec Ideal S1x512 .f32) (x4 : Vec Ideal S512x512 .bf16) (x5 : Vec Ideal S1x512 .f32)
  (x6 : Vec Ideal S512x256 .bf16) (x7 : Vec Ideal S1x256 .f32)

/-- The node's features joined with the two halves' summed partial sums is the specification's joined
    row: the halves and tiles regroup the sum over the edges. -/
theorem augRow_eq_aug
    (hy0 : ∀ (p : Fin 2) (n : Fin 2048) (q : Fin 256),
      y0 (ix3 p n q) = ∑ i : Fin 16, aggTile a0 a1 a2 a3 a4 a5 a6 n q p i)
    (hy1 : ∀ (n : Fin 2048) (q : Fin 256), y1 (ix2 n q) = a0 (ix2 n q)) (n : Fin 2048) (k : Fin 512) :
    V1.augRow y0 y1 n k = aug a0 a1 a2 a3 a4 a5 a6 n k := by
  unfold V1.augRow aug
  by_cases hk : k.val < 256
  · rw [dif_pos hk, dif_pos hk, hy1]
  · rw [dif_neg hk, dif_neg hk, hy0, hy0, agg_eq_sum_tiles, Fin.sum_univ_two]

/-- The node call's closed form is the specification. -/
theorem nodeFn_eq_G
    (hy0 : ∀ (p : Fin 2) (n : Fin 2048) (q : Fin 256),
      y0 (ix3 p n q) = ∑ i : Fin 16, aggTile a0 a1 a2 a3 a4 a5 a6 n q p i)
    (hy1 : ∀ (n : Fin 2048) (q : Fin 256), y1 (ix2 n q) = a0 (ix2 n q))
    (h2 : ∀ k j : Fin 512, x2 (ix2 k j) = a7 (ix2 j k)) (h3 : ∀ j : Fin 512, x3 (ix2 (0 : Fin 1) j) = a8 (ix1 j))
    (h4 : ∀ k j : Fin 512, x4 (ix2 k j) = a9 (ix2 j k)) (h5 : ∀ j : Fin 512, x5 (ix2 (0 : Fin 1) j) = a10 (ix1 j))
    (h6 : ∀ (k : Fin 512) (q : Fin 256), x6 (ix2 k q) = a11 (ix2 q k))
    (h7 : ∀ q : Fin 256, x7 (ix2 (0 : Fin 1) q) = a12 (ix1 q)) (n : Fin 2048) (q : Fin 256) :
    V1.nodeFn y0 y1 x2 x3 x4 x5 x6 x7 n q = G a0 a1 a2 a3 a4 a5 a6 a7 a8 a9 a10 a11 a12 (ix2 n q) := by
  have l1 : ∀ j : Fin 512, V1.rowLayer (V1.augRow y0 y1 n) x2 x3 j = p1 a0 a1 a2 a3 a4 a5 a6 a7 a8 n j :=
    fun j => rowLayer_eq _ (aug a0 a1 a2 a3 a4 a5 a6 n) x2 x3 a7 a8
      (augRow_eq_aug a0 a1 a2 a3 a4 a5 a6 y0 y1 hy0 hy1 n) h2 h3 j
  have l2 : ∀ j : Fin 512, V1.rowLayer (V1.rowLayer (V1.augRow y0 y1 n) x2 x3) x4 x5 j
      = p2 a0 a1 a2 a3 a4 a5 a6 a7 a8 a9 a10 n j :=
    fun j => rowLayer_eq _ (p1 a0 a1 a2 a3 a4 a5 a6 a7 a8 n) x4 x5 a9 a10 l1 h4 h5 j
  rw [G_apply]
  unfold V1.nodeFn p3
  rw [hy1, h7, Finset.sum_congr rfl fun k _ => by rw [l2, h6]]

end Node

end Cert.Spec.Bridge

end
-- ==== Proof.KernelValue.lean ====
/-
  The idealized kernel's result array as ONE function of the argument arrays: the specification `Cert.Spec.G`.
  Region 0 leaves, per core, the sum over the core's 16 edge tiles of the tiles' partial scatter sums; each tile's
  partial sum is the specification's, read through the tile's rows of the incidence arrays and the transposed weights
  the host stretch prepares; region 1 adds the two cores and applies the node perceptron row by row. The sum over all
  32768 edges is regrouped as 2 cores × 16 tiles × 1024 edges, which needs only the monoid laws of the extended reals.
-/
import proofs.«104516_j10196252360963_2_alg».proof.Proof.TwoRegions
import proofs.«104516_j10196252360963_2_alg».proof.Proof.Region0Array
import proofs.«104516_j10196252360963_2_alg».proof.Proof.Region1Array
import proofs.«104516_j10196252360963_2_alg».proof.Proof.HostRead
import proofs.«104516_j10196252360963_2_alg».proof.Proof.SpecBridge

noncomputable section

namespace Cert.KernelIdeal.Hand.Final

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open Cert.Spec

variable (m : (ℓ : Loc nD τ sig) → Buf (Elt Ideal) ℓ)

/-- The partial sum of the tile at position 16·p + j is the specification's partial aggregate of core p, tile j. -/
theorem tile_eq (c : Dev nD) (n : Fin 2048) (q : Fin 256) (p : Fin 2) (j : Fin 16) :
    V0.P (E1 m) c n q (16 * p.val + j.val) = aggTile (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n q p j := by
  have hlt : 16 * p.val + j.val < cfg0.N := by rw [show cfg0.N = 32 from N_0]; have := p.isLt; have := j.isLt; omega
  unfold V0.P
  rw [dif_pos hlt]
  unfold part
  refine (EdgeValue.pay4_apply (iblk0 (E1 m) c 0 ⟨_, hlt⟩) (iblk0 (E1 m) c 1 ⟨_, hlt⟩) (iblk0 (E1 m) c 2 ⟨_, hlt⟩) (iblk0 (E1 m) c 3 ⟨_, hlt⟩) (iblk0 (E1 m) c 4 ⟨_, hlt⟩) (iblk0 (E1 m) c 5 ⟨_, hlt⟩) (iblk0 (E1 m) c 6 ⟨_, hlt⟩) n q).trans ?_
  refine Bridge.tPartial_eq_aggTile (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ _ _ _ _ _ p j ?_ ?_ ?_ ?_ ?_ ?_ ?_ n q
  · intro e' k
    refine (V0.blk0_apply (E1 m) c ⟨_, hlt⟩ (ix2 e' k) (ix2 (edgeOf p j e') k) ?_ rfl).trans ?_
    · show (edgeOf p j e').val = 1024 * (16 * p.val + j.val) + e'.val
      rw [edgeOf_val]; ring
    · rw [show E1 m c main_arg1 = _ from Host.arg1 m c]
  · intro e' k
    refine (V0.blk1_apply (E1 m) c ⟨_, hlt⟩ (ix2 e' k) (ix2 (edgeOf p j e') k) ?_ rfl).trans ?_
    · show (edgeOf p j e').val = 1024 * (16 * p.val + j.val) + e'.val
      rw [edgeOf_val]; ring
    · rw [show E1 m c main_arg2 = _ from Host.arg2 m c]
  · intro k q'
    rw [V0.blk2_eq (E1 m) c ⟨_, hlt⟩]
    exact Host.v0 m c k q'
  · intro k j'
    rw [V0.blk3_eq (E1 m) c ⟨_, hlt⟩]
    exact Host.v2 m c k j'
  · intro j'
    rw [V0.blk4_eq (E1 m) c ⟨_, hlt⟩]
    exact Host.v11 m c j'
  · intro j' c'
    rw [V0.blk5_eq (E1 m) c ⟨_, hlt⟩]
    exact Host.v4 m c j' c'
  · intro c'
    rw [V0.blk6_eq (E1 m) c ⟨_, hlt⟩]
    exact Host.v12 m c c'

/-- THE RESULT: what region 1's write-backs leave in the result array is the specification of the arguments. -/
theorem result_eq (c : Dev nD) :
    (dat1 (F := Ideal) (E2 m) c).arrAt 8 cfg1.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨n, q, rfl⟩ : ∃ (n : Fin 2048) (q : Fin 256), i = ix2 n q := ⟨i 0, i 1, eq_ix2 i⟩
  refine (V1.arr8_apply (E2 m) c n q).trans ?_
  refine Bridge.nodeFn_eq_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ _ _ _ _ _ _ ?_ ?_ ?_ ?_ ?_ ?_ ?_ ?_ n q
  · intro p n' q'
    have e : (E2 m c main_v16 : S2x2048x256.Idx → EReal) = (dat0 (F := Ideal) (E1 m) c).arrAt 7 cfg0.N := B2_arr m c 7
    rw [e, V0.arr7_apply (E1 m) c p n' q']
    exact Finset.sum_congr rfl fun j _ => tile_eq m c n' q' p j
  · intro n' q'
    have e : (E2 m c main_arg0 : S2048x256.Idx → EReal) = V1 m c main_arg0 := B2_of_ne m c main_arg0 (by decide)
    rw [e, Host.arg0 m c]
  · intro k j
    have e : (E2 m c main_v6 : S512x512.Idx → EReal) = V1 m c main_v6 := B2_of_ne m c main_v6 (by decide)
    rw [e]; exact Host.v6 m c k j
  · intro j
    have e : (E2 m c main_v13 : S1x512.Idx → EReal) = V1 m c main_v13 := B2_of_ne m c main_v13 (by decide)
    rw [e]; exact Host.v13 m c j
  · intro k j
    have e : (E2 m c main_v8 : S512x512.Idx → EReal) = V1 m c main_v8 := B2_of_ne m c main_v8 (by decide)
    rw [e]; exact Host.v8 m c k j
  · intro j
    have e : (E2 m c main_v14 : S1x512.Idx → EReal) = V1 m c main_v14 := B2_of_ne m c main_v14 (by decide)
    rw [e]; exact Host.v14 m c j
  · intro k q'
    have e : (E2 m c main_v10 : S512x256.Idx → EReal) = V1 m c main_v10 := B2_of_ne m c main_v10 (by decide)
    rw [e]; exact Host.v10 m c k q'
  · intro q'
    have e : (E2 m c main_v15 : S1x256.Idx → EReal) = V1 m c main_v15 := B2_of_ne m c main_v15 (by decide)
    rw [e]; exact Host.v15 m c q'

/-- The idealized kernel's run, read: the result array at the specification, every argument as launched. -/
theorem run_G (ρ : Dev nD → PrngReg) :
    θ_run defs (onTc (τ := τ) (main (F := Ideal))) ⟨m, fun _ => 0, ρ⟩ (fun r => ∀ c : Dev nD,
      r.2.mem ((c.tc : Thread nD τ).loc main_v17) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m c), (h c).2⟩) (run_value (F := Ideal) m ρ)

end Cert.KernelIdeal.Hand.Final

end
-- ==== Proof.RefValueEdge.lean ====
/-
  The reference's edge stages, read at an index, are the specification's edge functions:
  the two incidence products are `recv` and `send`, their concatenation is `pre`, the first
  affine map and rectifier give `hid`, the second give `msg`.
-/
import proofs.«104516_j10196252360963_2_alg».proof.Proof.Gen.ReferenceIdeal.Read
import proofs.«104516_j10196252360963_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- Two rank-2 indices are equal when their coordinates are, read off the axis literal. -/
local macro "idx2_eq" : tactic =>
  `(tactic| (funext a; match a with | ⟨0, _⟩ => rfl | ⟨1, _⟩ => rfl))
/-- The same for rank-1 indices. -/
local macro "idx1_eq" : tactic =>
  `(tactic| (funext a; match a with | ⟨0, _⟩ => rfl))

/-- The receiver incidence times the features, at edge `e` and feature `q`. -/
theorem recv_eq (x0 : (⟨S2048x256, .f32⟩ : BufTy).Contents (Elt Ideal)) (x1 : (⟨S32768x2048, .f32⟩ : BufTy).Contents (Elt Ideal))
    (e : Fin 32768) (q : Fin 256) :
    val_main_v0 (F := Ideal) x0 x1 (ix2 e q) = Cert.Spec.recv x0 x1 e q := by
  rw [val_main_v0_apply]
  unfold Cert.Spec.recv
  refine Finset.sum_congr rfl fun k _ => ?_
  have el : lidx_main_v0 (ix2 e q) k = ix2 e k := by idx2_eq
  have er : ridx_main_v0 (ix2 e q) k = ix2 k q := by idx2_eq
  rw [el, er]

/-- The sender incidence times the features, at edge `e` and feature `q`. -/
theorem send_eq (x0 : (⟨S2048x256, .f32⟩ : BufTy).Contents (Elt Ideal)) (x2 : (⟨S32768x2048, .f32⟩ : BufTy).Contents (Elt Ideal))
    (e : Fin 32768) (q : Fin 256) :
    val_main_v1 (F := Ideal) x0 x2 (ix2 e q) = Cert.Spec.send x0 x2 e q := by
  rw [val_main_v1_apply]
  unfold Cert.Spec.send
  refine Finset.sum_congr rfl fun k _ => ?_
  have el : lidx_main_v1 (ix2 e q) k = ix2 e k := by idx2_eq
  have er : ridx_main_v1 (ix2 e q) k = ix2 k q := by idx2_eq
  rw [el, er]

/-- The concatenation along the feature axis: the sender's 256 features, then the receiver's. -/
theorem pre_eq (x0 : (⟨S2048x256, .f32⟩ : BufTy).Contents (Elt Ideal)) (x1 x2 : (⟨S32768x2048, .f32⟩ : BufTy).Contents (Elt Ideal))
    (e : Fin 32768) (k : Fin 512) :
    val_main_v2 (F := Ideal) x0 x1 x2 (ix2 e k) = Cert.Spec.pre x0 x1 x2 e k := by
  unfold val_main_v2 Cert.Spec.pre
  by_cases hk : k.val < 256
  · rw [dif_pos hk, ← send_eq]
    exact concatenate_pair_apply_left (1 : Fin S32768x512.rank) (val_main_v1 (F := Ideal) x0 x2) (val_main_v0 (F := Ideal) x0 x1) _
      (ix2 e k) rfl (ix2 e ⟨k.val, hk⟩) (fun b => match b with
        | ⟨0, _⟩ => rfl
        | ⟨1, _⟩ => rfl)
  · rw [dif_neg hk, ← recv_eq]
    have hk' : k.val - 256 < 256 := by have := k.isLt; omega
    exact concatenate_pair_apply_right (1 : Fin S32768x512.rank) (val_main_v1 (F := Ideal) x0 x2) (val_main_v0 (F := Ideal) x0 x1) _
      (ix2 e k) rfl rfl (ix2 e ⟨k.val - 256, hk'⟩) (fun b => match b with
        | ⟨0, _⟩ => fun _ => rfl
        | ⟨1, _⟩ => fun h => absurd rfl h)
      (by show k.val - 256 + 256 = k.val; omega)

/-- The first affine map and rectifier of the edge network. -/
theorem hid_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (e : Fin 32768) (j : Fin 512) :
    val_main_v8 (F := Ideal) x0 x1 x2 x3 x4 (ix2 e j) = Cert.Spec.hid x0 x1 x2 x3 x4 e j := by
  rw [val_main_v8_apply, val_main_v7_apply, val_main_v4_apply, val_main_v6_apply, val_main_v5_apply,
    val_main_call0_v0_apply, val_main_call0_cst_apply]
  unfold Cert.Spec.hid
  have eb : idx_main_v5 (idx_main_v6 (ix2 e j)) = ix1 j := by idx1_eq
  have hs : ∀ k : Fin 512, val_main_v2 (F := Ideal) x0 x1 x2 (lidx_main_v4 (ix2 e j) k)
      * val_main_v3 (F := Ideal) x3 (ridx_main_v4 (ix2 e j) k)
      = Cert.Spec.pre x0 x1 x2 e k * x3 (ix2 j k) := fun k => by
    have el : lidx_main_v4 (ix2 e j) k = ix2 e k := by idx2_eq
    have er : idx_main_v3 (ridx_main_v4 (ix2 e j) k) = ix2 j k := by idx2_eq
    rw [el, pre_eq, val_main_v3_apply, er]
  rw [eb, Finset.sum_congr rfl fun k _ => hs k]
  simp only [Ideal.maximumf_def, Ideal.addf_def, Ideal.ofBits_def, Ideal.ofBits_zero_f32]

/-- The second affine map and rectifier of the edge network: the message. -/
theorem msg_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (e : Fin 32768) (c : Fin 256) :
    val_main_v14 (F := Ideal) x0 x1 x2 x3 x4 x5 x6 (ix2 e c) = Cert.Spec.msg x0 x1 x2 x3 x4 x5 x6 e c := by
  rw [val_main_v14_apply, val_main_v13_apply, val_main_v10_apply, val_main_v12_apply, val_main_v11_apply,
    val_main_call1_v0_apply, val_main_call1_cst_apply]
  unfold Cert.Spec.msg
  have eb : idx_main_v11 (idx_main_v12 (ix2 e c)) = ix1 c := by idx1_eq
  have hs : ∀ j : Fin 512, val_main_v8 (F := Ideal) x0 x1 x2 x3 x4 (lidx_main_v10 (ix2 e c) j)
      * val_main_v9 (F := Ideal) x5 (ridx_main_v10 (ix2 e c) j)
      = Cert.Spec.hid x0 x1 x2 x3 x4 e j * x5 (ix2 c j) := fun j => by
    have el : lidx_main_v10 (ix2 e c) j = ix2 e j := by idx2_eq
    have er : idx_main_v9 (ridx_main_v10 (ix2 e c) j) = ix2 c j := by idx2_eq
    rw [el, hid_eq, val_main_v9_apply, er]
  rw [eb, Finset.sum_congr rfl fun j _ => hs j]
  simp only [Ideal.maximumf_def, Ideal.addf_def, Ideal.ofBits_def, Ideal.ofBits_zero_f32]

end Cert.ReferenceIdeal.RefValue

end
-- ==== Proof.RefValueNode.lean ====
/-
  The reference's node stages, read at an index, are the specification's node functions:
  the transposed receiver incidence times the messages is `agg`, its concatenation behind the
  features is `aug`, the three affine maps (two with a rectifier) give `p1`, `p2`, `p3`, and the
  last addition is the residual connection: the reference's result is `G`.
-/
import proofs.«104516_j10196252360963_2_alg».proof.Proof.RefValueEdge

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- Two rank-2 indices are equal when their coordinates are, read off the axis literal. -/
local macro "idx2_eq" : tactic =>
  `(tactic| (funext a; match a with | ⟨0, _⟩ => rfl | ⟨1, _⟩ => rfl))
/-- The same for rank-1 indices. -/
local macro "idx1_eq" : tactic =>
  `(tactic| (funext a; match a with | ⟨0, _⟩ => rfl))

/-- Column `n` of the receiver incidence times the messages. -/
theorem agg_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (n : Fin 2048) (c : Fin 256) :
    val_main_v16 (F := Ideal) x0 x1 x2 x3 x4 x5 x6 (ix2 n c) = Cert.Spec.agg x0 x1 x2 x3 x4 x5 x6 n c := by
  rw [val_main_v16_apply]
  unfold Cert.Spec.agg
  refine Finset.sum_congr rfl fun e _ => ?_
  have el : idx_main_v15 (lidx_main_v16 (ix2 n c) e) = ix2 e n := by idx2_eq
  have er : ridx_main_v16 (ix2 n c) e = ix2 e c := by idx2_eq
  rw [val_main_v15_apply, el, er, msg_eq]

/-- The concatenation along the feature axis: the node's 256 features, then its 256 gathered messages. -/
theorem aug_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (n : Fin 2048) (k : Fin 512) :
    val_main_v17 (F := Ideal) x0 x1 x2 x3 x4 x5 x6 (ix2 n k) = Cert.Spec.aug x0 x1 x2 x3 x4 x5 x6 n k := by
  unfold val_main_v17 Cert.Spec.aug
  by_cases hk : k.val < 256
  · rw [dif_pos hk]
    exact concatenate_pair_apply_left (1 : Fin S2048x512.rank) x0 (val_main_v16 (F := Ideal) x0 x1 x2 x3 x4 x5 x6) _
      (ix2 n k) rfl (ix2 n ⟨k.val, hk⟩) (fun b => match b with
        | ⟨0, _⟩ => rfl
        | ⟨1, _⟩ => rfl)
  · rw [dif_neg hk, ← agg_eq]
    have hk' : k.val - 256 < 256 := by have := k.isLt; omega
    exact concatenate_pair_apply_right (1 : Fin S2048x512.rank) x0 (val_main_v16 (F := Ideal) x0 x1 x2 x3 x4 x5 x6) _
      (ix2 n k) rfl rfl (ix2 n ⟨k.val - 256, hk'⟩) (fun b => match b with
        | ⟨0, _⟩ => fun _ => rfl
        | ⟨1, _⟩ => fun h => absurd rfl h)
      (by show k.val - 256 + 256 = k.val; omega)

/-- The first affine map and rectifier of the node network. -/
theorem p1_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (x7 : (⟨S512x512, .f32⟩ : BufTy).Contents (Elt Ideal)) (x8 : (⟨S512, .f32⟩ : BufTy).Contents (Elt Ideal))
    (n : Fin 2048) (j : Fin 512) :
    val_main_v23 (F := Ideal) x0 x1 x2 x3 x4 x5 x6 x7 x8 (ix2 n j) = Cert.Spec.p1 x0 x1 x2 x3 x4 x5 x6 x7 x8 n j := by
  rw [val_main_v23_apply, val_main_v22_apply, val_main_v19_apply, val_main_v21_apply, val_main_v20_apply,
    val_main_call2_v0_apply, val_main_call2_cst_apply]
  unfold Cert.Spec.p1
  have eb : idx_main_v20 (idx_main_v21 (ix2 n j)) = ix1 j := by idx1_eq
  have hs : ∀ k : Fin 512, val_main_v17 (F := Ideal) x0 x1 x2 x3 x4 x5 x6 (lidx_main_v19 (ix2 n j) k)
      * val_main_v18 (F := Ideal) x7 (ridx_main_v19 (ix2 n j) k)
      = Cert.Spec.aug x0 x1 x2 x3 x4 x5 x6 n k * x7 (ix2 j k) := fun k => by
    have el : lidx_main_v19 (ix2 n j) k = ix2 n k := by idx2_eq
    have er : idx_main_v18 (ridx_main_v19 (ix2 n j) k) = ix2 j k := by idx2_eq
    rw [el, aug_eq, val_main_v18_apply, er]
  rw [eb, Finset.sum_congr rfl fun k _ => hs k]
  simp only [Ideal.maximumf_def, Ideal.addf_def, Ideal.ofBits_def, Ideal.ofBits_zero_f32]

/-- The second affine map and rectifier of the node network. -/
theorem p2_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (n : Fin 2048) (j : Fin 512) :
    val_main_v29 (F := Ideal) x0 x1 x2 x3 x4 x5 x6 x7 x8 x9 x10 (ix2 n j)
      = Cert.Spec.p2 x0 x1 x2 x3 x4 x5 x6 x7 x8 x9 x10 n j := by
  rw [val_main_v29_apply, val_main_v28_apply, val_main_v25_apply, val_main_v27_apply, val_main_v26_apply,
    val_main_call3_v0_apply, val_main_call3_cst_apply]
  unfold Cert.Spec.p2
  have eb : idx_main_v26 (idx_main_v27 (ix2 n j)) = ix1 j := by idx1_eq
  have hs : ∀ k : Fin 512, val_main_v23 (F := Ideal) x0 x1 x2 x3 x4 x5 x6 x7 x8 (lidx_main_v25 (ix2 n j) k)
      * val_main_v24 (F := Ideal) x9 (ridx_main_v25 (ix2 n j) k)
      = Cert.Spec.p1 x0 x1 x2 x3 x4 x5 x6 x7 x8 n k * x9 (ix2 j k) := fun k => by
    have el : lidx_main_v25 (ix2 n j) k = ix2 n k := by idx2_eq
    have er : idx_main_v24 (ridx_main_v25 (ix2 n j) k) = ix2 j k := by idx2_eq
    rw [el, p1_eq, val_main_v24_apply, er]
  rw [eb, Finset.sum_congr rfl fun k _ => hs k]
  simp only [Ideal.maximumf_def, Ideal.addf_def, Ideal.ofBits_def, Ideal.ofBits_zero_f32]

/-- The output affine map of the node network (no rectifier). -/
theorem p3_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x11 : (⟨S256x512, .f32⟩ : BufTy).Contents (Elt Ideal)) (x12 : (⟨S256, .f32⟩ : BufTy).Contents (Elt Ideal))
    (n : Fin 2048) (q : Fin 256) :
    val_main_v34 (F := Ideal) x0 x1 x2 x3 x4 x5 x6 x7 x8 x9 x10 x11 x12 (ix2 n q)
      = Cert.Spec.p3 x0 x1 x2 x3 x4 x5 x6 x7 x8 x9 x10 x11 x12 n q := by
  rw [val_main_v34_apply, val_main_v31_apply, val_main_v33_apply, val_main_v32_apply]
  unfold Cert.Spec.p3
  have eb : idx_main_v32 (idx_main_v33 (ix2 n q)) = ix1 q := by idx1_eq
  have hs : ∀ k : Fin 512, val_main_v29 (F := Ideal) x0 x1 x2 x3 x4 x5 x6 x7 x8 x9 x10 (lidx_main_v31 (ix2 n q) k)
      * val_main_v30 (F := Ideal) x11 (ridx_main_v31 (ix2 n q) k)
      = Cert.Spec.p2 x0 x1 x2 x3 x4 x5 x6 x7 x8 x9 x10 n k * x11 (ix2 q k) := fun k => by
    have el : lidx_main_v31 (ix2 n q) k = ix2 n k := by idx2_eq
    have er : idx_main_v30 (ridx_main_v31 (ix2 n q) k) = ix2 q k := by idx2_eq
    rw [el, p2_eq, val_main_v30_apply, er]
  rw [eb, Finset.sum_congr rfl fun k _ => hs k]
  simp only [Ideal.addf_def]

/-- The reference's last stage is the specification: the features plus the node network's output. -/
theorem val_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x11 : (⟨S256x512, .f32⟩ : BufTy).Contents (Elt Ideal)) (x12 : (⟨S256, .f32⟩ : BufTy).Contents (Elt Ideal)) :
    val_main_v35 (F := Ideal) x0 x1 x2 x3 x4 x5 x6 x7 x8 x9 x10 x11 x12
      = Cert.Spec.G x0 x1 x2 x3 x4 x5 x6 x7 x8 x9 x10 x11 x12 := by
  funext i
  obtain ⟨n, q, rfl⟩ : ∃ (n : Fin 2048) (q : Fin 256), i = ix2 n q := ⟨i 0, i 1, eq_ix2 i⟩
  rw [val_main_v35_apply, p3_eq, Cert.Spec.G_apply]
  simp only [Ideal.addf_def]

/-- The term the reference's run states for its result buffer, as a function of the thirteen
    argument arrays, is the specification. -/
theorem result_eq (x0 : (⟨S2048x256, .f32⟩ : BufTy).Contents (Elt Ideal)) (x1 x2 : (⟨S32768x2048, .f32⟩ : BufTy).Contents (Elt Ideal))
    (x3 : (⟨S512x512, .f32⟩ : BufTy).Contents (Elt Ideal)) (x4 : (⟨S512, .f32⟩ : BufTy).Contents (Elt Ideal))
    (x5 : (⟨S256x512, .f32⟩ : BufTy).Contents (Elt Ideal)) (x6 : (⟨S256, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x11 : (⟨S256x512, .f32⟩ : BufTy).Contents (Elt Ideal)) (x12 : (⟨S256, .f32⟩ : BufTy).Contents (Elt Ideal)) :
    addf (x0) (addf (Host.dotGeneral (F := Ideal) (φ₁ := .f32) (φ₂ := .f32) dot_S2048x512_S512x256_S2048x256_1_0_0_1_n_n none (maximumf (addf (Host.dotGeneral (F := Ideal) (φ₁ := .f32) (φ₂ := .f32) dot_S2048x512_S512x512_S2048x512_1_0_0_1_n_n none (maximumf (addf (Host.dotGeneral (F := Ideal) (φ₁ := .f32) (φ₂ := .f32) dot_S2048x512_S512x512_S2048x512_1_0_0_1_n_n none (concatenate S2048x512 1 [⟨S2048x256, (x0)⟩, ⟨S2048x256, (Host.dotGeneral (F := Ideal) (φ₁ := .f32) (φ₂ := .f32) dot_S2048x32768_S32768x256_S2048x256_1_0_0_1_n_n none (transpose S2048x32768 [1, 0] (x1) transposes_S32768x2048_S2048x32768_1_0) (maximumf (addf (Host.dotGeneral (F := Ideal) (φ₁ := .f32) (φ₂ := .f32) dot_S32768x512_S512x256_S32768x256_1_0_0_1_n_n none (maximumf (addf (Host.dotGeneral (F := Ideal) (φ₁ := .f32) (φ₂ := .f32) dot_S32768x512_S512x512_S32768x512_1_0_0_1_n_n none (concatenate S32768x512 1 [⟨S32768x256, (Host.dotGeneral (F := Ideal) (φ₁ := .f32) (φ₂ := .f32) dot_S32768x2048_S2048x256_S32768x256_1_0_0_1_n_n none (x2) (x0))⟩, ⟨S32768x256, (Host.dotGeneral (F := Ideal) (φ₁ := .f32) (φ₂ := .f32) dot_S32768x2048_S2048x256_S32768x256_1_0_0_1_n_n none (x1) (x0))⟩] concatenates_S32768x256_S32768x256_S32768x512_d1) (transpose S512x512 [1, 0] (x3) transposes_S512x512_S512x512_1_0)) (broadcastInDim S32768x512 ![0, 1] bcast_S1x512_S32768x512_0_1 (broadcastInDim S1x512 ![1] bcast_S512_S1x512_1 (x4)))) (broadcastInDim S32768x512 ![] bcast_S_S32768x512 (constant (F := Ideal) S_ .f32 0x00000000#32))) (transpose S512x256 [1, 0] (x5) transposes_S256x512_S512x256_1_0)) (broadcastInDim S32768x256 ![0, 1] bcast_S1x256_S32768x256_0_1 (broadcastInDim S1x256 ![1] bcast_S256_S1x256_1 (x6)))) (broadcastInDim S32768x256 ![] bcast_S_S32768x256 (constant (F := Ideal) S_ .f32 0x00000000#32))))⟩] concatenates_S2048x256_S2048x256_S2048x512_d1) (transpose S512x512 [1, 0] (x7) transposes_S512x512_S512x512_1_0)) (broadcastInDim S2048x512 ![0, 1] bcast_S1x512_S2048x512_0_1 (broadcastInDim S1x512 ![1] bcast_S512_S1x512_1 (x8)))) (broadcastInDim S2048x512 ![] bcast_S_S2048x512 (constant (F := Ideal) S_ .f32 0x00000000#32))) (transpose S512x512 [1, 0] (x9) transposes_S512x512_S512x512_1_0)) (broadcastInDim S2048x512 ![0, 1] bcast_S1x512_S2048x512_0_1 (broadcastInDim S1x512 ![1] bcast_S512_S1x512_1 (x10)))) (broadcastInDim S2048x512 ![] bcast_S_S2048x512 (constant (F := Ideal) S_ .f32 0x00000000#32))) (transpose S512x256 [1, 0] (x11) transposes_S256x512_S512x256_1_0)) (broadcastInDim S2048x256 ![0, 1] bcast_S1x256_S2048x256_0_1 (broadcastInDim S1x256 ![1] bcast_S256_S1x256_1 (x12))))
      = Cert.Spec.G x0 x1 x2 x3 x4 x5 x6 x7 x8 x9 x10 x11 x12 :=
  (val_main_v35_eq (F := Ideal) x0 x1 x2 x3 x4 x5 x6 x7 x8 x9 x10 x11 x12).trans
    (val_eq x0 x1 x2 x3 x4 x5 x6 x7 x8 x9 x10 x11 x12)

end Cert.ReferenceIdeal.RefValue

end
-- ==== Proof.RefRun.lean ====
/-
  The reference, run: every weakly fair execution ends with its result buffer holding the
  specification `G` of the argument arrays it was started with, and with the arguments unchanged.
  (The generated run states the result as the operations' composed term; the stage lemmas identify
  that term with `G`.)
-/
import proofs.«104516_j10196252360963_2_alg».proof.Proof.RefValueNode

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- From any memory with zero counters, on every device: the reference's result is `G` of its
    arguments' contents at the start, and the arguments are unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨by rw [(h c).1, Read.val_main_v35_eq, val_eq], (h c).2⟩)
    (Cert.ReferenceIdeal.Value.run (F := Ideal) m ρ)

end Cert.ReferenceIdeal.RefValue

end
-- ==== Proof.lean ====
/-
  The certificate's five claims for the graph message-passing layer.

  Both programs compute, at node n and lane q,   x[n,q] + MLP₃(x[n,·] ++ agg[n,·])[q],   where
  agg[n,c] = Σ_e rel_rec[e,n] · msg[e,c]  and  msg[e,·] = relu(W₂ · relu(W₁ · (x[send e,·] ++ x[recv e,·]) + b₁) + b₂),
  the gathers x[send e,·], x[recv e,·] written as products with the incidence arrays. The reference sums over all 32768
  edges at once. The kernel walks 2 cores × 16 tiles of 1024 edges: each core's accumulator starts at zero, receives one
  tile's partial sum per grid point, and is written out after the core's last tile; a second kernel adds the two cores and
  applies the node perceptron. At the ideal instance every format change is the identity and each matrix product into a
  zero accumulator is the plain finite sum, so the two results differ only in how the sum over the edges is grouped —
  and regrouping a finite sum needs nothing but the commutative-monoid laws of the extended reals: the precondition
  (finite inputs) is never opened.

  The frames: the reference's is its run with the result dropped; the two kernel programs' (the word-level one and its
  idealization are the same text, read at two instances) are proved once, generic in the instance: each region's body
  is run symbolically in each of its control cases, the edge kernel's accumulator is carried between grid points as the
  region's invariant, and the two regions are chained through the contents every unscoped buffer holds between them.
  The ideal pass rewrote nothing, so `preserves` is trivial.
-/
import proofs.«104516_j10196252360963_2_alg».proof.Defs
import proofs.«104516_j10196252360963_2_alg».proof.Proof.Gen.Kernel
import proofs.«104516_j10196252360963_2_alg».proof.Proof.Gen.KernelIdeal
import proofs.«104516_j10196252360963_2_alg».proof.Proof.Gen.ReferenceIdeal
import proofs.«104516_j10196252360963_2_alg».proof.Proof.Gen.Pre_finite_inputs
import proofs.«104516_j10196252360963_2_alg».proof.Proof.Bits.TwoRegions
import proofs.«104516_j10196252360963_2_alg».proof.Proof.KernelValue
import proofs.«104516_j10196252360963_2_alg».proof.Proof.RefRun

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefValue.run_G m ρ)

theorem preserves : Cert.preserves_Kernel_KernelIdeal := trivial

/-- Both idealized programs end with the result array at the specification of the arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Hand.Final.run_G m ρ, ?_⟩
  refine (θ_run Cert.ReferenceIdeal.defs _ _).mono (fun _ h c => ⟨(h c).1.trans ?_, (h c).2⟩)
    (Cert.ReferenceIdeal.RefValue.run_G m' ρ')
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
